-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x512 : Shape := ⟨3, ![128, 256, 512]⟩
abbrev S512x256 : Shape := ⟨2, ![512, 256]⟩
abbrev S1024x2048 : Shape := ⟨2, ![1024, 2048]⟩
abbrev S4096x2048 : Shape := ⟨2, ![4096, 2048]⟩
abbrev S2048 : Shape := ⟨1, ![2048]⟩
abbrev S2048x2048 : Shape := ⟨2, ![2048, 2048]⟩
abbrev S2048x3 : Shape := ⟨2, ![2048, 3]⟩
abbrev S3 : Shape := ⟨1, ![3]⟩
abbrev S_ : Shape := ⟨0, ![]⟩

class Facts : Prop where
  bcast_S_S128x256x512 : S_.BroadcastsInDim S128x256x512 (![] : Fin 0 → Fin S128x256x512.rank)
  reducesTo_S128x256x512_S_d0_1_2 : S128x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048x3 : S_.BroadcastsInDim S2048x3 (![] : Fin 0 → Fin S2048x3.rank)
  reducesTo_S2048x3_S_d0_1 : S2048x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S2048 .f32) (main_arg8 : FVec F S2048x3 .f32) (main_arg9 : FVec F S3 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x3 .f32 := Host.absf main_arg8
  let main_cst_14 : FVec F S_ .f32 := constant S_ .f32 0x7F800000#32
  let main_v40 : FVec F S2048x3 .f32 := broadcastInDim S2048x3 ![] bcast_S_S2048x3 main_cst_14
  let main_v41 : IVec S2048x3 1 := cmpf .olt main_v39 main_v40
  let main_c_15 : IVec S_ 1 := constantI S_ 1 1#1
  let main_v42 : IVec S_ 1 := (fun x v => Host.reduce IntOp.andi x v reducesTo_S2048x3_S_d0_1 h_S_) main_v41 main_c_15
  let main_v43 : IVec S_ 1 := andi main_v38 main_v42
  let main_v44 : FVec F S3 .f32 := Host.absf main_arg9
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  main_v48

def fn_part1 {F : FTy → Type} [FloatOps F] (main_arg4 : FVec F S4096x2048 .f32) (main_arg5 : FVec F S2048 .f32) (main_arg6 : FVec F S2048x2048 .f32) (main_arg7 : FVec F S2048 .f32) (main_arg8 : FVec F S2048x3 .f32) (main_arg9 : FVec F S3 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S128x256x512 .f32) (main_arg1 : FVec F S128x256x512 .f32) (main_arg2 : FVec F S512x256 .f32) (main_arg3 : FVec F S1024x2048 .f32) (main_arg4 : FVec F S4096x2048 .f32) (main_arg5 : FVec F S2048 .f32) (main_arg6 : FVec F S2048x2048 .f32) (main_arg7 : FVec F S2048 .f32) (main_arg8 : FVec F S2048x3 .f32) (main_arg9 : FVec F S3 .f32) : IVec S_ 1 :=
  let main_v0 : FVec F S128x256x512 .f32 := Host.absf main_arg0
  let main_cst : FVec F S_ .f32 := constant S_ .f32 0x7F800000#32
  let main_v1 : FVec F S128x256x512 .f32 := broadcastInDim S128x256x512 ![] bcast_S_S128x256x512 main_cst
  let main_v2 : IVec S128x256x512 1 := cmpf .olt main_v0 main_v1
  let main_c : IVec S_ 1 := constantI S_ 1 1#1
  let main_v3 : IVec S_ 1 := (fun x v => Host.reduce IntOp.andi x v reducesTo_S128x256x512_S_d0_1_2 h_S_) main_v2 main_c
  let main_v4 : FVec F S128x256x512 .f32 := Host.absf main_arg1
  let main_cst_0 : FVec F S_ .f32 := constant S_ .f32 0x7F800000#32
  let main_v5 : FVec F S128x256x512 .f32 := broadcastInDim S128x256x512 ![] bcast_S_S128x256x512 main_cst_0
  let main_v6 : IVec S128x256x512 1 := cmpf .olt main_v4 main_v5
  let main_c_1 : IVec S_ 1 := constantI S_ 1 1#1
  let main_v7 : IVec S_ 1 := (fun x v => Host.reduce IntOp.andi x v reducesTo_S128x256x512_S_d0_1_2 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_v13 main_v16
-- ==== Kernel.lean ====
abbrev S128x256x512 : Shape := ⟨3, ![128, 256, 512]⟩
abbrev S512x256 : Shape := ⟨2, ![512, 256]⟩
abbrev S1024x2048 : Shape := ⟨2, ![1024, 2048]⟩
abbrev S4096x2048 : Shape := ⟨2, ![4096, 2048]⟩
abbrev S2048 : Shape := ⟨1, ![2048]⟩
abbrev S2048x2048 : Shape := ⟨2, ![2048, 2048]⟩
abbrev S2048x3 : Shape := ⟨2, ![2048, 3]⟩
abbrev S3 : Shape := ⟨1, ![3]⟩
abbrev S128x2048 : Shape := ⟨2, ![128, 2048]⟩
abbrev S8x256x512 : Shape := ⟨3, ![8, 256, 512]⟩
abbrev S8x2048 : Shape := ⟨2, ![8, 2048]⟩
abbrev S2048x512 : Shape := ⟨2, ![2048, 512]⟩
abbrev S2048x256 : Shape := ⟨2, ![2048, 256]⟩
abbrev S8x256x256 : Shape := ⟨3, ![8, 256, 256]⟩
abbrev S8x256 : Shape := ⟨2, ![8, 256]⟩
abbrev S8x256x1 : Shape := ⟨3, ![8, 256, 1]⟩
abbrev S8x256x1024 : Shape := ⟨3, ![8, 256, 1024]⟩
abbrev S2048x1024 : Shape := ⟨2, ![2048, 1024]⟩
abbrev S1024x256 : Shape := ⟨2, ![1024, 256]⟩
abbrev S128x4096 : Shape := ⟨2, ![128, 4096]⟩
abbrev S1x2048 : Shape := ⟨2, ![1, 2048]⟩
abbrev S1x3 : Shape := ⟨2, ![1, 3]⟩
abbrev S128x3 : Shape := ⟨2, ![128, 3]⟩
abbrev S64x4096 : Shape := ⟨2, ![64, 4096]⟩
abbrev S64x3 : Shape := ⟨2, ![64, 3]⟩
abbrev S64x2048 : Shape := ⟨2, ![64, 2048]⟩

abbrev nBuf : Space → Nat
  | .hbm => 22
  | .vmem => 20
  | .smem => 0
  | _ => 0

abbrev bufTy : (tb : Table) → Fin (tcTables nBuf tb) → BufTy
  | .hbm, ⟨0, _⟩ => ⟨S128x256x512, .f32⟩
  | .hbm, ⟨1, _⟩ => ⟨S128x256x512, .f32⟩
  | .hbm, ⟨2, _⟩ => ⟨S512x256, .f32⟩
  | .hbm, ⟨3, _⟩ => ⟨S1024x2048, .f32⟩
  | .hbm, ⟨4, _⟩ => ⟨S4096x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x3, .f32⟩
  | .hbm, ⟨9, _⟩ => ⟨S3, .f32⟩
  | .hbm, ⟨10, _⟩ => ⟨S512x256, .bf16⟩
  | .hbm, ⟨11, _⟩ => ⟨S1024x2048, .bf16⟩
  | .hbm, ⟨12, _⟩ => ⟨S128x2048, .f32⟩
  | .hbm, ⟨13, _⟩ => ⟨S128x2048, .f32⟩
  | .hbm, ⟨14, _⟩ => ⟨S128x4096, .f32⟩
  | .hbm, ⟨15, _⟩ => ⟨S4096x2048, .bf16⟩
  | .hbm, ⟨16, _⟩ => ⟨S2048x2048, .bf16⟩
  | .hbm, ⟨17, _⟩ => ⟨S2048x3, .bf16⟩
  | .hbm, ⟨18, _⟩ => ⟨S1x2048, .f32⟩
  | .hbm, ⟨19, _⟩ => ⟨S1x2048, .f32⟩
  | .hbm, ⟨20, _⟩ => ⟨S1x3, .f32⟩
  | .hbm, ⟨21, _⟩ => ⟨S128x3, .f32⟩
  | .local _ .vmem, ⟨0, _⟩ => ⟨S8x256x512, .f32⟩
  | .local _ .vmem, ⟨1, _⟩ => ⟨S8x256x512, .f32⟩
  | .local _ .vmem, ⟨2, _⟩ => ⟨S8x256x512, .f32⟩
  | .local _ .vmem, ⟨3, _⟩ => ⟨S8x256x512, .f32⟩
  | .local _ .vmem, ⟨4, _⟩ => ⟨S512x256, .bf16⟩
  | .local _ .vmem, ⟨5, _⟩ => ⟨S1024x2048, .bf16⟩
  | .local _ .vmem, ⟨6, _⟩ => ⟨S8x2048, .f32⟩
  | .local _ .vmem, ⟨7, _⟩ => ⟨S8x2048, .f32⟩
  | .local _ .vmem, ⟨8, _⟩ => ⟨S8x2048, .f32⟩
  | .local _ .vmem, ⟨9, _⟩ => ⟨S8x2048, .f32⟩
  | .local _ .vmem, ⟨10, _⟩ => ⟨S64x4096, .f32⟩
  | .local _ .vmem, ⟨11, _⟩ => ⟨S64x4096, .f32⟩
  | .local _ .vmem, ⟨12, _⟩ => ⟨S4096x2048, .bf16⟩
  | .local _ .vmem, ⟨13, _⟩ => ⟨S1x2048, .f32⟩
  | .local _ .vmem, ⟨14, _⟩ => ⟨S2048x2048, .bf16⟩
  | .local _ .vmem, ⟨15, _⟩ => ⟨S1x2048, .f32⟩
  | .local _ .vmem, ⟨16, _⟩ => ⟨S2048x3, .bf16⟩
  | .local _ .vmem, ⟨17, _⟩ => ⟨S1x3, .f32⟩
  | .local _ .vmem, ⟨18, _⟩ => ⟨S64x3, .f32⟩
  | .local _ .vmem, ⟨19, _⟩ => ⟨S64x3, .f32⟩
  | _, _ => ⟨S128x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x3 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S64x3 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bitsLt_bf16_f32 : FTy.bits .bf16 < FTy.bits .f32
  inb_S8x256x512_S8x256x512_0_0_0 : ∀ a, (![0, 0, 0] : Fin 3 → Nat) a + S8x256x512.size a ≤ S8x256x512.size a
  h_S8x256x512 : 0 < S8x256x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S8x256x512_S2048x512 : S8x256x512.ShapeCasts S2048x512
  shapeCasts_S2048x256_S8x256x256 : S2048x256.ShapeCasts S8x256x256
  reduces_S8x256x256_S8x256 : S8x256x256.Reduces [2] S8x256
  shapeCasts_S8x256_S8x256x1 : S8x256.ShapeCasts S8x256x1
  broadcasts_S8x256x1_S8x256x256 : S8x256x1.Broadcasts S8x256x256
  transposes_S8x256x256_p0_2_1_S8x256x256 : S8x256x256.Transposes [0, 2, 1] S8x256x256
  concatenates_S8x256x512_S8x256x512_S8x256x1024_d2 : Shape.Concatenates [S8x256x512, S8x256x512] S8x256x1024 2
  shapeCasts_S8x256x1024_S2048x1024 : S8x256x1024.ShapeCasts S2048x1024
  inb_S1024x2048_S1024x256_0_0 : ∀ a, (![0, 0] : Fin 2 → Nat) a + S1024x256.size a ≤ S1024x2048.size a
  h_S1024x256 : 0 < S1024x256.numel
  shapeCasts_S1024x256_S1024x256 : S1024x256.ShapeCasts S1024x256
  reduces_S8x256x256_S8x256_2 : S8x256x256.Reduces [1] S8x256
  inb_S8x2048_S8x256_0_0 : ∀ a, (![0, 0] : Fin 2 → Nat) a + S8x256.size a ≤ S8x2048.size a
  h_S8x256 : 0 < S8x256.numel
  inb_S1024x2048_S1024x256_0_256 : ∀ a, (![0, 256] : Fin 2 → Nat) a + S1024x256.size a ≤ S1024x2048.size a
  inb_S8x2048_S8x256_0_256 : ∀ a, (![0, 256] : Fin 2 → Nat) a + S8x256.size a ≤ S8x2048.size a
  inb_S1024x2048_S1024x256_0_512 : ∀ a, (![0, 512] : Fin 2 → Nat) a + S1024x256.size a ≤ S1024x2048.size a
  inb_S8x2048_S8x256_0_512 : ∀ a, (![0, 512] : Fin 2 → Nat) a + S8x256.size a ≤ S8x2048.size a
  inb_S1024x2048_S1024x256_0_768 : ∀ a, (![0, 768] : Fin 2 → Nat) a + S1024x256.size a ≤ S1024x2048.size a
  inb_S8x2048_S8x256_0_768 : ∀ a, (![0, 768] : Fin 2 → Nat) a + S8x256.size a ≤ S8x2048.size a
  inb_S1024x2048_S1024x256_0_1024 : ∀ a, (![0, 1024] : Fin 2 → Nat) a + S1024x256.size a ≤ S1024x2048.size a
  inb_S8x2048_S8x256_0_1024 : ∀ a, (![0, 1024] : Fin 2 → Nat) a + S8x256.size a ≤ S8x2048.size a
  inb_S1024x2048_S1024x256_0_1280 : ∀ a, (![0, 1280] : Fin 2 → Nat) a + S1024x256.size a ≤ S1024x2048.size a
  inb_S8x2048_S8x256_0_1280 : ∀ a, (![0, 1280] : Fin 2 → Nat) a + S8x256.size a ≤ S8x2048.size a
  inb_S1024x2048_S1024x256_0_1536 : ∀ a, (![0, 1536] : Fin 2 → Nat) a + S1024x256.size a ≤ S1024x2048.size a
  inb_S8x2048_S8x256_0_1536 : ∀ a, (![0, 1536] : Fin 2 → Nat) a + S8x256.size a ≤ S8x2048.size a
  inb_S1024x2048_S1024x256_0_1792 : ∀ a, (![0, 1792] : Fin 2 → Nat) a + S1024x256.size a ≤ S1024x2048.size a
  inb_S8x2048_S8x256_0_1792 : ∀ a, (![0, 1792] : Fin 2 → Nat) a + S8x256.size a ≤ S8x2048.size a
  concatenates_S128x2048_S128x2048_S128x4096_d1 : Shape.Concatenates [S128x2048, S128x2048] S128x4096 1
  shapeCasts_S2048_S1x2048 : S2048.ShapeCasts S1x2048
  shapeCasts_S3_S1x3 : S3.ShapeCasts S1x3
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S64x3 : S1x3.Broadcasts S64x3
  inb_S64x3_S64x3_0_0 : ∀ a, (![0, 0] : Fin 2 → Nat) a + S64x3.size a ≤ S64x3.size a
  h_S64x3 : 0 < S64x3.numel
  dot_S2048x512_S512x256_S2048x256_1_0_0_1_n_n_wf : DotDims.WF S2048x512 S512x256 S2048x256 [1] [0] [0] [1] [] []
  dot_S8x256x256_S8x256x256_S8x256x256_2_2_1_1_0_0_wf : DotDims.WF S8x256x256 S8x256x256 S8x256x256 [2] [2] [1] [1] [0] [0]
  dot_S8x256x256_S8x256x512_S8x256x512_2_1_1_2_0_0_wf : DotDims.WF S8x256x256 S8x256x512 S8x256x512 [2] [1] [1] [2] [0] [0]
  dot_S2048x1024_S1024x256_S2048x256_1_0_0_1_n_n_wf : DotDims.WF S2048x1024 S1024x256 S2048x256 [1] [0] [0] [1] [] []
  dot_S64x4096_S4096x2048_S64x2048_1_0_0_1_n_n_wf : DotDims.WF S64x4096 S4096x2048 S64x2048 [1] [0] [0] [1] [] []
  dot_S64x2048_S2048x2048_S64x2048_1_0_0_1_n_n_wf : DotDims.WF S64x2048 S2048x2048 S64x2048 [1] [0] [0] [1] [] []
  dot_S64x2048_S2048x3_S64x3_1_0_0_1_n_n_wf : DotDims.WF S64x2048 S2048x3 S64x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S128x256x512.size a
  hwx0_0 : ∀ i : grid0.Coords, EltTy.bits .f32 = 32 ∨ (Rect.block (s := S128x256x512) S8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x512.size a ≤ S128x256x512.size a
  hwx0_1 : ∀ i : grid0.Coords, EltTy.bits .f32 = 32 ∨ (Rect.block (s := S128x256x512) S8x256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x2048.size a ≤ S128x2048.size a
  hwx0_4 : ∀ i : grid0.Coords, EltTy.bits .f32 = 32 ∨ (Rect.block (s := S128x2048) S8x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x2048.size a ≤ S128x2048.size a
  hwx0_5 : ∀ i : grid0.Coords, EltTy.bits .f32 = 32 ∨ (Rect.block (s := S128x2048) S8x2048.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x4096.size a ≤ S128x4096.size a
  hwx1_0 : ∀ i : grid1.Coords, EltTy.bits .f32 = 32 ∨ (Rect.block (s := S128x4096) S64x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x2048.size a ≤ S4096x2048.size a
  hwx1_1 : ∀ i : grid1.Coords, EltTy.bits .bf16 = 32 ∨ (Rect.block (s := S4096x2048) S4096x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S2048x2048.size a
  hwx1_3 : ∀ i : grid1.Coords, EltTy.bits .bf16 = 32 ∨ (Rect.block (s := S2048x2048) S2048x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x3.size a ≤ S2048x3.size a
  hwx1_5 : ∀ i : grid1.Coords, EltTy.bits .bf16 = 32 ∨ (Rect.block (s := S2048x3) S2048x3.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x3.size a ≤ S1x3.size a
  hwx1_6 : ∀ i : grid1.Coords, EltTy.bits .f32 = 32 ∨ (Rect.block (s := S1x3) S1x3.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S64x3.size a ≤ S128x3.size a
  hwx1_7 : ∀ i : grid1.Coords, EltTy.bits .f32 = 32 ∨ (Rect.block (s := S128x3) S64x3.size (cc1_transform_7 i) (hinb1_7 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S8x256x256_S8x256x256_S8x256x256_2_2_1_1_0_0 : DotDims S8x256x256 S8x256x256 S8x256x256 where
  lhsContracting := [2]
  rhsContracting := [2]
  lhsNonContracting := [1]
  rhsNonContracting := [1]
  lhsBatch := [0]
  rhsBatch := [0]
  wf := dot_S8x256x256_S8x256x256_S8x256x256_2_2_1_1_0_0_wf
def dot_S8x256x256_S8x256x512_S8x256x512_2_1_1_2_0_0 : DotDims S8x256x256 S8x256x512 S8x256x512 where
  lhsContracting := [2]
  rhsContracting := [1]
  lhsNonContracting := [1]
  rhsNonContracting := [2]
  lhsBatch := [0]
  rhsBatch := [0]
  wf := dot_S8x256x256_S8x256x512_S8x256x512_2_1_1_2_0_0_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S64x4096_S4096x2048_S64x2048_1_0_0_1_n_n : DotDims S64x4096 S4096x2048 S64x2048 where
  lhsContracting := [1]
  rhsContracting := [0]
  lhsNonContracting := [0]
  rhsNonContracting := [1]
  lhsBatch := []
  rhsBatch := []
  wf := dot_S64x4096_S4096x2048_S64x2048_1_0_0_1_n_n_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf
def dot_S64x2048_S2048x3_S64x3_1_0_0_1_n_n : DotDims S64x2048 S2048x3 S64x3 where
  lhsContracting := [1]
  rhsContracting := [0]
  lhsNonContracting := [0]
  rhsNonContracting := [1]
  lhsBatch := []
  rhsBatch := []
  wf := dot_S64x2048_S2048x3_S64x3_1_0_0_1_n_n_wf

abbrev win0_0 : Pipeline.Window sig grid0 :=
  Pipeline.Window.ofSpec (Memref.whole main_arg0) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S8x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S8x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3) S64x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S4096x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S2048x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S2048x3.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x3.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S64x3.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S128x256x512 : Shape := ⟨3, ![128, 256, 512]⟩
abbrev S512x256 : Shape := ⟨2, ![512, 256]⟩
abbrev S1024x2048 : Shape := ⟨2, ![1024, 2048]⟩
abbrev S4096x2048 : Shape := ⟨2, ![4096, 2048]⟩
abbrev S2048 : Shape := ⟨1, ![2048]⟩
abbrev S2048x2048 : Shape := ⟨2, ![2048, 2048]⟩
abbrev S2048x3 : Shape := ⟨2, ![2048, 3]⟩
abbrev S3 : Shape := ⟨1, ![3]⟩
abbrev S128x256x256 : Shape := ⟨3, ![128, 256, 256]⟩
abbrev S_ : Shape := ⟨0, ![]⟩
abbrev S128x256 : Shape := ⟨2, ![128, 256]⟩
abbrev S128x256x1 : Shape := ⟨3, ![128, 256, 1]⟩
abbrev S128x256x1024 : Shape := ⟨3, ![128, 256, 1024]⟩
abbrev S128x256x2048 : Shape := ⟨3, ![128, 256, 2048]⟩
abbrev S128x2048 : Shape := ⟨2, ![128, 2048]⟩
abbrev S128x4096 : Shape := ⟨2, ![128, 4096]⟩
abbrev S1x2048 : Shape := ⟨2, ![1, 2048]⟩
abbrev S128x3 : Shape := ⟨2, ![128, 3]⟩
abbrev S1x3 : Shape := ⟨2, ![1, 3]⟩

abbrev nBuf : Space → Nat
  | .hbm => 56
  | .vmem => 0
  | .smem => 0
  | _ => 0

abbrev bufTy : (tb : Table) → Fin (tcTables nBuf tb) → BufTy
  | .hbm, ⟨0, _⟩ => ⟨S128x256x512, .f32⟩
  | .hbm, ⟨1, _⟩ => ⟨S128x256x512, .f32⟩
  | .hbm, ⟨2, _⟩ => ⟨S512x256, .f32⟩
  | .hbm, ⟨3, _⟩ => ⟨S1024x2048, .f32⟩
  | .hbm, ⟨4, _⟩ => ⟨S4096x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x3, .f32⟩
  | .hbm, ⟨9, _⟩ => ⟨S3, .f32⟩
  | .hbm, ⟨10, _⟩ => ⟨S128x256x256, .f32⟩
  | .hbm, ⟨11, _⟩ => ⟨S128x256x256, .f32⟩
  | .hbm, ⟨12, _⟩ => ⟨S128x256x256, .f32⟩
  | .hbm, ⟨13, _⟩ => ⟨S128x256x256, .f32⟩
  | .hbm, ⟨14, _⟩ => ⟨S128x256x256, .f32⟩
  | .hbm, ⟨15, _⟩ => ⟨S_, .f32⟩
  | .hbm, ⟨16, _⟩ => ⟨S128x256, .f32⟩
  | .hbm, ⟨17, _⟩ => ⟨S_, .f32⟩
  | .hbm, ⟨18, _⟩ => ⟨S128x256, .f32⟩
  | .hbm, ⟨19, _⟩ => ⟨S128x256, .f32⟩
  | .hbm, ⟨20, _⟩ => ⟨S128x256x1, .f32⟩
  | .hbm, ⟨21, _⟩ => ⟨S128x256x256, .f32⟩
  | .hbm, ⟨22, _⟩ => ⟨S128x256x256, .f32⟩
  | .hbm, ⟨23, _⟩ => ⟨S128x256x256, .f32⟩
  | .hbm, ⟨24, _⟩ => ⟨S_, .f32⟩
  | .hbm, ⟨25, _⟩ => ⟨S128x256, .f32⟩
  | .hbm, ⟨26, _⟩ => ⟨S128x256x1, .f32⟩
  | .hbm, ⟨27, _⟩ => ⟨S128x256x256, .f32⟩
  | .hbm, ⟨28, _⟩ => ⟨S128x256x256, .f32⟩
  | .hbm, ⟨29, _⟩ => ⟨S128x256x512, .f32⟩
  | .hbm, ⟨30, _⟩ => ⟨S128x256x512, .f32⟩
  | .hbm, ⟨31, _⟩ => ⟨S128x256x1024, .f32⟩
  | .hbm, ⟨32, _⟩ => ⟨S128x256x2048, .f32⟩
  | .hbm, ⟨33, _⟩ => ⟨S128x256x2048, .f32⟩
  | .hbm, ⟨34, _⟩ => ⟨S128x256x1024, .f32⟩
  | .hbm, ⟨35, _⟩ => ⟨S128x256x2048, .f32⟩
  | .hbm, ⟨36, _⟩ => ⟨S128x256x2048, .f32⟩
  | .hbm, ⟨37, _⟩ => ⟨S_, .f32⟩
  | .hbm, ⟨38, _⟩ => ⟨S128x2048, .f32⟩
  | .hbm, ⟨39, _⟩ => ⟨S_, .f32⟩
  | .hbm, ⟨40, _⟩ => ⟨S128x2048, .f32⟩
  | .hbm, ⟨41, _⟩ => ⟨S128x4096, .f32⟩
  | .hbm, ⟨42, _⟩ => ⟨S128x2048, .f32⟩
  | .hbm, ⟨43, _⟩ => ⟨S1x2048, .f32⟩
  | .hbm, ⟨44, _⟩ => ⟨S128x2048, .f32⟩
  | .hbm, ⟨45, _⟩ => ⟨S128x2048, .f32⟩
  | .hbm, ⟨46, _⟩ => ⟨S128x2048, .f32⟩
  | .hbm, ⟨47, _⟩ => ⟨S128x2048, .f32⟩
  | .hbm, ⟨48, _⟩ => ⟨S1x2048, .f32⟩
  | .hbm, ⟨49, _⟩ => ⟨S128x2048, .f32⟩
  | .hbm, ⟨50, _⟩ => ⟨S128x2048, .f32⟩
  | .hbm, ⟨51, _⟩ => ⟨S128x2048, .f32⟩
  | .hbm, ⟨52, _⟩ => ⟨S128x3, .f32⟩
  | .hbm, ⟨53, _⟩ => ⟨S1x3, .f32⟩
  | .hbm, ⟨54, _⟩ => ⟨S128x3, .f32⟩
  | .hbm, ⟨55, _⟩ => ⟨S128x3, .f32⟩
  | _, _ => ⟨S128x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  reducesTo_S128x256x256_S128x256_d2 : S128x256x256.ReducesTo [2] S128x256
  h_S_ : 0 < S_.numel
  bcast_S_S128x256 : S_.BroadcastsInDim S128x256 (![] : Fin 0 → Fin S128x256.rank)
  bcast_S128x256_S128x256x1_0_1 : S128x256.BroadcastsInDim S128x256x1 (![0, 1] : Fin 2 → Fin S128x256x1.rank)
  bcast_S128x256x1_S128x256x256_0_1_2 : S128x256x1.BroadcastsInDim S128x256x256 (![0, 1, 2] : Fin 3 → Fin S128x256x256.rank)
  concatenates_S128x256x512_S128x256x512_S128x256x1024_d2 : Shape.Concatenates [S128x256x512, S128x256x512] S128x256x1024 2
  reducesTo_S128x256x2048_S128x2048_d1 : S128x256x2048.ReducesTo [1] S128x2048
  concatenates_S128x2048_S128x2048_S128x4096_d1 : Shape.Concatenates [S128x2048, S128x2048] S128x4096 1
  bcast_S2048_S1x2048_1 : S2048.BroadcastsInDim S1x2048 (![1] : Fin 1 → Fin S1x2048.rank)
  bcast_S1x2048_S128x2048_0_1 : S1x2048.BroadcastsInDim S128x2048 (![0, 1] : Fin 2 → Fin S128x2048.rank)
  bcast_S3_S1x3_1 : S3.BroadcastsInDim S1x3 (![1] : Fin 1 → Fin S1x3.rank)
  bcast_S1x3_S128x3_0_1 : S1x3.BroadcastsInDim S128x3 (![0, 1] : Fin 2 → Fin S128x3.rank)
  dot_S128x256x512_S512x256_S128x256x256_2_0_01_1_n_n_wf : DotDims.WF S128x256x512 S512x256 S128x256x256 [2] [0] [0, 1] [1] [] []
  dot_S128x256x256_S128x256x256_S128x256x256_2_2_1_1_0_0_wf : DotDims.WF S128x256x256 S128x256x256 S128x256x256 [2] [2] [1] [1] [0] [0]
  dot_S128x256x256_S128x256x512_S128x256x512_2_1_1_2_0_0_wf : DotDims.WF S128x256x256 S128x256x512 S128x256x512 [2] [1] [1] [2] [0] [0]
  dot_S128x256x256_S128x256x512_S128x256x512_1_1_2_2_0_0_wf : DotDims.WF S128x256x256 S128x256x512 S128x256x512 [1] [1] [2] [2] [0] [0]
  dot_S128x256x1024_S1024x2048_S128x256x2048_2_0_01_1_n_n_wf : DotDims.WF S128x256x1024 S1024x2048 S128x256x2048 [2] [0] [0, 1] [1] [] []
  dot_S128x4096_S4096x2048_S128x2048_1_0_0_1_n_n_wf : DotDims.WF S128x4096 S4096x2048 S128x2048 [1] [0] [0] [1] [] []
  dot_S128x2048_S2048x2048_S128x2048_1_0_0_1_n_n_wf : DotDims.WF S128x2048 S2048x2048 S128x2048 [1] [0] [0] [1] [] []
  dot_S128x2048_S2048x3_S128x3_1_0_0_1_n_n_wf : DotDims.WF S128x2048 S2048x3 S128x3 [1] [0] [0] [1] [] []

variable [Facts₀]

def dot_S128x256x512_S512x256_S128x256x256_2_0_01_1_n_n : DotDims S128x256x512 S512x256 S128x256x256 where
  lhsContracting := [2]
  rhsContracting := [0]
  lhsNonContracting := [0, 1]
  rhsNonContracting := [1]
  lhsBatch := []
  rhsBatch := []
  wf := dot_S128x256x512_S512x256_S128x256x256_2_0_01_1_n_n_wf
def dot_S128x256x256_S128x256x256_S128x256x256_2_2_1_1_0_0 : DotDims S128x256x256 S128x256x256 S128x256x256 where
  lhsContracting := [2]
  rhsContracting := [2]
  lhsNonContracting := [1]
  rhsNonContracting := [1]
  lhsBatch := [0]
  rhsBatch := [0]
  wf := dot_S128x256x256_S128x256x256_S128x256x256_2_2_1_1_0_0_wf
def dot_S128x256x256_S128x256x512_S128x256x512_2_1_1_2_0_0 : DotDims S128x256x256 S128x256x512 S128x256x512 where
  lhsContracting := [2]
  rhsContracting := [1]
  lhsNonContracting := [1]
  rhsNonContracting := [2]
  lhsBatch := [0]
  rhsBatch := [0]
  wf := dot_S128x256x256_S128x256x512_S128x256x512_2_1_1_2_0_0_wf
def dot_S128x256x256_S128x256x512_S128x256x512_1_1_2_2_0_0 : DotDims S128x256x256 S128x256x512 S128x256x512 where
  lhsContracting := [1]
  rhsContracting := [1]
  lhsNonContracting := [2]
  rhsNonContracting := [2]
  lhsBatch := [0]
  rhsBatch := [0]
  wf := dot_S128x256x256_S128x256x512_S128x256x512_1_1_2_2_0_0_wf
def dot_S128x256x1024_S1024x2048_S128x256x2048_2_0_01_1_n_n : DotDims S128x256x1024 S1024x2048 S128x256x2048 where
  lhsContracting := [2]
  rhsContracting := [0]
  lhsNonContracting := [0, 1]
  rhsNonContracting := [1]
  lhsBatch := []
  rhsBatch := []
  wf := dot_S128x256x1024_S1024x2048_S128x256x2048_2_0_01_1_n_n_wf
def dot_S128x4096_S4096x2048_S128x2048_1_0_0_1_n_n : DotDims S128x4096 S4096x2048 S128x2048 where
  lhsContracting := [1]
  rhsContracting := [0]
  lhsNonContracting := [0]
  rhsNonContracting := [1]
  lhsBatch := []
  rhsBatch := []
  wf := dot_S128x4096_S4096x2048_S128x2048_1_0_0_1_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S128x2048_S2048x3_S128x3_1_0_0_1_n_n : DotDims S128x2048 S2048x3 S128x3 where
  lhsContracting := [1]
  rhsContracting := [0]
  lhsNonContracting := [0]
  rhsNonContracting := [1]
  lhsBatch := []
  rhsBatch := []
  wf := dot_S128x2048_S2048x3_S128x3_1_0_0_1_n_n_wf

class Facts : Prop extends Facts₀ where

variable [Facts]
-- ==== Proof.LibHostLine.lean ====
/-
  Two facts about a line of host operations, general in the program.

  Running two lines in a row is running the second from the buffer contents the first leaves.  And a value written
  through a typed reference and read back through the same reference is the value: the two transports along the
  reference's type equation cancel, whatever the buffer — so the transports inside a called function's operations
  (each result written through its typed reference, each operand read through its own) collapse pairwise without the
  buffers' types ever being computed.  After the results of such a line are rewritten, `simp only [ofBuf_toBuf]` leaves
  only the transports at the line's own inputs and at its result.
-/
import Idealize.ShloMosaic.Lib.StableHlo.Run

noncomputable section

namespace Cert.LibHostLine

open Idealize.ShloMosaic Idealize.ShloMosaic.StableHlo

variable {τ : Topo} {sig : RefSig} {Val : EltTy → Type}

/-- Running two lines in a row is running the second from where the first ends. -/
theorem after_append (l1 l2 : List (HloOp τ sig Val)) (V : Valuation τ sig Val) :
    StableHlo.after (l1 ++ l2) V = StableHlo.after l2 (StableHlo.after l1 V) := by
  induction l1 generalizing V with
  | nil => rfl
  | cons op l ih => exact ih _

/-- Reading back through a typed reference what was written through it gives the value back. -/
theorem ofBuf_toBuf {T : BufTy} (x : TRef sig T) (v : T.Contents Val) : x.ofBuf (x.toBuf v) = v := by
  obtain ⟨r, h, h2, h3⟩ := x
  subst h
  rfl

end Cert.LibHostLine

end
-- ==== Proof.RefRun.lean ====
/-
  The reference program's run, as the composition of its operations.

  The program is a straight line of 46 array operations; what its buffers hold at the end is the fold of the
  operations' effects over what they held at the start.  A fold over a list that is two lists joined is the fold over
  the second from where the fold over the first ends, so the line may be cut anywhere and each piece evaluated by
  itself from arbitrary starting contents.  It is cut in front of each of the three operations that join two arrays
  end to end: at the head of its piece, such an operation joins two arrays that are simply read from the starting
  contents.  Each piece is described by what it needs of its starting contents (the ten arguments, and the few
  intermediate arrays computed earlier and still to be read) and what it guarantees of its final contents; the
  guarantees of one piece are the needs of the next, and the last piece ends with the program's result at the
  composed function of the ten arguments, the arguments themselves untouched throughout.
-/
import proofs.«177522_j36386962932383_2_alg».proof.Proof.RefReadP
import proofs.«177522_j36386962932383_2_alg».proof.Proof.LibHostLine

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents of all the buffers of one device. -/
local notation "𝒱" => Valuation τ sig (Elt F)
/-- The contents of one array of 32-bit floats of shape `S`. -/
local notation "𝒞[" S "]" => BufTy.Contents (Elt F) (BufTy.mk S EltTy.f32)

/-! ## The line, cut in front of each joining operation -/

/-- From the arguments to the two aligned arrays: the projections, the scores, their row-wise softmax, and the two weighted sums. -/
abbrev ops1 : List (HloOp τ sig (Elt F)) :=
  [ binary main_arg0 main_arg2 main_v0 ((fun l r => Host.dotGeneral dot_S128x256x512_S512x256_S128x256x256_2_0_01_1_n_n none l r) : (⟨S128x256x512, .f32⟩ : BufTy).Contents (Elt F) → (⟨S512x256, .f32⟩ : BufTy).Contents (Elt F) → (⟨S128x256x256, .f32⟩ : BufTy).Contents (Elt F)),
    unary main_v0 main_v1 (Host.tanh : (⟨S128x256x256, .f32⟩ : BufTy).Contents (Elt F) → (⟨S128x256x256, .f32⟩ : BufTy).Contents (Elt F)),
    binary main_arg1 main_arg2 main_v2 ((fun l r => Host.dotGeneral dot_S128x256x512_S512x256_S128x256x256_2_0_01_1_n_n none l r) : (⟨S128x256x512, .f32⟩ : BufTy).Contents (Elt F) → (⟨S512x256, .f32⟩ : BufTy).Contents (Elt F) → (⟨S128x256x256, .f32⟩ : BufTy).Contents (Elt F)),
    unary main_v2 main_v3 (Host.tanh : (⟨S128x256x256, .f32⟩ : BufTy).Contents (Elt F) → (⟨S128x256x256, .f32⟩ : BufTy).Contents (Elt F)),
    binary main_v1 main_v3 main_v4 ((fun l r => Host.dotGeneral dot_S128x256x256_S128x256x256_S128x256x256_2_2_1_1_0_0 none l r) : (⟨S128x256x256, .f32⟩ : BufTy).Contents (Elt F) → (⟨S128x256x256, .f32⟩ : BufTy).Contents (Elt F) → (⟨S128x256x256, .f32⟩ : BufTy).Contents (Elt F)),
    nullary main_cst (constant S_ .f32 0xFF800000#32),
    binary main_v4 main_cst main_v5 ((fun x v => Host.reduce FloatOps.maximumf x v reducesTo_S128x256x256_S128x256_d2 h_S_) : (⟨S128x256x256, .f32⟩ : BufTy).Contents (Elt F) → (⟨S_, .f32⟩ : BufTy).Contents (Elt F) → (⟨S128x256, .f32⟩ : BufTy).Contents (Elt F)),
    nullary main_cst_0 (constant S_ .f32 0xFF800000#32),
    unary main_cst_0 main_v6 (broadcastInDim S128x256 ![] bcast_S_S128x256 : (⟨S_, .f32⟩ : BufTy).Contents (Elt F) → (⟨S128x256, .f32⟩ : BufTy).Contents (Elt F)),
    binary main_v6 main_v5 main_v7 (maximumf : (⟨S128x256, .f32⟩ : BufTy).Contents (Elt F) → (⟨S128x256, .f32⟩ : BufTy).Contents (Elt F) → (⟨S128x256, .f32⟩ : BufTy).Contents (Elt F)),
    unary main_v7 main_v8 (broadcastInDim S128x256x1 ![0, 1] bcast_S128x256_S128x256x1_0_1 : (⟨S128x256, .f32⟩ : BufTy).Contents (Elt F) → (⟨S128x256x1, .f32⟩ : BufTy).Contents (Elt F)),
    unary main_v8 main_v9 (broadcastInDim S128x256x256 ![0, 1, 2] bcast_S128x256x1_S128x256x256_0_1_2 : (⟨S128x256x1, .f32⟩ : BufTy).Contents (Elt F) → (⟨S128x256x256, .f32⟩ : BufTy).Contents (Elt F)),
    binary main_v4 main_v9 main_v10 (subf : (⟨S128x256x256, .f32⟩ : BufTy).Contents (Elt F) → (⟨S128x256x256, .f32⟩ : BufTy).Contents (Elt F) → (⟨S128x256x256, .f32⟩ : BufTy).Contents (Elt F)),
    unary main_v10 main_v11 (Host.exp : (⟨S128x256x256, .f32⟩ : BufTy).Contents (Elt F) → (⟨S128x256x256, .f32⟩ : BufTy).Contents (Elt F)),
    nullary main_cst_1 (constant S_ .f32 0x00000000#32),
    binary main_v11 main_cst_1 main_v12 ((fun x v => Host.reduceAdd x v reducesTo_S128x256x256_S128x256_d2 h_S_) : (⟨S128x256x256, .f32⟩ : BufTy).Contents (Elt F) → (⟨S_, .f32⟩ : BufTy).Contents (Elt F) → (⟨S128x256, .f32⟩ : BufTy).Contents (Elt F)),
    unary main_v12 main_v13 (broadcastInDim S128x256x1 ![0, 1] bcast_S128x256_S128x256x1_0_1 : (⟨S128x256, .f32⟩ : BufTy).Contents (Elt F) → (⟨S128x256x1, .f32⟩ : BufTy).Contents (Elt F)),
    unary main_v13 main_v14 (broadcastInDim S128x256x256 ![0, 1, 2] bcast_S128x256x1_S128x256x256_0_1_2 : (⟨S128x256x1, .f32⟩ : BufTy).Contents (Elt F) → (⟨S128x256x256, .f32⟩ : BufTy).Contents (Elt F)),
    binary main_v11 main_v14 main_v15 (Host.divf : (⟨S128x256x256, .f32⟩ : BufTy).Contents (Elt F) → (⟨S128x256x256, .f32⟩ : BufTy).Contents (Elt F) → (⟨S128x256x256, .f32⟩ : BufTy).Contents (Elt F)),
    binary main_v15 main_arg1 main_v16 ((fun l r => Host.dotGeneral dot_S128x256x256_S128x256x512_S128x256x512_2_1_1_2_0_0 none l r) : (⟨S128x256x256, .f32⟩ : BufTy).Contents (Elt F) → (⟨S128x256x512, .f32⟩ : BufTy).Contents (Elt F) → (⟨S128x256x512, .f32⟩ : BufTy).Contents (Elt F)),
    binary main_v15 main_arg0 main_v17 ((fun l r => Host.dotGeneral dot_S128x256x256_S128x256x512_S128x256x512_1_1_2_2_0_0 none l r) : (⟨S128x256x256, .f32⟩ : BufTy).Contents (Elt F) → (⟨S128x256x512, .f32⟩ : BufTy).Contents (Elt F) → (⟨S128x256x512, .f32⟩ : BufTy).Contents (Elt F)) ]

/-- The premise rows joined with their aligned rows, projected and squashed. -/
abbrev ops2 : List (HloOp τ sig (Elt F)) :=
  [ binary main_arg0 main_v16 main_v18 ((fun a b => concatenate S128x256x1024 2 [⟨S128x256x512, a⟩, ⟨S128x256x512, b⟩] concatenates_S128x256x512_S128x256x512_S128x256x1024_d2) : (⟨S128x256x512, .f32⟩ : BufTy).Contents (Elt F) → (⟨S128x256x512, .f32⟩ : BufTy).Contents (Elt F) → (⟨S128x256x1024, .f32⟩ : BufTy).Contents (Elt F)),
    binary main_v18 main_arg3 main_v19 ((fun l r => Host.dotGeneral dot_S128x256x1024_S1024x2048_S128x256x2048_2_0_01_1_n_n none l r) : (⟨S128x256x1024, .f32⟩ : BufTy).Contents (Elt F) → (⟨S1024x2048, .f32⟩ : BufTy).Contents (Elt F) → (⟨S128x256x2048, .f32⟩ : BufTy).Contents (Elt F)),
    unary main_v19 main_v20 (Host.tanh : (⟨S128x256x2048, .f32⟩ : BufTy).Contents (Elt F) → (⟨S128x256x2048, .f32⟩ : BufTy).Contents (Elt F)) ]

/-- The hypothesis rows joined with their aligned rows, projected and squashed; then both sides summed over their rows. -/
abbrev ops3 : List (HloOp τ sig (Elt F)) :=
  [ binary main_arg1 main_v17 main_v21 ((fun a b => concatenate S128x256x1024 2 [⟨S128x256x512, a⟩, ⟨S128x256x512, b⟩] concatenates_S128x256x512_S128x256x512_S128x256x1024_d2) : (⟨S128x256x512, .f32⟩ : BufTy).Contents (Elt F) → (⟨S128x256x512, .f32⟩ : BufTy).Contents (Elt F) → (⟨S128x256x1024, .f32⟩ : BufTy).Contents (Elt F)),
    binary main_v21 main_arg3 main_v22 ((fun l r => Host.dotGeneral dot_S128x256x1024_S1024x2048_S128x256x2048_2_0_01_1_n_n none l r) : (⟨S128x256x1024, .f32⟩ : BufTy).Contents (Elt F) → (⟨S1024x2048, .f32⟩ : BufTy).Contents (Elt F) → (⟨S128x256x2048, .f32⟩ : BufTy).Contents (Elt F)),
    unary main_v22 main_v23 (Host.tanh : (⟨S128x256x2048, .f32⟩ : BufTy).Contents (Elt F) → (⟨S128x256x2048, .f32⟩ : BufTy).Contents (Elt F)),
    nullary main_cst_2 (constant S_ .f32 0x00000000#32),
    binary main_v20 main_cst_2 main_v24 ((fun x v => Host.reduceAdd x v reducesTo_S128x256x2048_S128x2048_d1 h_S_) : (⟨S128x256x2048, .f32⟩ : BufTy).Contents (Elt F) → (⟨S_, .f32⟩ : BufTy).Contents (Elt F) → (⟨S128x2048, .f32⟩ : BufTy).Contents (Elt F)),
    nullary main_cst_3 (constant S_ .f32 0x00000000#32),
    binary main_v23 main_cst_3 main_v25 ((fun x v => Host.reduceAdd x v reducesTo_S128x256x2048_S128x2048_d1 h_S_) : (⟨S128x256x2048, .f32⟩ : BufTy).Contents (Elt F) → (⟨S_, .f32⟩ : BufTy).Contents (Elt F) → (⟨S128x2048, .f32⟩ : BufTy).Contents (Elt F)) ]

/-- The two sums joined, and the three dense layers. -/
abbrev ops4 : List (HloOp τ sig (Elt F)) :=
  [ binary main_v24 main_v25 main_v26 ((fun a b => concatenate S128x4096 1 [⟨S128x2048, a⟩, ⟨S128x2048, b⟩] concatenates_S128x2048_S128x2048_S128x4096_d1) : (⟨S128x2048, .f32⟩ : BufTy).Contents (Elt F) → (⟨S128x2048, .f32⟩ : BufTy).Contents (Elt F) → (⟨S128x4096, .f32⟩ : BufTy).Contents (Elt F)),
    binary main_v26 main_arg4 main_v27 ((fun l r => Host.dotGeneral dot_S128x4096_S4096x2048_S128x2048_1_0_0_1_n_n none l r) : (⟨S128x4096, .f32⟩ : BufTy).Contents (Elt F) → (⟨S4096x2048, .f32⟩ : BufTy).Contents (Elt F) → (⟨S128x2048, .f32⟩ : BufTy).Contents (Elt F)),
    unary main_arg5 main_v28 (broadcastInDim S1x2048 ![1] bcast_S2048_S1x2048_1 : (⟨S2048, .f32⟩ : BufTy).Contents (Elt F) → (⟨S1x2048, .f32⟩ : BufTy).Contents (Elt F)),
    unary main_v28 main_v29 (broadcastInDim S128x2048 ![0, 1] bcast_S1x2048_S128x2048_0_1 : (⟨S1x2048, .f32⟩ : BufTy).Contents (Elt F) → (⟨S128x2048, .f32⟩ : BufTy).Contents (Elt F)),
    binary main_v27 main_v29 main_v30 (addf : (⟨S128x2048, .f32⟩ : BufTy).Contents (Elt F) → (⟨S128x2048, .f32⟩ : BufTy).Contents (Elt F) → (⟨S128x2048, .f32⟩ : BufTy).Contents (Elt F)),
    unary main_v30 main_v31 (Host.tanh : (⟨S128x2048, .f32⟩ : BufTy).Contents (Elt F) → (⟨S128x2048, .f32⟩ : BufTy).Contents (Elt F)),
    binary main_v31 main_arg6 main_v32 ((fun l r => Host.dotGeneral dot_S128x2048_S2048x2048_S128x2048_1_0_0_1_n_n none l r) : (⟨S128x2048, .f32⟩ : BufTy).Contents (Elt F) → (⟨S2048x2048, .f32⟩ : BufTy).Contents (Elt F) → (⟨S128x2048, .f32⟩ : BufTy).Contents (Elt F)),
    unary main_arg7 main_v33 (broadcastInDim S1x2048 ![1] bcast_S2048_S1x2048_1 : (⟨S2048, .f32⟩ : BufTy).Contents (Elt F) → (⟨S1x2048, .f32⟩ : BufTy).Contents (Elt F)),
    unary main_v33 main_v34 (broadcastInDim S128x2048 ![0, 1] bcast_S1x2048_S128x2048_0_1 : (⟨S1x2048, .f32⟩ : BufTy).Contents (Elt F) → (⟨S128x2048, .f32⟩ : BufTy).Contents (Elt F)),
    binary main_v32 main_v34 main_v35 (addf : (⟨S128x2048, .f32⟩ : BufTy).Contents (Elt F) → (⟨S128x2048, .f32⟩ : BufTy).Contents (Elt F) → (⟨S128x2048, .f32⟩ : BufTy).Contents (Elt F)),
    unary main_v35 main_v36 (Host.tanh : (⟨S128x2048, .f32⟩ : BufTy).Contents (Elt F) → (⟨S128x2048, .f32⟩ : BufTy).Contents (Elt F)),
    binary main_v36 main_arg8 main_v37 ((fun l r => Host.dotGeneral dot_S128x2048_S2048x3_S128x3_1_0_0_1_n_n none l r) : (⟨S128x2048, .f32⟩ : BufTy).Contents (Elt F) → (⟨S2048x3, .f32⟩ : BufTy).Contents (Elt F) → (⟨S128x3, .f32⟩ : BufTy).Contents (Elt F)),
    unary main_arg9 main_v38 (broadcastInDim S1x3 ![1] bcast_S3_S1x3_1 : (⟨S3, .f32⟩ : BufTy).Contents (Elt F) → (⟨S1x3, .f32⟩ : BufTy).Contents (Elt F)),
    unary main_v38 main_v39 (broadcastInDim S128x3 ![0, 1] bcast_S1x3_S128x3_0_1 : (⟨S1x3, .f32⟩ : BufTy).Contents (Elt F) → (⟨S128x3, .f32⟩ : BufTy).Contents (Elt F)),
    binary main_v37 main_v39 main_v40 (addf : (⟨S128x3, .f32⟩ : BufTy).Contents (Elt F) → (⟨S128x3, .f32⟩ : BufTy).Contents (Elt F) → (⟨S128x3, .f32⟩ : BufTy).Contents (Elt F)) ]

set_option maxRecDepth 8192 in
/-- The four pieces, in order, are the whole line. -/
theorem ops_eq : (ValueP.ops : List (HloOp τ sig (Elt F))) = ops1 ++ (ops2 ++ (ops3 ++ ops4)) := rfl

/-- Running the whole line is running the four pieces one after the other. -/
theorem after_ops (V : 𝒱) : after ValueP.ops V = after ops4 (after ops3 (after ops2 (after ops1 V))) := by
  rw [ops_eq, Cert.LibHostLine.after_append, Cert.LibHostLine.after_append, Cert.LibHostLine.after_append]

/-! ## What each piece needs and guarantees -/

/-- The contents `W` hold the ten arguments `x0 … x9` at the argument buffers. -/
structure Args (W : 𝒱) (x0 x1 : 𝒞[S128x256x512]) (x2 : 𝒞[S512x256]) (x3 : 𝒞[S1024x2048]) (x4 : 𝒞[S4096x2048]) (x5 : 𝒞[S2048]) (x6 : 𝒞[S2048x2048]) (x7 : 𝒞[S2048]) (x8 : 𝒞[S2048x3]) (x9 : 𝒞[S3]) : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9

/-- What the first piece guarantees: the arguments, and the two arrays of aligned rows. -/
structure Inv1 (W : 𝒱) (x0 x1 : 𝒞[S128x256x512]) (x2 : 𝒞[S512x256]) (x3 : 𝒞[S1024x2048]) (x4 : 𝒞[S4096x2048]) (x5 : 𝒞[S2048]) (x6 : 𝒞[S2048x2048]) (x7 : 𝒞[S2048]) (x8 : 𝒞[S2048x3]) (x9 : 𝒞[S3]) : Prop where
  args : Args W x0 x1 x2 x3 x4 x5 x6 x7 x8 x9
  v16 : W (Proc.devRef .tc main_v16) = ReadP.val_main_v16 x0 x1 x2
  v17 : W (Proc.devRef .tc main_v17) = ReadP.val_main_v17 x0 x1 x2

/-- What the second piece guarantees: the arguments, the aligned rows still to be read, and the premise side's squashed projection. -/
structure Inv2 (W : 𝒱) (x0 x1 : 𝒞[S128x256x512]) (x2 : 𝒞[S512x256]) (x3 : 𝒞[S1024x2048]) (x4 : 𝒞[S4096x2048]) (x5 : 𝒞[S2048]) (x6 : 𝒞[S2048x2048]) (x7 : 𝒞[S2048]) (x8 : 𝒞[S2048x3]) (x9 : 𝒞[S3]) : Prop where
  args : Args W x0 x1 x2 x3 x4 x5 x6 x7 x8 x9
  v17 : W (Proc.devRef .tc main_v17) = ReadP.val_main_v17 x0 x1 x2
  v20 : W (Proc.devRef .tc main_v20) = ReadP.val_main_v20 x0 x1 x2 x3

/-- What the third piece guarantees: the arguments, and the two sums over the rows. -/
structure Inv3 (W : 𝒱) (x0 x1 : 𝒞[S128x256x512]) (x2 : 𝒞[S512x256]) (x3 : 𝒞[S1024x2048]) (x4 : 𝒞[S4096x2048]) (x5 : 𝒞[S2048]) (x6 : 𝒞[S2048x2048]) (x7 : 𝒞[S2048]) (x8 : 𝒞[S2048x3]) (x9 : 𝒞[S3]) : Prop where
  args : Args W x0 x1 x2 x3 x4 x5 x6 x7 x8 x9
  v24 : W (Proc.devRef .tc main_v24) = ReadP.val_main_v24 x0 x1 x2 x3
  v25 : W (Proc.devRef .tc main_v25) = ReadP.val_main_v25 x0 x1 x2 x3

/-! ## The pieces

In each piece, every operation's effect on the buffers is read off at the buffer asked for: the operation's own
function of what its operand buffers held, at its result buffer; what was there before, at any other.  What remains
is the stage function's own definition. -/

set_option maxRecDepth 8192 in
/-- The first piece: from the arguments to the two arrays of aligned rows. -/
theorem seg1 {W : 𝒱} {x0 x1 : 𝒞[S128x256x512]} {x2 : 𝒞[S512x256]} {x3 : 𝒞[S1024x2048]} {x4 : 𝒞[S4096x2048]} {x5 : 𝒞[S2048]} {x6 : 𝒞[S2048x2048]} {x7 : 𝒞[S2048]} {x8 : 𝒞[S2048x3]} {x9 : 𝒞[S3]} (h : Args W x0 x1 x2 x3 x4 x5 x6 x7 x8 x9) : Inv1 (after ops1 W) x0 x1 x2 x3 x4 x5 x6 x7 x8 x9 := by
  obtain ⟨rfl, rfl, rfl, rfl, rfl, rfl, rfl, rfl, rfl, rfl⟩ := h
  refine ⟨⟨?_, ?_, ?_, ?_, ?_, ?_, ?_, ?_, ?_, ?_⟩, ?_, ?_⟩
  iterate 10 after_results_simp
  · after_results_simp <;> rfl
  · after_results_simp <;> rfl

/-- The second piece: the premise rows joined with their aligned rows, projected, squashed. -/
theorem seg2 {W : 𝒱} {x0 x1 : 𝒞[S128x256x512]} {x2 : 𝒞[S512x256]} {x3 : 𝒞[S1024x2048]} {x4 : 𝒞[S4096x2048]} {x5 : 𝒞[S2048]} {x6 : 𝒞[S2048x2048]} {x7 : 𝒞[S2048]} {x8 : 𝒞[S2048x3]} {x9 : 𝒞[S3]} (h : Inv1 W x0 x1 x2 x3 x4 x5 x6 x7 x8 x9) : Inv2 (after ops2 W) x0 x1 x2 x3 x4 x5 x6 x7 x8 x9 := by
  obtain ⟨⟨rfl, rfl, rfl, rfl, rfl, rfl, rfl, rfl, rfl, rfl⟩, h16, h17⟩ := h
  refine ⟨⟨?_, ?_, ?_, ?_, ?_, ?_, ?_, ?_, ?_, ?_⟩, ?_, ?_⟩
  iterate 10 after_results_simp
  · after_results_simp; exact h17
  · after_results_simp; rw [h16]; rfl

/-- The third piece: the hypothesis rows joined with their aligned rows, projected, squashed; both sides summed over rows. -/
theorem seg3 {W : 𝒱} {x0 x1 : 𝒞[S128x256x512]} {x2 : 𝒞[S512x256]} {x3 : 𝒞[S1024x2048]} {x4 : 𝒞[S4096x2048]} {x5 : 𝒞[S2048]} {x6 : 𝒞[S2048x2048]} {x7 : 𝒞[S2048]} {x8 : 𝒞[S2048x3]} {x9 : 𝒞[S3]} (h : Inv2 W x0 x1 x2 x3 x4 x5 x6 x7 x8 x9) : Inv3 (after ops3 W) x0 x1 x2 x3 x4 x5 x6 x7 x8 x9 := by
  obtain ⟨⟨rfl, rfl, rfl, rfl, rfl, rfl, rfl, rfl, rfl, rfl⟩, h17, h20⟩ := h
  refine ⟨⟨?_, ?_, ?_, ?_, ?_, ?_, ?_, ?_, ?_, ?_⟩, ?_, ?_⟩
  iterate 10 after_results_simp
  · after_results_simp; rw [h20]; rfl
  · after_results_simp; rw [h17]; rfl

/-- The last piece: the two sums joined, and the three dense layers; it ends with the program's result. -/
theorem seg4 {W : 𝒱} {x0 x1 : 𝒞[S128x256x512]} {x2 : 𝒞[S512x256]} {x3 : 𝒞[S1024x2048]} {x4 : 𝒞[S4096x2048]} {x5 : 𝒞[S2048]} {x6 : 𝒞[S2048x2048]} {x7 : 𝒞[S2048]} {x8 : 𝒞[S2048x3]} {x9 : 𝒞[S3]} (h : Inv3 W x0 x1 x2 x3 x4 x5 x6 x7 x8 x9) :
    Args (after ops4 W) x0 x1 x2 x3 x4 x5 x6 x7 x8 x9 ∧ after ops4 W (Proc.devRef .tc main_v40) = ReadP.val_main_v40 x0 x1 x2 x3 x4 x5 x6 x7 x8 x9 := by
  obtain ⟨⟨rfl, rfl, rfl, rfl, rfl, rfl, rfl, rfl, rfl, rfl⟩, h24, h25⟩ := h
  refine ⟨⟨?_, ?_, ?_, ?_, ?_, ?_, ?_, ?_, ?_, ?_⟩, ?_⟩
  iterate 10 after_results_simp
  · after_results_simp; rw [h24, h25]; rfl

/-! ## The run -/

/-- On every device, for any float values, from any memory with zero counters: every weakly fair execution of the
    program terminates, and every final state has the result buffer at the composed function of what the argument
    buffers held at launch, and the argument buffers as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40) = Cert.ReferenceIdeal.ReadP.val_main_v40 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
      -- at launch the argument buffers hold the arguments, by definition
      have hA : Args (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
        ⟨rfl, rfl, rfl, rfl, rfl, rfl, rfl, rfl, rfl, rfl⟩
      -- the four pieces in a row, each from where the one before ends
      obtain ⟨hargs, h40⟩ := seg4 (seg3 (seg2 (seg1 hA)))
      have e := after_ops (F := F) (launchContents m c)
      exact ⟨((h c main_v40).trans (congrFun e _)).trans h40,
        ((h c main_arg0).trans (congrFun e _)).trans hargs.a0,
        ((h c main_arg1).trans (congrFun e _)).trans hargs.a1,
        ((h c main_arg2).trans (congrFun e _)).trans hargs.a2,
        ((h c main_arg3).trans (congrFun e _)).trans hargs.a3,
        ((h c main_arg4).trans (congrFun e _)).trans hargs.a4,
        ((h c main_arg5).trans (congrFun e _)).trans hargs.a5,
        ((h c main_arg6).trans (congrFun e _)).trans hargs.a6,
        ((h c main_arg7).trans (congrFun e _)).trans hargs.a7,
        ((h c main_arg8).trans (congrFun e _)).trans hargs.a8,
        ((h c main_arg9).trans (congrFun e _)).trans hargs.a9⟩)
    (run_seq ValueP.scopedRefs_eq ValueP.scopedSems_eq defs main (fun _ => ValueP.ops) ValueP.main_eq (fun _ => ValueP.ops_sub) m ρ)

end Cert.ReferenceIdeal.RefRun

end
-- ==== Proof.Spec.lean ====
/-
  The decomposable-attention classifier as one function of its inputs, entry by entry, on the extended reals.

  For one example of the batch, with premise rows `P` and hypothesis rows `H` (256 rows of 512 features each):
  both are projected by `wf` and squashed by `tanh`; the score of premise row `p` against hypothesis row `h` is the inner
  product of their projections; each premise row's scores are turned into weights by a softmax (the row's largest score is
  subtracted before exponentiating, and the exponentials are divided by their sum); `beta` is, for each premise row, the
  weighted sum of the hypothesis rows, and `alpha`, for each hypothesis row, the sum of the premise rows weighted by the
  same weights read down the columns; each row is joined with its aligned row, projected by `wg`, squashed, and the 256
  rows are summed; the two sums are joined and go through two `tanh` layers and a linear layer to three logits.
  Every sum is a plain finite sum and nothing is rounded, so the order in which a program accumulates does not appear.
-/
import Idealize.ShloMosaic.PureOps.Ideal
import Idealize.ShloMosaic.PureOps.Ideal.Laws

noncomputable section

namespace Cert.Attn

open Idealize.ShloMosaic

/-- A matrix of extended reals by its entries. -/
abbrev Mat (a b : ℕ) := Fin a → Fin b → EReal

/-- The extended real the word of `-∞` denotes; it is only ever compared with itself. -/
def negInf : EReal := Ideal.ofBits .f32 0xFF800000#32

/-- Rows projected by `wf` and squashed. -/
def proj (x : Mat 256 512) (wf : Mat 512 256) : Mat 256 256 :=
  fun p a => Ideal.tanh (∑ e : Fin 512, x p e * wf e a)

/-- Inner products of the rows of `fp` with the rows of `fh`. -/
def scores (fp fh : Mat 256 256) : Mat 256 256 :=
  fun p h => ∑ a : Fin 256, fp p a * fh h a

/-- The largest entry of row `p`, folded from `-∞`. -/
def rowMax (e : Mat 256 256) (p : Fin 256) : EReal :=
  (Finset.univ : Finset (Fin 256)).fold max negInf (fun h => e p h)

/-- The exponentials of a row's entries less the row's largest. -/
def expo (e : Mat 256 256) : Mat 256 256 :=
  fun p h => Ideal.exp (e p h - rowMax e p)

/-- The softmax of each row. -/
def soft (e : Mat 256 256) : Mat 256 256 :=
  fun p h => Ideal.div (expo e p h) (∑ k : Fin 256, expo e p k)

/-- The alignment weights of one example. -/
def weights (P H : Mat 256 512) (wf : Mat 512 256) : Mat 256 256 :=
  soft (scores (proj P wf) (proj H wf))

/-- For each premise row, the weighted sum of the hypothesis rows. -/
def beta (A : Mat 256 256) (H : Mat 256 512) : Mat 256 512 :=
  fun p e => ∑ h : Fin 256, A p h * H h e

/-- For each hypothesis row, the sum of the premise rows weighted down the columns of `A`. -/
def alpha (A : Mat 256 256) (P : Mat 256 512) : Mat 256 512 :=
  fun h e => ∑ p : Fin 256, A p h * P p e

/-- Each row of `X` followed by the same row of `Y`. -/
def join (X Y : Mat 256 512) : Mat 256 1024 :=
  fun p c => if h : c.val < 512 then X p ⟨c.val, h⟩ else Y p ⟨c.val - 512, by omega⟩

/-- Rows projected by `wg`, squashed, and summed over the rows. -/
def compare (C : Mat 256 1024) (wg : Mat 1024 2048) : Fin 2048 → EReal :=
  fun f => ∑ p : Fin 256, Ideal.tanh (∑ c : Fin 1024, C p c * wg c f)

/-- The premise side's aggregate of one example. -/
def agg1 (P H : Mat 256 512) (wf : Mat 512 256) (wg : Mat 1024 2048) : Fin 2048 → EReal :=
  compare (join P (beta (weights P H wf) H)) wg

/-- The hypothesis side's aggregate of one example. -/
def agg2 (P H : Mat 256 512) (wf : Mat 512 256) (wg : Mat 1024 2048) : Fin 2048 → EReal :=
  compare (join H (alpha (weights P H wf) P)) wg

/-- One vector followed by another. -/
def vjoin (a b : Fin 2048 → EReal) : Fin 4096 → EReal :=
  fun c => if h : c.val < 2048 then a ⟨c.val, h⟩ else b ⟨c.val - 2048, by omega⟩

/-- A linear layer: `v · w + b`. -/
def dense {K M : ℕ} (v : Fin K → EReal) (w : Fin K → Fin M → EReal) (b : Fin M → EReal) : Fin M → EReal :=
  fun f => (∑ k : Fin K, v k * w k f) + b f

/-- Two squashed layers and a linear one. -/
def head (v : Fin 4096 → EReal) (w1 : Fin 4096 → Fin 2048 → EReal) (b1 : Fin 2048 → EReal)
    (w2 : Fin 2048 → Fin 2048 → EReal) (b2 : Fin 2048 → EReal) (w3 : Fin 2048 → Fin 3 → EReal) (b3 : Fin 3 → EReal) :
    Fin 3 → EReal :=
  dense (fun k => Ideal.tanh (dense (fun j => Ideal.tanh (dense v w1 b1 j)) w2 b2 k)) w3 b3

/-- The joined aggregates of one example. -/
def feat (P H : Mat 256 512) (wf : Mat 512 256) (wg : Mat 1024 2048) : Fin 4096 → EReal :=
  vjoin (agg1 P H wf wg) (agg2 P H wf wg)

/-- The three logits of one example. -/
def logits (P H : Mat 256 512) (wf : Mat 512 256) (wg : Mat 1024 2048) (w1 : Fin 4096 → Fin 2048 → EReal)
    (b1 : Fin 2048 → EReal) (w2 : Fin 2048 → Fin 2048 → EReal) (b2 : Fin 2048 → EReal) (w3 : Fin 2048 → Fin 3 → EReal)
    (b3 : Fin 3 → EReal) : Fin 3 → EReal :=
  head (feat P H wf wg) w1 b1 w2 b2 w3 b3

end Cert.Attn

end
-- ==== Proof.Rows.lean ====
/-
  Arrays read as the matrices and vectors the specification is written over: example `b` of a batch of row blocks, a
  weight matrix and a bias vector by their entries; and the classifier's result for a batch of 128 examples, entry by entry.
-/
import proofs.«177522_j36386962932383_2_alg».proof.Proof.Spec
import Idealize.ShloMosaic.Lib.ValueIdx

noncomputable section

namespace Cert.Attn

open Idealize.ShloMosaic Idealize.ShloMosaic.ValueIdx

/-- Example `b` of a batch of `B` examples, as its 256 rows of 512 features. -/
def rowsOf {B : ℕ} (x : (⟨3, ![B, 256, 512]⟩ : Shape).Idx → EReal) (b : Fin B) : Mat 256 512 :=
  fun p e => x (ix3 b p e)

/-- A rank-2 array by its entries. -/
def mat {a b : ℕ} (w : (⟨2, ![a, b]⟩ : Shape).Idx → EReal) : Fin a → Fin b → EReal :=
  fun i j => w (ix2 i j)

/-- A rank-1 array by its entries. -/
def vec {a : ℕ} (w : (⟨1, ![a]⟩ : Shape).Idx → EReal) : Fin a → EReal :=
  fun i => w (ix1 i)

/-- The logits of the 128 examples: entry `(b, o)` is logit `o` of example `b`. -/
def result (x0 x1 : (⟨3, ![128, 256, 512]⟩ : Shape).Idx → EReal) (x2 : (⟨2, ![512, 256]⟩ : Shape).Idx → EReal)
    (x3 : (⟨2, ![1024, 2048]⟩ : Shape).Idx → EReal) (x4 : (⟨2, ![4096, 2048]⟩ : Shape).Idx → EReal)
    (x5 : (⟨1, ![2048]⟩ : Shape).Idx → EReal) (x6 : (⟨2, ![2048, 2048]⟩ : Shape).Idx → EReal)
    (x7 : (⟨1, ![2048]⟩ : Shape).Idx → EReal) (x8 : (⟨2, ![2048, 3]⟩ : Shape).Idx → EReal)
    (x9 : (⟨1, ![3]⟩ : Shape).Idx → EReal) : (⟨2, ![128, 3]⟩ : Shape).Idx → EReal :=
  fun i => logits (rowsOf x0 (i 0)) (rowsOf x1 (i 0)) (mat x2) (mat x3) (mat x4) (vec x5) (mat x6) (vec x7) (mat x8) (vec x9) (i 1)

theorem result_apply (x0 x1 : (⟨3, ![128, 256, 512]⟩ : Shape).Idx → EReal) (x2 : (⟨2, ![512, 256]⟩ : Shape).Idx → EReal)
    (x3 : (⟨2, ![1024, 2048]⟩ : Shape).Idx → EReal) (x4 : (⟨2, ![4096, 2048]⟩ : Shape).Idx → EReal)
    (x5 : (⟨1, ![2048]⟩ : Shape).Idx → EReal) (x6 : (⟨2, ![2048, 2048]⟩ : Shape).Idx → EReal)
    (x7 : (⟨1, ![2048]⟩ : Shape).Idx → EReal) (x8 : (⟨2, ![2048, 3]⟩ : Shape).Idx → EReal)
    (x9 : (⟨1, ![3]⟩ : Shape).Idx → EReal) (b : Fin 128) (o : Fin 3) :
    result x0 x1 x2 x3 x4 x5 x6 x7 x8 x9 (ix2 b o)
      = logits (rowsOf x0 b) (rowsOf x1 b) (mat x2) (mat x3) (mat x4) (vec x5) (mat x6) (vec x7) (mat x8) (vec x9) o := rfl

end Cert.Attn

end
-- ==== Proof.LibHostLastMax.lean ====
/-
  The host's largest entry along the last axis of a rank-3 array, read at an index — general in the extents.

  A one-operand reduction with a maximum body along the last axis of an `a × b × c` array reads, at `(p, q)`, the fold
  of `max`, from the initial value, over the entries `(p, q, k)`: over the extended reals `max` is commutative and
  associative, so the order of the fold does not matter.  And taking the maximum of such a fold with its own starting
  value once more changes nothing (a softmax's row maximum is printed that way).
-/
import Idealize.ShloMosaic.Lib.ValueIdx
import Idealize.ShloMosaic.PureOps.Ideal.Laws

noncomputable section

namespace Cert.LibHostLastMax

open Idealize.ShloMosaic Idealize.ShloMosaic.ValueIdx

/-- Over the extended reals the host's reduction by `max` of an `a × b × c` array along its last axis reads, at
    `(p, q)`, the fold of `max` from the initial value over `k` of the entries `(p, q, k)`. -/
theorem hostLastMax_apply {a b c : ℕ} {φ : FTy} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce FloatOps.maximumf x init h' hu (ix2 p q)
      = (Finset.univ : Finset (Fin c)).fold max (init (Shape.Idx.first hu)) (fun k : Fin c => x (ix3 p q k)) := by
  refine (Host.reduce_eq_fold_single FloatOps.maximumf x init h' h hu (ix2 p q)).trans ?_
  have hf : (x ∘ h.lift (ix2 p q)) = fun k : Fin c => x (ix3 p q k) := funext fun k => congrArg x
    (funext fun d => Fin.ext (by match d with | ⟨0, _⟩ => rfl | ⟨1, _⟩ => rfl | ⟨2, _⟩ => rfl))
  exact congrArg (fun f => Finset.fold max (init (Shape.Idx.first hu)) f (Finset.univ : Finset (Fin c))) hf

/-- The maximum of a fold of `max` with the fold's own starting value is the fold. -/
theorem max_init_fold {ι : Type} (s : Finset ι) (init : EReal) (f : ι → EReal) :
    max init (s.fold max init f) = s.fold max init f :=
  max_eq_right ((Finset.le_fold_max init).mpr (Or.inl le_rfl))

end Cert.LibHostLastMax

end
-- ==== Proof.RefValueA.lean ====
/-
  The reference program's first stages read entry by entry: the two squashed projections, the scores, each row's
  largest score, the exponentials and the softmax weights are the specification's `proj`, `scores`, `rowMax`, `expo`
  and `weights` of the example the entry belongs to.
-/
import proofs.«177522_j36386962932383_2_alg».proof.Proof.RefReadP
import proofs.«177522_j36386962932383_2_alg».proof.Proof.Rows
import proofs.«177522_j36386962932383_2_alg».proof.Proof.LibHostLastMax

noncomputable section

namespace Cert.ReferenceIdeal.RefValue

open Cert.ReferenceIdeal Cert.ReferenceIdeal.Gen Cert.ReferenceIdeal.ReadP Cert.Attn Idealize.ShloMosaic Idealize.ShloMosaic.ValueIdx

variable (x0 x1 : (⟨S128x256x512, .f32⟩ : BufTy).Contents (Elt Ideal)) (x2 : (⟨S512x256, .f32⟩ : BufTy).Contents (Elt Ideal))

/-- The premise rows' projection. -/
theorem v1_eq (b : Fin 128) (p a : Fin 256) :
    val_main_v1 (F := Ideal) x0 x2 (ix3 b p a) = proj (rowsOf x0 b) (mat x2) p a := by
  rw [val_main_v1_apply, val_main_v0_apply]
  have hl : ∀ k : Fin 512, lidx_main_v0 (ix3 b p a) k = ix3 b p k := fun k => funext fun d => Fin.ext (by
    match d with | ⟨0, _⟩ => rfl | ⟨1, _⟩ => rfl | ⟨2, _⟩ => rfl)
  have hr : ∀ k : Fin 512, ridx_main_v0 (ix3 b p a) k = ix2 k a := fun k => funext fun d => Fin.ext (by
    match d with | ⟨0, _⟩ => rfl | ⟨1, _⟩ => rfl)
  simp only [hl, hr]
  rfl

/-- The hypothesis rows' projection. -/
theorem v3_eq (b : Fin 128) (p a : Fin 256) :
    val_main_v3 (F := Ideal) x1 x2 (ix3 b p a) = proj (rowsOf x1 b) (mat x2) p a := by
  rw [val_main_v3_apply, val_main_v2_apply]
  have hl : ∀ k : Fin 512, lidx_main_v2 (ix3 b p a) k = ix3 b p k := fun k => funext fun d => Fin.ext (by
    match d with | ⟨0, _⟩ => rfl | ⟨1, _⟩ => rfl | ⟨2, _⟩ => rfl)
  have hr : ∀ k : Fin 512, ridx_main_v2 (ix3 b p a) k = ix2 k a := fun k => funext fun d => Fin.ext (by
    match d with | ⟨0, _⟩ => rfl | ⟨1, _⟩ => rfl)
  simp only [hl, hr]
  rfl

/-- The scores of example `b`. -/
theorem v4_eq (b : Fin 128) (p h : Fin 256) :
    val_main_v4 (F := Ideal) x0 x1 x2 (ix3 b p h)
      = scores (proj (rowsOf x0 b) (mat x2)) (proj (rowsOf x1 b) (mat x2)) p h := by
  rw [val_main_v4_apply]
  have hl : ∀ k : Fin 256, lidx_main_v4 (ix3 b p h) k = ix3 b p k := fun k => funext fun d => Fin.ext (by
    match d with | ⟨0, _⟩ => rfl | ⟨1, _⟩ => rfl | ⟨2, _⟩ => rfl)
  have hr : ∀ k : Fin 256, ridx_main_v4 (ix3 b p h) k = ix3 b h k := fun k => funext fun d => Fin.ext (by
    match d with | ⟨0, _⟩ => rfl | ⟨1, _⟩ => rfl | ⟨2, _⟩ => rfl)
  simp only [hl, hr, v1_eq, v3_eq]
  rfl

/-- The constant the row maximum is folded from is the specification's `negInf`. -/
theorem cst_eq (i : S_.Idx) : val_main_cst (F := Ideal) i = negInf := rfl

theorem cst_0_eq (i : S_.Idx) : val_main_cst_0 (F := Ideal) i = negInf := rfl

/-- The reduction along the last axis, before the (idle) maximum with the spread constant. -/
theorem v5_eq (b : Fin 128) (p : Fin 256) :
    val_main_v5 (F := Ideal) x0 x1 x2 (ix2 b p)
      = (Finset.univ : Finset (Fin 256)).fold max negInf
          (fun h => scores (proj (rowsOf x0 b) (mat x2)) (proj (rowsOf x1 b) (mat x2)) p h) := by
  unfold val_main_v5
  refine (Cert.LibHostLastMax.hostLastMax_apply (val_main_v4 (F := Ideal) x0 x1 x2) (val_main_cst (F := Ideal))
    reducesTo_S128x256x256_S128x256_d2 (by decide) h_S_ b p).trans ?_
  rw [cst_eq]
  simp only [v4_eq]

/-- Each premise row's largest score. -/
theorem v7_eq (b : Fin 128) (p : Fin 256) :
    val_main_v7 (F := Ideal) x0 x1 x2 (ix2 b p)
      = rowMax (scores (proj (rowsOf x0 b) (mat x2)) (proj (rowsOf x1 b) (mat x2))) p := by
  rw [val_main_v7_apply, val_main_v6_apply, cst_0_eq, v5_eq, Ideal.maximumf_def]
  exact Cert.LibHostLastMax.max_init_fold _ _ _

/-- The exponentials of the scores less their row's largest. -/
theorem v11_eq (b : Fin 128) (p h : Fin 256) :
    val_main_v11 (F := Ideal) x0 x1 x2 (ix3 b p h)
      = expo (scores (proj (rowsOf x0 b) (mat x2)) (proj (rowsOf x1 b) (mat x2))) p h := by
  rw [val_main_v11_apply, val_main_v10_apply, val_main_v9_apply, val_main_v8_apply]
  have h9 : idx_main_v8 (idx_main_v9 (ix3 b p h)) = ix2 b p := funext fun d => Fin.ext (by
    match d with | ⟨0, _⟩ => rfl | ⟨1, _⟩ => rfl)
  rw [h9, v4_eq, v7_eq]
  rfl

/-- The softmax weights of example `b`. -/
theorem v15_eq (b : Fin 128) (p h : Fin 256) :
    val_main_v15 (F := Ideal) x0 x1 x2 (ix3 b p h) = weights (rowsOf x0 b) (rowsOf x1 b) (mat x2) p h := by
  rw [val_main_v15_apply, val_main_v14_apply, val_main_v13_apply]
  have h13 : idx_main_v13 (idx_main_v14 (ix3 b p h)) = ix2 b p := funext fun d => Fin.ext (by
    match d with | ⟨0, _⟩ => rfl | ⟨1, _⟩ => rfl)
  rw [h13, val_main_v12_apply]
  have hk : ∀ k : Fin 256, idx_main_v12 (ix2 b p) k = ix3 b p k := fun k => funext fun d => Fin.ext (by
    match d with | ⟨0, _⟩ => rfl | ⟨1, _⟩ => rfl | ⟨2, _⟩ => rfl)
  have hz : val_main_cst_1 (F := Ideal) (Shape.Idx.first h_S_) = 0 := Ideal.ofBits_zero_f32
  simp only [hk, v11_eq]
  rw [hz, zero_add]
  rfl

end Cert.ReferenceIdeal.RefValue

end
-- ==== Proof.LibPointOps.lean ====
/-
  Host operations on a stack of point clouds `B × N × K` read at an index — general in the extents.

  * a product contracting the channel axis against the rows of an `M × K` matrix reads, at `(p, n, o)`,
    `∑ₖ lhs (p, n, k) · rhs (o, k)`;
  * the maximum over the points reads, at `(p, k)`, the fold of `max` from the initial value over `n` of `x (p, n, k)`:
    `max` is commutative and associative, so the order of the fold does not matter;
  * two arrays joined along the channel axis read the first array below its extent and the second past it;
  * a `B × K` array given a middle unit axis, and a `B × 1 × K` array spread over the points.
-/
import Idealize.ShloMosaic.Lib.ValueIdx
import Idealize.ShloMosaic.Lib.Pipeline.Value
import Idealize.ShloMosaic.PureOps.Ideal.Laws

noncomputable section

open scoped BigOperators

namespace Cert.LibPointOps

open Idealize.ShloMosaic Idealize.ShloMosaic.ValueIdx

variable {B N K M : ℕ} {α : Type}

/-- The host's product over the channel axis, at `(p, n, o)`: `∑ₖ lhs (p, n, k) · rhs (o, k)`. -/
theorem dotLast_apply {φ₁ φ₂ : FTy}
    (D : DotDims (⟨3, ![B, N, K]⟩ : Shape) (⟨2, ![M, K]⟩ : Shape) (⟨3, ![B, N, M]⟩ : Shape))
    (hr : D.contr.rank = 1) (hs : D.contr.size ⟨0, by omega⟩ = K)
    (l0 : ∀ (i : (⟨3, ![B, N, M]⟩ : Shape).Idx) (q : D.contr.Idx), (D.lhsIdx i q 0).val = (i 0).val)
    (l1 : ∀ (i : (⟨3, ![B, N, M]⟩ : Shape).Idx) (q : D.contr.Idx), (D.lhsIdx i q 1).val = (i 1).val)
    (l2 : ∀ (i : (⟨3, ![B, N, M]⟩ : Shape).Idx) (q : D.contr.Idx), (D.lhsIdx i q 2).val = (q ⟨0, by omega⟩).val)
    (r0 : ∀ (i : (⟨3, ![B, N, M]⟩ : Shape).Idx) (q : D.contr.Idx), (D.rhsIdx i q 0).val = (i 2).val)
    (r1 : ∀ (i : (⟨3, ![B, N, M]⟩ : Shape).Idx) (q : D.contr.Idx), (D.rhsIdx i q 1).val = (q ⟨0, by omega⟩).val)
    (prec : Option ContractPrecision)
    (lhs : FVec Ideal (⟨3, ![B, N, K]⟩ : Shape) φ₁) (rhs : FVec Ideal (⟨2, ![M, K]⟩ : Shape) φ₂)
    (p : Fin B) (n : Fin N) (o : Fin M) :
    Host.dotGeneral D prec lhs rhs (ix3 p n o) = ∑ k : Fin K, (lhs (ix3 p n k) : EReal) * (rhs (ix2 o k) : EReal) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix3 p n o) ((contrEquiv1 D K hr hs).symm k) = ix3 p n k := funext fun a => Fin.ext (by
    match a with
    | ⟨0, _⟩ => exact l0 _ _
    | ⟨1, _⟩ => exact l1 _ _
    | ⟨2, _⟩ => exact (l2 _ _).trans hk)
  have er : D.rhsIdx (ix3 p n o) ((contrEquiv1 D K hr hs).symm k) = ix2 o k := funext fun a => Fin.ext (by
    match a with
    | ⟨0, _⟩ => exact r0 _ _
    | ⟨1, _⟩ => exact (r1 _ _).trans hk)
  rw [el, er]

/-- The host's maximum over the points, at `(p, k)`: the fold of `max` from the initial value over `n`. -/
theorem hostMidMax_apply {φ : FTy} {u : Shape} (x : FVec Ideal ⟨3, ![B, N, K]⟩ φ) (init : u.Idx → Ideal φ)
    (h' : (⟨3, ![B, N, K]⟩ : Shape).ReducesTo [1] ⟨2, ![B, K]⟩) (h : (⟨3, ![B, N, K]⟩ : Shape).Reduces [1] ⟨2, ![B, K]⟩)
    (hu : 0 < u.numel) (p : Fin B) (k : Fin K) :
    Host.reduce FloatOps.maximumf x init h' hu (ix2 p k)
      = (Finset.univ : Finset (Fin N)).fold max (init (Shape.Idx.first hu)) (fun n : Fin N => x (ix3 p n k)) := by
  refine (Host.reduce_eq_fold_single FloatOps.maximumf x init h' h hu (ix2 p k)).trans ?_
  have hf : (x ∘ h.lift (ix2 p k)) = fun n : Fin N => x (ix3 p n k) := funext fun n => congrArg x
    (funext fun c => Fin.ext (by match c with | ⟨0, _⟩ => rfl | ⟨1, _⟩ => rfl | ⟨2, _⟩ => rfl))
  exact congrArg (fun f => Finset.fold max (init (Shape.Idx.first hu)) f (Finset.univ : Finset (Fin N))) hf

variable {K1 K2 : ℕ}

/-- Two arrays joined along the channel axis: below the first array's extent, the first array. -/
theorem concatLast_left (x₁ : (⟨3, ![B, N, K1]⟩ : Shape).Idx → α) (x₂ : (⟨3, ![B, N, K2]⟩ : Shape).Idx → α)
    (h : Shape.Concatenates [(⟨3, ![B, N, K1]⟩ : Shape), (⟨3, ![B, N, K2]⟩ : Shape)] (⟨3, ![B, N, K]⟩ : Shape) 2)
    (p : Fin B) (n : Fin N) (q : Fin K) (hq : q.val < K1) :
    concatenate (⟨3, ![B, N, K]⟩ : Shape) 2 [⟨_, x₁⟩, ⟨_, x₂⟩] h (ix3 p n q) = x₁ (ix3 p n ⟨q.val, hq⟩) :=
  concatenate_pair_apply_left 2 x₁ x₂ h (ix3 p n q) rfl (ix3 p n ⟨q.val, hq⟩) (fun c => by
    match c with
    | ⟨0, _⟩ => rfl
    | ⟨1, _⟩ => rfl
    | ⟨2, _⟩ => rfl)

/-- Two arrays joined along the channel axis: past the first array's extent, the second array. -/
theorem concatLast_right (x₁ : (⟨3, ![B, N, K1]⟩ : Shape).Idx → α) (x₂ : (⟨3, ![B, N, K2]⟩ : Shape).Idx → α)
    (h : Shape.Concatenates [(⟨3, ![B, N, K1]⟩ : Shape), (⟨3, ![B, N, K2]⟩ : Shape)] (⟨3, ![B, N, K]⟩ : Shape) 2)
    (p : Fin B) (n : Fin N) (q : Fin K) (hq : K1 ≤ q.val) (hlt : q.val - K1 < K2) :
    concatenate (⟨3, ![B, N, K]⟩ : Shape) 2 [⟨_, x₁⟩, ⟨_, x₂⟩] h (ix3 p n q) = x₂ (ix3 p n ⟨q.val - K1, hlt⟩) :=
  concatenate_pair_apply_right 2 x₁ x₂ h (ix3 p n q) rfl rfl (ix3 p n ⟨q.val - K1, hlt⟩) (fun c hc => by
    match c with
    | ⟨0, _⟩ => rfl
    | ⟨1, _⟩ => rfl
    | ⟨2, _⟩ => exact absurd rfl hc) (by
    show (q.val - K1) + K1 = q.val
    omega)

/-- A `B × K` array given a middle unit axis reads, at `(p, z, k)`, the array at `(p, k)`. -/
theorem bcast_BK_B1K_apply (v : (⟨2, ![B, K]⟩ : Shape).Idx → α)
    (h : (⟨2, ![B, K]⟩ : Shape).BroadcastsInDim ⟨3, ![B, 1, K]⟩ ![0, 2]) (p : Fin B) (z : Fin 1) (k : Fin K) :
    broadcastInDim ⟨3, ![B, 1, K]⟩ ![0, 2] h v (ix3 p z k) = v (ix2 p k) :=
  broadcastInDim_apply _ h v (ix3 p z k) (ix2 p k) (fun a => match a with
    | ⟨0, _⟩ => by
      show p.val = if B = 1 then 0 else p.val
      split
      · have := p.isLt; omega
      · rfl
    | ⟨1, _⟩ => by
      show k.val = if K = 1 then 0 else k.val
      split
      · have := k.isLt; omega
      · rfl)

/-- A `B × 1 × K` array spread over the points reads, at `(p, n, k)`, the array at `(p, 0, k)`. -/
theorem bcast_B1K_BNK_apply (v : (⟨3, ![B, 1, K]⟩ : Shape).Idx → α)
    (h : (⟨3, ![B, 1, K]⟩ : Shape).BroadcastsInDim ⟨3, ![B, N, K]⟩ ![0, 1, 2]) (p : Fin B) (n : Fin N) (k : Fin K) :
    broadcastInDim ⟨3, ![B, N, K]⟩ ![0, 1, 2] h v (ix3 p n k) = v (ix3 p (0 : Fin 1) k) :=
  broadcastInDim_apply _ h v (ix3 p n k) (ix3 p (0 : Fin 1) k) (fun a => match a with
    | ⟨0, _⟩ => by
      show p.val = if B = 1 then 0 else p.val
      split
      · have := p.isLt; omega
      · rfl
    | ⟨1, _⟩ => by
      show 0 = if (1 : ℕ) = 1 then 0 else n.val
      rw [if_pos rfl]
    | ⟨2, _⟩ => by
      show k.val = if K = 1 then 0 else k.val
      split
      · have := k.isLt; omega
      · rfl)

/-- A `B × 1 × N` array with its unit axis dropped reads, at `(p, n)`, the array at `(p, 0, n)`. -/
theorem shapeCast_B1N_BN_apply (x : (⟨3, ![B, 1, N]⟩ : Shape).Idx → α)
    (h : (⟨3, ![B, 1, N]⟩ : Shape).ShapeCasts ⟨2, ![B, N]⟩) (p : Fin B) (n : Fin N) :
    shapeCast ⟨2, ![B, N]⟩ x h (ix2 p n) = x (ix3 p (0 : Fin 1) n) :=
  shapeCast_apply x h _ _ (by
    rw [Shape.rowMajor_val_three, Shape.rowMajor_val_two]
    show (p.val * 1 + 0) * N + n.val = p.val * N + n.val
    rw [Nat.mul_one, Nat.add_zero])

/-- An `B × 1 × K` array with its unit axis dropped, the other way: a `B × K` array cast to `B × 1 × K`. -/
theorem shapeCast_BN_B1N_apply (x : (⟨2, ![B, N]⟩ : Shape).Idx → α)
    (h : (⟨2, ![B, N]⟩ : Shape).ShapeCasts ⟨3, ![B, 1, N]⟩) (p : Fin B) (z : Fin 1) (n : Fin N) :
    shapeCast ⟨3, ![B, 1, N]⟩ x h (ix3 p z n) = x (ix2 p n) :=
  shapeCast_apply x h _ _ (by
    have hz : z.val = 0 := by omega
    rw [Shape.rowMajor_val_three, Shape.rowMajor_val_two]
    show p.val * N + n.val = (p.val * 1 + z.val) * N + n.val
    rw [hz, Nat.mul_one, Nat.add_zero])

end Cert.LibPointOps

end
-- ==== Proof.LibConcatCols.lean ====
/-
  Two matrices with the same number of rows laid side by side (a concatenation along axis 1), read at an
  entry: the entry in row `p` and column `c` of `[x₁ | x₂]` is `x₁ (p, c)` when `c` is a column of the first
  matrix, and `x₂ (p, c - n₁)` when it lies past the first matrix's `n₁` columns. General in the extents.
-/
import Idealize.ShloMosaic.Lib.Pipeline.Value
import Idealize.ShloMosaic.Lib.ValueIdx

namespace Idealize.ShloMosaic.ValueIdx

open Idealize.ShloMosaic

variable {α : Type}

/-- Row `p`, column `c` of `[x₁ | x₂]`, for a column `c` of the first matrix (`c = k < n₁`), is `x₁ (p, k)`. -/
theorem concatenate_cols_left {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₁) (hc : c.val = k.val) :
    concatenate (⟨2, ![a, N]⟩ : Shape) 1 [⟨(⟨2, ![a, n₁]⟩ : Shape), x₁⟩, ⟨(⟨2, ![a, n₂]⟩ : Shape), x₂⟩] h (ix2 p c) = x₁ (ix2 p k) :=
  concatenate_pair_apply_left 1 x₁ x₂ h _ rfl _ (fun b => by
    match b with
    | ⟨0, _⟩ => rfl
    | ⟨1, _⟩ => exact hc.symm)

/-- Row `p`, column `c` of `[x₁ | x₂]`, for a column past the first matrix (`c = n₁ + k`), is `x₂ (p, k)`. -/
theorem concatenate_cols_right {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₂) (hc : k.val + n₁ = c.val) :
    concatenate (⟨2, ![a, N]⟩ : Shape) 1 [⟨(⟨2, ![a, n₁]⟩ : Shape), x₁⟩, ⟨(⟨2, ![a, n₂]⟩ : Shape), x₂⟩] h (ix2 p c) = x₂ (ix2 p k) :=
  concatenate_pair_apply_right 1 x₁ x₂ h _ rfl rfl _
    (fun b hb => by
      match b with
      | ⟨0, _⟩ => rfl
      | ⟨1, _⟩ => exact absurd rfl hb)
    hc

end Idealize.ShloMosaic.ValueIdx
-- ==== Proof.RefValueB.lean ====
/-
  The reference program's middle stages read entry by entry: the aligned rows are the specification's `beta` and
  `alpha`, each row joined with its aligned row is `join`, the squashed comparisons summed over the rows are `agg1`
  and `agg2`, and the two sums laid side by side are `feat`.
-/
import proofs.«177522_j36386962932383_2_alg».proof.Proof.RefValueA
import proofs.«177522_j36386962932383_2_alg».proof.Proof.LibPointOps
import proofs.«177522_j36386962932383_2_alg».proof.Proof.LibConcatCols

noncomputable section

namespace Cert.ReferenceIdeal.RefValue

open Cert.ReferenceIdeal Cert.ReferenceIdeal.Gen Cert.ReferenceIdeal.ReadP Cert.Attn Idealize.ShloMosaic Idealize.ShloMosaic.ValueIdx

variable (x0 x1 : (⟨S128x256x512, .f32⟩ : BufTy).Contents (Elt Ideal)) (x2 : (⟨S512x256, .f32⟩ : BufTy).Contents (Elt Ideal))
  (x3 : (⟨S1024x2048, .f32⟩ : BufTy).Contents (Elt Ideal))

/-- For each premise row, the weighted sum of the hypothesis rows. -/
theorem v16_eq (b : Fin 128) (p : Fin 256) (e : Fin 512) :
    val_main_v16 (F := Ideal) x0 x1 x2 (ix3 b p e) = beta (weights (rowsOf x0 b) (rowsOf x1 b) (mat x2)) (rowsOf x1 b) p e := by
  rw [val_main_v16_apply]
  have hl : ∀ k : Fin 256, lidx_main_v16 (ix3 b p e) k = ix3 b p k := fun k => funext fun d => Fin.ext (by
    match d with | ⟨0, _⟩ => rfl | ⟨1, _⟩ => rfl | ⟨2, _⟩ => rfl)
  have hr : ∀ k : Fin 256, ridx_main_v16 (ix3 b p e) k = ix3 b k e := fun k => funext fun d => Fin.ext (by
    match d with | ⟨0, _⟩ => rfl | ⟨1, _⟩ => rfl | ⟨2, _⟩ => rfl)
  simp only [hl, hr, v15_eq]
  rfl

/-- For each hypothesis row, the sum of the premise rows weighted down the columns. -/
theorem v17_eq (b : Fin 128) (h : Fin 256) (e : Fin 512) :
    val_main_v17 (F := Ideal) x0 x1 x2 (ix3 b h e) = alpha (weights (rowsOf x0 b) (rowsOf x1 b) (mat x2)) (rowsOf x0 b) h e := by
  rw [val_main_v17_apply]
  have hl : ∀ k : Fin 256, lidx_main_v17 (ix3 b h e) k = ix3 b k h := fun k => funext fun d => Fin.ext (by
    match d with | ⟨0, _⟩ => rfl | ⟨1, _⟩ => rfl | ⟨2, _⟩ => rfl)
  have hr : ∀ k : Fin 256, ridx_main_v17 (ix3 b h e) k = ix3 b k e := fun k => funext fun d => Fin.ext (by
    match d with | ⟨0, _⟩ => rfl | ⟨1, _⟩ => rfl | ⟨2, _⟩ => rfl)
  simp only [hl, hr, v15_eq]
  rfl

/-- Each premise row followed by its aligned row. -/
theorem v18_eq (b : Fin 128) (p : Fin 256) (c : Fin 1024) :
    val_main_v18 (F := Ideal) x0 x1 x2 (ix3 b p c) = join (rowsOf x0 b) (beta (weights (rowsOf x0 b) (rowsOf x1 b) (mat x2)) (rowsOf x1 b)) p c := by
  unfold val_main_v18 join
  by_cases hc : c.val < 512
  · rw [dif_pos hc]
    exact Cert.LibPointOps.concatLast_left x0 (val_main_v16 (F := Ideal) x0 x1 x2)
      concatenates_S128x256x512_S128x256x512_S128x256x1024_d2 b p c hc
  · rw [dif_neg hc]
    refine (Cert.LibPointOps.concatLast_right x0 (val_main_v16 (F := Ideal) x0 x1 x2)
      concatenates_S128x256x512_S128x256x512_S128x256x1024_d2 b p c (by omega) (by omega)).trans ?_
    exact v16_eq x0 x1 x2 b p _

/-- Each hypothesis row followed by its aligned row. -/
theorem v21_eq (b : Fin 128) (h : Fin 256) (c : Fin 1024) :
    val_main_v21 (F := Ideal) x0 x1 x2 (ix3 b h c) = join (rowsOf x1 b) (alpha (weights (rowsOf x0 b) (rowsOf x1 b) (mat x2)) (rowsOf x0 b)) h c := by
  unfold val_main_v21 join
  by_cases hc : c.val < 512
  · rw [dif_pos hc]
    exact Cert.LibPointOps.concatLast_left x1 (val_main_v17 (F := Ideal) x0 x1 x2)
      concatenates_S128x256x512_S128x256x512_S128x256x1024_d2 b h c hc
  · rw [dif_neg hc]
    refine (Cert.LibPointOps.concatLast_right x1 (val_main_v17 (F := Ideal) x0 x1 x2)
      concatenates_S128x256x512_S128x256x512_S128x256x1024_d2 b h c (by omega) (by omega)).trans ?_
    exact v17_eq x0 x1 x2 b h _

/-- A joined premise row projected by `wg` and squashed. -/
theorem v20_eq (b : Fin 128) (p : Fin 256) (f : Fin 2048) :
    val_main_v20 (F := Ideal) x0 x1 x2 x3 (ix3 b p f)
      = Ideal.tanh (∑ c : Fin 1024, join (rowsOf x0 b) (beta (weights (rowsOf x0 b) (rowsOf x1 b) (mat x2)) (rowsOf x1 b)) p c * mat x3 c f) := by
  rw [val_main_v20_apply, val_main_v19_apply]
  have hl : ∀ k : Fin 1024, lidx_main_v19 (ix3 b p f) k = ix3 b p k := fun k => funext fun d => Fin.ext (by
    match d with | ⟨0, _⟩ => rfl | ⟨1, _⟩ => rfl | ⟨2, _⟩ => rfl)
  have hr : ∀ k : Fin 1024, ridx_main_v19 (ix3 b p f) k = ix2 k f := fun k => funext fun d => Fin.ext (by
    match d with | ⟨0, _⟩ => rfl | ⟨1, _⟩ => rfl)
  simp only [hl, hr, v18_eq]
  rfl

/-- A joined hypothesis row projected by `wg` and squashed. -/
theorem v23_eq (b : Fin 128) (h : Fin 256) (f : Fin 2048) :
    val_main_v23 (F := Ideal) x0 x1 x2 x3 (ix3 b h f)
      = Ideal.tanh (∑ c : Fin 1024, join (rowsOf x1 b) (alpha (weights (rowsOf x0 b) (rowsOf x1 b) (mat x2)) (rowsOf x0 b)) h c * mat x3 c f) := by
  rw [val_main_v23_apply, val_main_v22_apply]
  have hl : ∀ k : Fin 1024, lidx_main_v22 (ix3 b h f) k = ix3 b h k := fun k => funext fun d => Fin.ext (by
    match d with | ⟨0, _⟩ => rfl | ⟨1, _⟩ => rfl | ⟨2, _⟩ => rfl)
  have hr : ∀ k : Fin 1024, ridx_main_v22 (ix3 b h f) k = ix2 k f := fun k => funext fun d => Fin.ext (by
    match d with | ⟨0, _⟩ => rfl | ⟨1, _⟩ => rfl)
  simp only [hl, hr, v21_eq]
  rfl

/-- The premise side's aggregate. -/
theorem v24_eq (b : Fin 128) (f : Fin 2048) :
    val_main_v24 (F := Ideal) x0 x1 x2 x3 (ix2 b f) = agg1 (rowsOf x0 b) (rowsOf x1 b) (mat x2) (mat x3) f := by
  rw [val_main_v24_apply]
  have hk : ∀ k : Fin 256, idx_main_v24 (ix2 b f) k = ix3 b k f := fun k => funext fun d => Fin.ext (by
    match d with | ⟨0, _⟩ => rfl | ⟨1, _⟩ => rfl | ⟨2, _⟩ => rfl)
  have hz : val_main_cst_2 (F := Ideal) (Shape.Idx.first h_S_) = 0 := Ideal.ofBits_zero_f32
  simp only [hk, v20_eq]
  rw [hz, zero_add]
  rfl

/-- The hypothesis side's aggregate. -/
theorem v25_eq (b : Fin 128) (f : Fin 2048) :
    val_main_v25 (F := Ideal) x0 x1 x2 x3 (ix2 b f) = agg2 (rowsOf x0 b) (rowsOf x1 b) (mat x2) (mat x3) f := by
  rw [val_main_v25_apply]
  have hk : ∀ k : Fin 256, idx_main_v25 (ix2 b f) k = ix3 b k f := fun k => funext fun d => Fin.ext (by
    match d with | ⟨0, _⟩ => rfl | ⟨1, _⟩ => rfl | ⟨2, _⟩ => rfl)
  have hz : val_main_cst_3 (F := Ideal) (Shape.Idx.first h_S_) = 0 := Ideal.ofBits_zero_f32
  simp only [hk, v23_eq]
  rw [hz, zero_add]
  rfl

/-- The two aggregates side by side. -/
theorem v26_eq (b : Fin 128) (c : Fin 4096) :
    val_main_v26 (F := Ideal) x0 x1 x2 x3 (ix2 b c) = feat (rowsOf x0 b) (rowsOf x1 b) (mat x2) (mat x3) c := by
  unfold val_main_v26 feat vjoin
  by_cases hc : c.val < 2048
  · rw [dif_pos hc]
    refine (concatenate_cols_left (val_main_v24 (F := Ideal) x0 x1 x2 x3) (val_main_v25 (F := Ideal) x0 x1 x2 x3)
      concatenates_S128x2048_S128x2048_S128x4096_d1 b c ⟨c.val, hc⟩ rfl).trans ?_
    exact v24_eq x0 x1 x2 x3 b _
  · rw [dif_neg hc]
    refine (concatenate_cols_right (val_main_v24 (F := Ideal) x0 x1 x2 x3) (val_main_v25 (F := Ideal) x0 x1 x2 x3)
      concatenates_S128x2048_S128x2048_S128x4096_d1 b c ⟨c.val - 2048, by omega⟩ (by
        show c.val - 2048 + 2048 = c.val
        omega)).trans ?_
    exact v25_eq x0 x1 x2 x3 b _

end Cert.ReferenceIdeal.RefValue

end
-- ==== Proof.RefValue.lean ====
/-
  The reference program's value is the specification: its last stages are the two squashed layers and the linear layer
  of `head` applied to the joined aggregates (each bias is spread over the batch, so an entry reads the bias at its
  column), and so entry `(b, o)` of its result is logit `o` of example `b`.
-/
import proofs.«177522_j36386962932383_2_alg».proof.Proof.RefValueB

noncomputable section

namespace Cert.ReferenceIdeal.RefValue

open Cert.ReferenceIdeal Cert.ReferenceIdeal.Gen Cert.ReferenceIdeal.ReadP Cert.Attn Idealize.ShloMosaic Idealize.ShloMosaic.ValueIdx

variable (x0 x1 : (⟨S128x256x512, .f32⟩ : BufTy).Contents (Elt Ideal)) (x2 : (⟨S512x256, .f32⟩ : BufTy).Contents (Elt Ideal))
  (x3 : (⟨S1024x2048, .f32⟩ : BufTy).Contents (Elt Ideal)) (x4 : (⟨S4096x2048, .f32⟩ : BufTy).Contents (Elt Ideal))
  (x5 : (⟨S2048, .f32⟩ : BufTy).Contents (Elt Ideal)) (x6 : (⟨S2048x2048, .f32⟩ : BufTy).Contents (Elt Ideal))
  (x7 : (⟨S2048, .f32⟩ : BufTy).Contents (Elt Ideal)) (x8 : (⟨S2048x3, .f32⟩ : BufTy).Contents (Elt Ideal))
  (x9 : (⟨S3, .f32⟩ : BufTy).Contents (Elt Ideal))

/-- The first squashed layer. -/
theorem v31_eq (b : Fin 128) (j : Fin 2048) :
    val_main_v31 (F := Ideal) x0 x1 x2 x3 x4 x5 (ix2 b j)
      = Ideal.tanh (dense (feat (rowsOf x0 b) (rowsOf x1 b) (mat x2) (mat x3)) (mat x4) (vec x5) j) := by
  rw [val_main_v31_apply, val_main_v30_apply, val_main_v29_apply, val_main_v28_apply, val_main_v27_apply]
  have hl : ∀ k : Fin 4096, lidx_main_v27 (ix2 b j) k = ix2 b k := fun k => funext fun d => Fin.ext (by
    match d with | ⟨0, _⟩ => rfl | ⟨1, _⟩ => rfl)
  have hr : ∀ k : Fin 4096, ridx_main_v27 (ix2 b j) k = ix2 k j := fun k => funext fun d => Fin.ext (by
    match d with | ⟨0, _⟩ => rfl | ⟨1, _⟩ => rfl)
  have hb : idx_main_v28 (idx_main_v29 (ix2 b j)) = ix1 j := funext fun d => Fin.ext (by
    match d with | ⟨0, _⟩ => rfl)
  rw [hb]
  simp only [hl, hr, v26_eq]
  rfl

/-- The second squashed layer. -/
theorem v36_eq (b : Fin 128) (k : Fin 2048) :
    val_main_v36 (F := Ideal) x0 x1 x2 x3 x4 x5 x6 x7 (ix2 b k)
      = Ideal.tanh (dense (fun j => Ideal.tanh (dense (feat (rowsOf x0 b) (rowsOf x1 b) (mat x2) (mat x3)) (mat x4) (vec x5) j)) (mat x6) (vec x7) k) := by
  rw [val_main_v36_apply, val_main_v35_apply, val_main_v34_apply, val_main_v33_apply, val_main_v32_apply]
  have hl : ∀ j : Fin 2048, lidx_main_v32 (ix2 b k) j = ix2 b j := fun j => funext fun d => Fin.ext (by
    match d with | ⟨0, _⟩ => rfl | ⟨1, _⟩ => rfl)
  have hr : ∀ j : Fin 2048, ridx_main_v32 (ix2 b k) j = ix2 j k := fun j => funext fun d => Fin.ext (by
    match d with | ⟨0, _⟩ => rfl | ⟨1, _⟩ => rfl)
  have hb : idx_main_v33 (idx_main_v34 (ix2 b k)) = ix1 k := funext fun d => Fin.ext (by
    match d with | ⟨0, _⟩ => rfl)
  rw [hb]
  simp only [hl, hr, v31_eq]
  rfl

/-- The logits of example `b`. -/
theorem v40_eq (b : Fin 128) (o : Fin 3) :
    val_main_v40 (F := Ideal) x0 x1 x2 x3 x4 x5 x6 x7 x8 x9 (ix2 b o)
      = logits (rowsOf x0 b) (rowsOf x1 b) (mat x2) (mat x3) (mat x4) (vec x5) (mat x6) (vec x7) (mat x8) (vec x9) o := by
  rw [val_main_v40_apply, val_main_v39_apply, val_main_v38_apply, val_main_v37_apply]
  have hl : ∀ k : Fin 2048, lidx_main_v37 (ix2 b o) k = ix2 b k := fun k => funext fun d => Fin.ext (by
    match d with | ⟨0, _⟩ => rfl | ⟨1, _⟩ => rfl)
  have hr : ∀ k : Fin 2048, ridx_main_v37 (ix2 b o) k = ix2 k o := fun k => funext fun d => Fin.ext (by
    match d with | ⟨0, _⟩ => rfl | ⟨1, _⟩ => rfl)
  have hb : idx_main_v38 (idx_main_v39 (ix2 b o)) = ix1 o := funext fun d => Fin.ext (by
    match d with | ⟨0, _⟩ => rfl)
  rw [hb]
  simp only [hl, hr, v36_eq]
  rfl

/-- The reference program's value is the classifier's result for the batch. -/
theorem value (x0 x1 : (⟨S128x256x512, .f32⟩ : BufTy).Contents (Elt Ideal)) (x2 : (⟨S512x256, .f32⟩ : BufTy).Contents (Elt Ideal))
    (x3 : (⟨S1024x2048, .f32⟩ : BufTy).Contents (Elt Ideal)) (x4 : (⟨S4096x2048, .f32⟩ : BufTy).Contents (Elt Ideal))
    (x5 : (⟨S2048, .f32⟩ : BufTy).Contents (Elt Ideal)) (x6 : (⟨S2048x2048, .f32⟩ : BufTy).Contents (Elt Ideal))
    (x7 : (⟨S2048, .f32⟩ : BufTy).Contents (Elt Ideal)) (x8 : (⟨S2048x3, .f32⟩ : BufTy).Contents (Elt Ideal))
    (x9 : (⟨S3, .f32⟩ : BufTy).Contents (Elt Ideal)) :
    Cert.ReferenceIdeal.ReadP.val_main_v40 (F := Ideal) x0 x1 x2 x3 x4 x5 x6 x7 x8 x9
      = Cert.Attn.result x0 x1 x2 x3 x4 x5 x6 x7 x8 x9 := by
  funext i
  obtain ⟨b, o, rfl⟩ : ∃ (b : Fin 128) (o : Fin 3), i = ix2 b o := ⟨i 0, i 1, eq_ix2 i⟩
  rw [result_apply]
  exact v40_eq x0 x1 x2 x3 x4 x5 x6 x7 x8 x9 b o

end Cert.ReferenceIdeal.RefValue

end
-- ==== Proof.KernelRun.lean ====
/-
  The kernel program's run with its result named: every weakly fair execution of @main ends, nothing faulting, with the
  result array at what the second region's write-backs leave of the buffer contents at its entry, and the argument arrays
  as launched.  The buffer contents at the four boundaries of @main (the launch, the first region's entry and exit, the
  second region's entry and exit) are the fold of the host operations and of the regions' write-backs over the launch
  memory; the result array is read off the last one.
-/
import proofs.«177522_j36386962932383_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result array read at the last boundary's contents. -/
theorem run_value : θ_run defs (onTc (τ := τ) (main (F := F))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v10 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.RunValue

end
-- ==== Proof.Blocks0a.lean ====
/-
  The first region's windows on its arrays.  The grid has 16 points; at point `t` the two input windows hold examples
  `8t … 8t + 7` of the premises and of the hypotheses, the two weight windows hold their whole arrays, and each output
  window writes back rows `8t … 8t + 7` of its `128 × 2048` array: the 16 row blocks tile it.
-/
import proofs.«177522_j36386962932383_2_alg».proof.Proof.Gen.KernelIdeal.Frame
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps, decided over the grid. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 16 := by have := t.isLt; have h : cfg0.N = 16 := N_0; omega

/-- The premises window at point `t`: example `bb` of the block is example `8t + bb` of the array. -/
theorem blk0_apply (c : Dev nD) (t : Fin cfg0.N) (bb : Fin 8) (p : Fin 256) (e : Fin 512) :
    iblk0 V c 0 t (ix3 bb p e) = V c main_arg0 (ix3 (⟨t.val * 8 + bb.val, by have := t_lt t; omega⟩ : Fin 128) p e) := by
  obtain ⟨e0, e1, e2, -⟩ := idx_facts t
  show V c main_arg0 (((cfg0.win 0).blk t).view.emb (ix3 bb p e)) = _
  refine congrArg (V c main_arg0) (funext fun a => Fin.ext ?_)
  match a with
  | ⟨0, _⟩ => show win0_0.index t (0 : Fin 3) * 8 + 1 * bb.val = t.val * 8 + bb.val; omega
  | ⟨1, _⟩ => show win0_0.index t (1 : Fin 3) * 256 + 1 * p.val = p.val; omega
  | ⟨2, _⟩ => show win0_0.index t (2 : Fin 3) * 512 + 1 * e.val = e.val; omega

/-- The hypotheses window likewise. -/
theorem blk1_apply (c : Dev nD) (t : Fin cfg0.N) (bb : Fin 8) (p : Fin 256) (e : Fin 512) :
    iblk0 V c 1 t (ix3 bb p e) = V c main_arg1 (ix3 (⟨t.val * 8 + bb.val, by have := t_lt t; omega⟩ : Fin 128) p e) := by
  obtain ⟨-, -, -, e0, e1, e2, -⟩ := idx_facts t
  show V c main_arg1 (((cfg0.win 1).blk t).view.emb (ix3 bb p e)) = _
  refine congrArg (V c main_arg1) (funext fun a => Fin.ext ?_)
  match a with
  | ⟨0, _⟩ => show win0_1.index t (0 : Fin 3) * 8 + 1 * bb.val = t.val * 8 + bb.val; omega
  | ⟨1, _⟩ => show win0_1.index t (1 : Fin 3) * 256 + 1 * p.val = p.val; omega
  | ⟨2, _⟩ => show win0_1.index t (2 : Fin 3) * 512 + 1 * e.val = e.val; omega

/-- The alignment weights' window holds the whole array at every point. -/
theorem blk2_apply (c : Dev nD) (t : Fin cfg0.N) (i : Fin 512) (j : Fin 256) :
    iblk0 V c 2 t (ix2 i j) = V c main_v0 (ix2 i j) := by
  obtain ⟨-, -, -, -, -, -, e0, e1, -⟩ := idx_facts t
  show V c main_v0 (((cfg0.win 2).blk t).view.emb (ix2 i j)) = _
  refine congrArg (V c main_v0) (funext fun a => Fin.ext ?_)
  match a with
  | ⟨0, _⟩ => show win0_2.index t (0 : Fin 2) * 512 + 1 * i.val = i.val; omega
  | ⟨1, _⟩ => show win0_2.index t (1 : Fin 2) * 256 + 1 * j.val = j.val; omega

/-- The comparison weights' window likewise. -/
theorem blk3_apply (c : Dev nD) (t : Fin cfg0.N) (i : Fin 1024) (j : Fin 2048) :
    iblk0 V c 3 t (ix2 i j) = V c main_v1 (ix2 i j) := by
  obtain ⟨-, -, -, -, -, -, -, -, e0, e1, -⟩ := idx_facts t
  show V c main_v1 (((cfg0.win 3).blk t).view.emb (ix2 i j)) = _
  refine congrArg (V c main_v1) (funext fun a => Fin.ext ?_)
  match a with
  | ⟨0, _⟩ => show win0_3.index t (0 : Fin 2) * 1024 + 1 * i.val = i.val; omega
  | ⟨1, _⟩ => show win0_3.index t (1 : Fin 2) * 2048 + 1 * j.val = j.val; omega

/-- Where entry `(bb, g)` of output block `t` sits in the array (either output window). -/
theorem emb4_apply (t : Fin cfg0.N) (bb : Fin 8) (g : Fin 2048) :
    ((cfg0.win 4).blk t).view.emb (ix2 bb g) = ix2 (⟨t.val * 8 + bb.val, by have := t_lt t; omega⟩ : Fin 128) g := by
  obtain ⟨-, -, -, -, -, -, -, -, -, -, e0, e1, -⟩ := idx_facts t
  refine funext fun a => Fin.ext ?_
  match a with
  | ⟨0, _⟩ => show win0_4.index t (0 : Fin 2) * 8 + 1 * bb.val = t.val * 8 + bb.val; omega
  | ⟨1, _⟩ => show win0_4.index t (1 : Fin 2) * 2048 + 1 * g.val = g.val; omega

theorem emb5_apply (t : Fin cfg0.N) (bb : Fin 8) (g : Fin 2048) :
    ((cfg0.win 5).blk t).view.emb (ix2 bb g) = ix2 (⟨t.val * 8 + bb.val, by have := t_lt t; omega⟩ : Fin 128) g := by
  obtain ⟨-, -, -, -, -, -, -, -, -, -, -, -, e0, e1⟩ := idx_facts t
  refine funext fun a => Fin.ext ?_
  match a with
  | ⟨0, _⟩ => show win0_5.index t (0 : Fin 2) * 8 + 1 * bb.val = t.val * 8 + bb.val; omega
  | ⟨1, _⟩ => show win0_5.index t (1 : Fin 2) * 2048 + 1 * g.val = g.val; omega

/-- An index of the array is in point `t`'s block iff each coordinate is in the block's range on its axis. -/
theorem mem_blk4 (t : Fin cfg0.N) (i : S128x2048.Idx) :
    i ∈ ((cfg0.win 4).blk t).view.set ↔ ∀ a : Fin 2, win0_4.index t a * S8x2048.size a ≤ (i a).val ∧ (i a).val < win0_4.index t a * S8x2048.size a + S8x2048.size a := by
  show i ∈ ((View.whole main_v2_0).slice (win0_4.rect t)).set ↔ _
  rw [View.set_slice_whole, Rect.mem_set_unit]
  exact Iff.rfl

theorem mem_blk5 (t : Fin cfg0.N) (i : S128x2048.Idx) :
    i ∈ ((cfg0.win 5).blk t).view.set ↔ ∀ a : Fin 2, win0_5.index t a * S8x2048.size a ≤ (i a).val ∧ (i a).val < win0_5.index t a * S8x2048.size a + S8x2048.size a := by
  show i ∈ ((View.whole main_v2_1).slice (win0_5.rect t)).set ↔ _
  rw [View.set_slice_whole, Rect.mem_set_unit]
  exact Iff.rfl

/-- Every row of the array is in the block of the point `row / 8`. -/
theorem cover4 (i : S128x2048.Idx) : ∃ t : Fin cfg0.N, (cfg0.win 4).flush t = true ∧ i ∈ ((cfg0.win 4).blk t).view.set := by
  have hi0 : (i 0).val < 128 := (i 0).isLt
  have hi1 : (i 1).val < 2048 := (i 1).isLt
  have hN : cfg0.N = 16 := N_0
  refine ⟨⟨(i 0).val / 8, by omega⟩, flush0_4 _, ?_⟩
  rw [mem_blk4]
  obtain ⟨-, -, -, -, -, -, -, -, -, -, e0, e1, -⟩ := idx_facts ⟨(i 0).val / 8, by omega⟩
  intro a
  match a with
  | ⟨0, _⟩ => show win0_4.index _ (0 : Fin 2) * 8 ≤ (i 0).val ∧ (i 0).val < win0_4.index _ (0 : Fin 2) * 8 + 8; rw [e0]; show (i 0).val / 8 * 8 ≤ (i 0).val ∧ (i 0).val < (i 0).val / 8 * 8 + 8; omega
  | ⟨1, _⟩ => show win0_4.index _ (1 : Fin 2) * 2048 ≤ (i 1).val ∧ (i 1).val < win0_4.index _ (1 : Fin 2) * 2048 + 2048; rw [e1]; omega

theorem cover5 (i : S128x2048.Idx) : ∃ t : Fin cfg0.N, (cfg0.win 5).flush t = true ∧ i ∈ ((cfg0.win 5).blk t).view.set := by
  have hi0 : (i 0).val < 128 := (i 0).isLt
  have hi1 : (i 1).val < 2048 := (i 1).isLt
  have hN : cfg0.N = 16 := N_0
  refine ⟨⟨(i 0).val / 8, by omega⟩, flush0_5 _, ?_⟩
  rw [mem_blk5]
  obtain ⟨-, -, -, -, -, -, -, -, -, -, -, -, e0, e1⟩ := idx_facts ⟨(i 0).val / 8, by omega⟩
  intro a
  match a with
  | ⟨0, _⟩ => show win0_5.index _ (0 : Fin 2) * 8 ≤ (i 0).val ∧ (i 0).val < win0_5.index _ (0 : Fin 2) * 8 + 8; rw [e0]; show (i 0).val / 8 * 8 ≤ (i 0).val ∧ (i 0).val < (i 0).val / 8 * 8 + 8; omega
  | ⟨1, _⟩ => show win0_5.index _ (1 : Fin 2) * 2048 ≤ (i 1).val ∧ (i 1).val < win0_5.index _ (1 : Fin 2) * 2048 + 2048; rw [e1]; omega

end Cert.KernelIdeal.Region0

end
-- ==== Proof.LibRowsFlatten.lean ====
/-
  A rank-3 array `[a, b, c]` and the matrix `[a·b, c]` of its rows, one recast as the other, read at an index.
  Row `r = s·b + t` of the matrix is the slice `(s, t, ·)` of the array: both sit at the same row-major position.
  General in the extents; the matrix's row count `n` is named with its equation `n = a·b` so that a literal
  (`16384` for `2048·8`) can be used.
-/
import Idealize.ShloMosaic.Lib.Pipeline.Value
import Idealize.ShloMosaic.Lib.ValueIdx

namespace Cert.LibRowsFlatten

open Idealize.ShloMosaic Idealize.ShloMosaic.ValueIdx

variable {α : Type}

/-- `[a, b, c]` recast as `[n, c]` with `n = a·b`, read at `(r, l)` with `r = s·b + t`: the array at `(s, t, l)`. -/
theorem shapeCast_abc_nc_apply {a b c n : ℕ} (x : (⟨3, ![a, b, c]⟩ : Shape).Idx → α)
    (h : (⟨3, ![a, b, c]⟩ : Shape).ShapeCasts ⟨2, ![n, c]⟩) (s : Fin a) (t : Fin b) (l : Fin c) (r : Fin n)
    (hr : r.val = s.val * b + t.val) :
    shapeCast ⟨2, ![n, c]⟩ x h (ix2 r l) = x (ix3 s t l) :=
  shapeCast_apply x h _ _ (by
    rw [Shape.rowMajor_val_three, Shape.rowMajor_val_two]
    show (s.val * b + t.val) * c + l.val = r.val * c + l.val
    rw [hr])

/-- `[n, c]` with `n = a·b` recast as `[a, b, c]`, read at `(s, t, l)`: the matrix at `(r, l)` with `r = s·b + t`. -/
theorem shapeCast_nc_abc_apply {a b c n : ℕ} (x : (⟨2, ![n, c]⟩ : Shape).Idx → α)
    (h : (⟨2, ![n, c]⟩ : Shape).ShapeCasts ⟨3, ![a, b, c]⟩) (s : Fin a) (t : Fin b) (l : Fin c) (r : Fin n)
    (hr : r.val = s.val * b + t.val) :
    shapeCast ⟨3, ![a, b, c]⟩ x h (ix3 s t l) = x (ix2 r l) :=
  shapeCast_apply x h _ _ (by
    rw [Shape.rowMajor_val_three, Shape.rowMajor_val_two]
    show r.val * c + l.val = (s.val * b + t.val) * c + l.val
    rw [hr])

end Cert.LibRowsFlatten
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.CompareValue.lean ====
/-
  One column block of the comparison stage, read at an entry.

  The body holds the 8 examples' joined rows as one `2048 × 1024` matrix `C` (row `bb·256 + p` is row `p` of example
  `bb`) and takes the projection weights 256 columns at a time: for a `1024 × 256` column block `w` it forms `C · w`,
  squashes every entry, regroups the 2048 rows by example and sums each example's 256 rows.  Entry `(bb, f)` of the
  result is therefore `∑ p, tanh (∑ c, C (bb·256 + p, c) · w (c, f))`.
-/
import proofs.«177522_j36386962932383_2_alg».proof.Proof.Gen.KernelIdeal.Skeleton
import proofs.«177522_j36386962932383_2_alg».proof.Proof.LibRowsFlatten
import proofs.«177522_j36386962932383_2_alg».proof.Proof.LibPlainDot
import Idealize.ShloMosaic.Lib.Pipeline.Value
import Idealize.ShloMosaic.Lib.ValueIdx
import Idealize.ShloMosaic.PureOps.Ideal.Laws

noncomputable section

namespace Cert.KernelIdeal.CompareValue

open Cert.KernelIdeal Cert.KernelIdeal.Gen Idealize.ShloMosaic Idealize.ShloMosaic.ValueIdx

/-- One column block of the comparison: project, squash, sum each example's rows. -/
def chunk (C : FVec Ideal S2048x1024 .bf16) (w : Vec Ideal S1024x256 .bf16) : FVec Ideal S8x256 .f32 :=
  multiReduction .add [1] S8x256
    (shapeCast S8x256x256
      (tanh (matmul dot_S2048x1024_S1024x256_S2048x256_1_0_0_1_n_n none C
        (shapeCast S1024x256 w shapeCasts_S1024x256_S1024x256 : FVec Ideal S1024x256 .bf16) (constant S2048x256 .f32 0x00000000#32)))
      shapeCasts_S2048x256_S8x256x256)
    0x00000000#32 reduces_S8x256x256_S8x256_2 (.inl rfl) rfl

/-- The sum over the middle axis of a `8 × 256 × 256` array, at `(bb, f)`. -/
theorem midSum_apply (src : FVec Ideal S8x256x256 .f32) (hφ : FKind.Formats .f32)
    (hacc : (0x00000000#32 : BitVec 32) = FKind.add.neutral .f32 hφ) (bb : Fin 8) (f : Fin 256) :
    multiReduction .add [1] S8x256 src 0x00000000#32 reduces_S8x256x256_S8x256_2 hφ hacc (ix2 bb f)
      = ∑ p : Fin 256, src (ix3 bb p f) := by
  refine (Ideal.multiReduction_add_single src 0x00000000#32 reduces_S8x256x256_S8x256_2 hφ hacc (ix2 bb f)).trans ?_
  refine Finset.sum_congr rfl fun p _ => congrArg src ?_
  exact funext fun d => Fin.ext (by match d with | ⟨0, _⟩ => rfl | ⟨1, _⟩ => rfl | ⟨2, _⟩ => rfl)

/-- The product of the joined rows with a column block, into zero, at `(ρ, f)`. -/
theorem proj_apply (C : FVec Ideal S2048x1024 .bf16) (w : FVec Ideal S1024x256 .bf16) (ρ : Fin 2048) (f : Fin 256) :
    matmul dot_S2048x1024_S1024x256_S2048x256_1_0_0_1_n_n none C w (constant S2048x256 .f32 0x00000000#32) (ix2 ρ f)
      = ∑ c : Fin 1024, C (ix2 ρ c) * w (ix2 c f) :=
  Cert.PlainDot.matmul_zero_apply dot_S2048x1024_S1024x256_S2048x256_1_0_0_1_n_n rfl rfl
    (fun i q => by
      unfold DotDims.lhsIdx
      rw [dif_neg (show ¬(0 : Fin S2048x1024.rank) ∈ dot_S2048x1024_S1024x256_S2048x256_1_0_0_1_n_n.lhsBatch by decide),
        dif_pos (show (0 : Fin S2048x1024.rank) ∈ dot_S2048x1024_S1024x256_S2048x256_1_0_0_1_n_n.lhsNonContracting by decide)]
      rfl)
    (fun i q => dot_S2048x1024_S1024x256_S2048x256_1_0_0_1_n_n.lhsIdx_val_of_single rfl i q)
    (fun i q => dot_S2048x1024_S1024x256_S2048x256_1_0_0_1_n_n.rhsIdx_val_of_single rfl i q)
    (fun i q => by
      unfold DotDims.rhsIdx
      rw [dif_neg (show ¬(1 : Fin S1024x256.rank) ∈ dot_S2048x1024_S1024x256_S2048x256_1_0_0_1_n_n.rhsBatch by decide),
        dif_pos (show (1 : Fin S1024x256.rank) ∈ dot_S2048x1024_S1024x256_S2048x256_1_0_0_1_n_n.rhsNonContracting by decide)]
      rfl)
    none C w ρ f

/-- Entry `(bb, f)` of a column block's result. -/
theorem chunk_apply (C : FVec Ideal S2048x1024 .bf16) (w : Vec Ideal S1024x256 .bf16) (bb : Fin 8) (f : Fin 256) :
    chunk C w (ix2 bb f)
      = ∑ p : Fin 256, Ideal.tanh (∑ c : Fin 1024,
          C (ix2 (⟨bb.val * 256 + p.val, by omega⟩ : Fin 2048) c) * w (ix2 c f)) := by
  unfold chunk
  refine (midSum_apply _ _ _ bb f).trans ?_
  refine Finset.sum_congr rfl fun p _ => ?_
  rw [Cert.LibRowsFlatten.shapeCast_nc_abc_apply _ shapeCasts_S2048x256_S8x256x256 bb p f
    (⟨bb.val * 256 + p.val, by omega⟩ : Fin 2048) rfl]
  show Ideal.tanh (matmul dot_S2048x1024_S1024x256_S2048x256_1_0_0_1_n_n none C
    (shapeCast S1024x256 w shapeCasts_S1024x256_S1024x256 : FVec Ideal S1024x256 .bf16) (constant S2048x256 .f32 0x00000000#32)
    (ix2 (⟨bb.val * 256 + p.val, by omega⟩ : Fin 2048) f)) = _
  rw [proj_apply, shapeCast_self]

end Cert.KernelIdeal.CompareValue

end
-- ==== Proof.AggValue.lean ====
/-
  What the first region's body leaves in its two output blocks, entry by entry.

  Each output block is `8 × 2048` and is written 256 columns at a time: the column block starting at column `off` holds
  the comparison of the block's joined rows against columns `off … off + 255` of the projection weights.  All eight
  stores are therefore pieces of ONE function of the block's index — entry `(bb, g)` is
  `∑ p, tanh (∑ c, C (bb·256 + p, c) · x3 (c, g))` — and since the eight column blocks tile the output block, the block
  holds that function everywhere.
-/
import proofs.«177522_j36386962932383_2_alg».proof.Proof.Gen.KernelIdeal.Frame
import proofs.«177522_j36386962932383_2_alg».proof.Proof.CompareValue

set_option maxRecDepth 16384

noncomputable section

namespace Cert.KernelIdeal.AggValue

open Cert.KernelIdeal Cert.KernelIdeal.Gen Cert.KernelIdeal.CompareValue Idealize.ShloMosaic Idealize.ShloMosaic.ValueIdx

/-- The comparison of the joined rows `C` against column `g` of the weights, for example `bb` of the block. -/
def cmpAt (C : FVec Ideal S2048x1024 .bf16) (x3 : Vec Ideal S1024x2048 .bf16) (bb : Fin 8) (g : Fin 2048) : EReal :=
  ∑ p : Fin 256, Ideal.tanh (∑ c : Fin 1024, C (ix2 (⟨bb.val * 256 + p.val, by omega⟩ : Fin 2048) c) * x3 (ix2 c g))

/-- The same as a function of the output block's index. -/
def cmpAll (C : FVec Ideal S2048x1024 .bf16) (x3 : Vec Ideal S1024x2048 .bf16) : S8x2048.Idx → EReal :=
  fun y => cmpAt C x3 (y 0) (y 1)

/-- The column block stored at column `off` is the piece of `cmpAll` its rectangle names. -/
theorem piece_eq (C : FVec Ideal S2048x1024 .bf16) (x3 : Vec Ideal S1024x2048 .bf16) (off : ℕ) (hoff : off + 256 ≤ 2048)
    (inbS : ∀ a, (![0, off] : Fin 2 → ℕ) a + S8x256.size a ≤ S8x2048.size a)
    (inbL : ∀ a, (![0, off] : Fin 2 → ℕ) a + S1024x256.size a ≤ S1024x2048.size a)
    (x : (Rect.unit (s := S8x2048) ![0, off] S8x256.size inbS).shape.Idx) :
    chunk C (View.ld x3 (Rect.unit (s := S1024x2048) ![0, off] S1024x256.size inbL)) x
      = cmpAll C x3 ((Rect.unit (s := S8x2048) ![0, off] S8x256.size inbS).emb x) := by
  obtain ⟨bb, f, rfl⟩ : ∃ (bb : Fin 8) (f : Fin 256), x = ix2 bb f := ⟨x 0, x 1, eq_ix2 x⟩
  have hemb : (Rect.unit (s := S8x2048) ![0, off] S8x256.size inbS).emb (ix2 bb f)
      = ix2 bb (⟨off + f.val, by omega⟩ : Fin 2048) := funext fun a => Fin.ext (by
    match a with
    | ⟨0, _⟩ => show 0 + 1 * bb.val = bb.val; omega
    | ⟨1, _⟩ => show off + 1 * f.val = off + f.val; omega)
  rw [hemb]
  show chunk C _ (ix2 bb f) = cmpAt C x3 bb ⟨off + f.val, by omega⟩
  refine (chunk_apply C _ bb f).trans ?_
  unfold cmpAt
  refine Finset.sum_congr rfl fun p _ => congrArg Ideal.tanh (Finset.sum_congr rfl fun c _ => ?_)
  refine congrArg (C (ix2 (⟨bb.val * 256 + p.val, by omega⟩ : Fin 2048) c) * ·) ?_
  show x3 ((Rect.unit (s := S1024x2048) ![0, off] S1024x256.size inbL).emb (ix2 c f)) = _
  refine congrArg x3 (funext fun a => Fin.ext (by
    match a with
    | ⟨0, _⟩ => show 0 + 1 * c.val = c.val; omega
    | ⟨1, _⟩ => show off + 1 * f.val = off + f.val; omega))

theorem hz3 : (![0, 0, 0] : Fin 3 → Nat) = fun _ => 0 := funext fun a => by fin_cases a <;> rfl
theorem hz2 : (![0, 0] : Fin 2 → Nat) = fun _ => 0 := funext fun a => by fin_cases a <;> rfl

/-- The premise side's output block at `(bb, g)`. -/
theorem out4_apply (x0 x1 : Vec Ideal S8x256x512 .f32) (x2 : Vec Ideal S512x256 .bf16) (x3 : Vec Ideal S1024x2048 .bf16)
    (bb : Fin 8) (g : Fin 2048) :
    Gen.out0_4 (F := Ideal) x0 x1 x2 x3 (ix2 bb g) = cmpAt (Gen.k0_pay8 (F := Ideal) x0 x1 x2) x3 bb g := by
  unfold Gen.out0_4
  simp only [View.ld_unit_zero (S := S8x256x512) hz3, View.ld_unit_zero (S := S512x256) hz2]
  refine (View.canon_apply_of_pieces (cmpAll (Gen.k0_pay8 (F := Ideal) x0 x1 x2) x3) _ ?_ (ix2 bb g)
    (cover0_4 _ _ _ _ _ _ _ _ _)).trans rfl
  intro pc hpc x
  simp only [List.mem_cons, List.mem_singleton, List.not_mem_nil, or_false] at hpc
  rcases hpc with rfl | rfl | rfl | rfl | rfl | rfl | rfl | rfl
  · exact piece_eq _ x3 1792 (by omega) inb_S8x2048_S8x256_0_1792 inb_S1024x2048_S1024x256_0_1792 x
  · exact piece_eq _ x3 1536 (by omega) inb_S8x2048_S8x256_0_1536 inb_S1024x2048_S1024x256_0_1536 x
  · exact piece_eq _ x3 1280 (by omega) inb_S8x2048_S8x256_0_1280 inb_S1024x2048_S1024x256_0_1280 x
  · exact piece_eq _ x3 1024 (by omega) inb_S8x2048_S8x256_0_1024 inb_S1024x2048_S1024x256_0_1024 x
  · exact piece_eq _ x3 768 (by omega) inb_S8x2048_S8x256_0_768 inb_S1024x2048_S1024x256_0_768 x
  · exact piece_eq _ x3 512 (by omega) inb_S8x2048_S8x256_0_512 inb_S1024x2048_S1024x256_0_512 x
  · exact piece_eq _ x3 256 (by omega) inb_S8x2048_S8x256_0_256 inb_S1024x2048_S1024x256_0_256 x
  · exact piece_eq _ x3 0 (by omega) inb_S8x2048_S8x256_0_0 inb_S1024x2048_S1024x256_0_0 x

/-- The hypothesis side's output block at `(bb, g)`. -/
theorem out5_apply (x0 x1 : Vec Ideal S8x256x512 .f32) (x2 : Vec Ideal S512x256 .bf16) (x3 : Vec Ideal S1024x2048 .bf16)
    (bb : Fin 8) (g : Fin 2048) :
    Gen.out0_5 (F := Ideal) x0 x1 x2 x3 (ix2 bb g)
      = cmpAt (Gen.k0_pay18 (F := Ideal) (Gen.k0_pay5 x1) (Gen.k0_pay7 x0 x1 x2)) x3 bb g := by
  unfold Gen.out0_5
  simp only [View.ld_unit_zero (S := S8x256x512) hz3, View.ld_unit_zero (S := S512x256) hz2]
  refine (View.canon_apply_of_pieces
    (cmpAll (Gen.k0_pay18 (F := Ideal) (Gen.k0_pay5 x1) (Gen.k0_pay7 x0 x1 x2)) x3) _ ?_ (ix2 bb g)
    (cover0_5 _ _ _ _ _ _ _ _ _)).trans rfl
  intro pc hpc x
  simp only [List.mem_cons, List.mem_singleton, List.not_mem_nil, or_false] at hpc
  rcases hpc with rfl | rfl | rfl | rfl | rfl | rfl | rfl | rfl
  · exact piece_eq _ x3 1792 (by omega) inb_S8x2048_S8x256_0_1792 inb_S1024x2048_S1024x256_0_1792 x
  · exact piece_eq _ x3 1536 (by omega) inb_S8x2048_S8x256_0_1536 inb_S1024x2048_S1024x256_0_1536 x
  · exact piece_eq _ x3 1280 (by omega) inb_S8x2048_S8x256_0_1280 inb_S1024x2048_S1024x256_0_1280 x
  · exact piece_eq _ x3 1024 (by omega) inb_S8x2048_S8x256_0_1024 inb_S1024x2048_S1024x256_0_1024 x
  · exact piece_eq _ x3 768 (by omega) inb_S8x2048_S8x256_0_768 inb_S1024x2048_S1024x256_0_768 x
  · exact piece_eq _ x3 512 (by omega) inb_S8x2048_S8x256_0_512 inb_S1024x2048_S1024x256_0_512 x
  · exact piece_eq _ x3 256 (by omega) inb_S8x2048_S8x256_0_256 inb_S1024x2048_S1024x256_0_256 x
  · exact piece_eq _ x3 0 (by omega) inb_S8x2048_S8x256_0_0 inb_S1024x2048_S1024x256_0_0 x

end Cert.KernelIdeal.AggValue

end
-- ==== Proof.AlignValue.lean ====
/-
  The alignment weights of one example, read off the first region's arithmetic.

  The region works on a block of eight examples.  Both blocks of rows are recast to matrices of 2048 rows, projected by
  the same 512 × 256 matrix (a product into a zero accumulator: a plain finite sum), squashed, and recast to blocks;
  the scores are the batched product contracting the projections' last axes; each row's largest score (a fold of
  `max` from `-∞`, taken once more against `-∞`, which changes nothing) is subtracted, the differences are
  exponentiated and divided by their row sum.  Roundings between formats are the identity on the extended reals, so
  entry (b, p, h) of the result is the softmax weight of premise row `p` against hypothesis row `h` of example `b`.

  Every step is stated for an arbitrary operand array and read at an explicit index (b, p, h); the payload itself is
  opened once, to name its operations.
-/
import proofs.«177522_j36386962932383_2_alg».proof.Proof.Gen.KernelIdeal.Skeleton
import proofs.«177522_j36386962932383_2_alg».proof.Proof.Rows
import proofs.«177522_j36386962932383_2_alg».proof.Proof.LibPlainDot
import proofs.«177522_j36386962932383_2_alg».proof.Proof.LibHostLastMax
import proofs.«177522_j36386962932383_2_alg».proof.Proof.LibRowsFlatten
import Idealize.ShloMosaic.Lib.Pipeline.Value

noncomputable section

open scoped BigOperators

namespace Cert.KernelIdeal.AlignValue

open Cert.KernelIdeal Cert.KernelIdeal.Gen Cert.Attn Idealize.ShloMosaic Idealize.ShloMosaic.ValueIdx

/-! ## The projection: a 2048 × 512 by 512 × 256 product into zero -/

theorem pd_l0 (i : S2048x256.Idx) (q : dot_S2048x512_S512x256_S2048x256_1_0_0_1_n_n.contr.Idx) : (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide),
    dif_pos (show (0 : Fin S2048x512.rank) ∈ dot_S2048x512_S512x256_S2048x256_1_0_0_1_n_n.lhsNonContracting by decide)]
  rfl

theorem pd_l1 (i : S2048x256.Idx) (q : dot_S2048x512_S512x256_S2048x256_1_0_0_1_n_n.contr.Idx) : (dot_S2048x512_S512x256_S2048x256_1_0_0_1_n_n.lhsIdx i q 1).val = (q ⟨0, by decide⟩).val :=
  dot_S2048x512_S512x256_S2048x256_1_0_0_1_n_n.lhsIdx_val_of_single rfl i q

theorem pd_r0 (i : S2048x256.Idx) (q : dot_S2048x512_S512x256_S2048x256_1_0_0_1_n_n.contr.Idx) : (dot_S2048x512_S512x256_S2048x256_1_0_0_1_n_n.rhsIdx i q 0).val = (q ⟨0, by decide⟩).val :=
  dot_S2048x512_S512x256_S2048x256_1_0_0_1_n_n.rhsIdx_val_of_single rfl i q

theorem pd_r1 (i : S2048x256.Idx) (q : dot_S2048x512_S512x256_S2048x256_1_0_0_1_n_n.contr.Idx) : (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide),
    dif_pos (show (1 : Fin S512x256.rank) ∈ dot_S2048x512_S512x256_S2048x256_1_0_0_1_n_n.rhsNonContracting by decide)]
  rfl

/-- The projecting product at entry (ρ, a). -/
theorem projDot_apply (l : FVec Ideal S2048x512 .bf16) (r : FVec Ideal S512x256 .bf16) (ρ : Fin 2048) (a : Fin 256) :
    matmul dot_S2048x512_S512x256_S2048x256_1_0_0_1_n_n none l r (constant S2048x256 .f32 0x00000000#32) (ix2 ρ a)
      = ∑ e : Fin 512, l (ix2 ρ e) * r (ix2 e a) :=
  Cert.PlainDot.matmul_zero_apply dot_S2048x512_S512x256_S2048x256_1_0_0_1_n_n rfl rfl pd_l0 pd_l1 pd_r0 pd_r1 none l r ρ a

/-! ## The two batched products into zero -/

theorem sd_l0 (i : S8x256x256.Idx) (q : dot_S8x256x256_S8x256x256_S8x256x256_2_2_1_1_0_0.contr.Idx) : (dot_S8x256x256_S8x256x256_S8x256x256_2_2_1_1_0_0.lhsIdx i q 0).val = (i 0).val := by
  unfold DotDims.lhsIdx
  rw [dif_pos (show (0 : Fin S8x256x256.rank) ∈ dot_S8x256x256_S8x256x256_S8x256x256_2_2_1_1_0_0.lhsBatch by decide)]
  rfl

theorem sd_l1 (i : S8x256x256.Idx) (q : dot_S8x256x256_S8x256x256_S8x256x256_2_2_1_1_0_0.contr.Idx) : (dot_S8x256x256_S8x256x256_S8x256x256_2_2_1_1_0_0.lhsIdx i q 1).val = (i 1).val := by
  unfold DotDims.lhsIdx
  rw [dif_neg (show ¬(1 : Fin S8x256x256.rank) ∈ dot_S8x256x256_S8x256x256_S8x256x256_2_2_1_1_0_0.lhsBatch by decide),
    dif_pos (show (1 : Fin S8x256x256.rank) ∈ dot_S8x256x256_S8x256x256_S8x256x256_2_2_1_1_0_0.lhsNonContracting by decide)]
  rfl

theorem sd_l2 (i : S8x256x256.Idx) (q : dot_S8x256x256_S8x256x256_S8x256x256_2_2_1_1_0_0.contr.Idx) : (dot_S8x256x256_S8x256x256_S8x256x256_2_2_1_1_0_0.lhsIdx i q 2).val = (q ⟨0, by decide⟩).val :=
  dot_S8x256x256_S8x256x256_S8x256x256_2_2_1_1_0_0.lhsIdx_val_of_single rfl i q

theorem sd_r0 (i : S8x256x256.Idx) (q : dot_S8x256x256_S8x256x256_S8x256x256_2_2_1_1_0_0.contr.Idx) : (dot_S8x256x256_S8x256x256_S8x256x256_2_2_1_1_0_0.rhsIdx i q 0).val = (i 0).val := by
  unfold DotDims.rhsIdx
  rw [dif_pos (show (0 : Fin S8x256x256.rank) ∈ dot_S8x256x256_S8x256x256_S8x256x256_2_2_1_1_0_0.rhsBatch by decide)]
  rfl

theorem sd_r1 (i : S8x256x256.Idx) (q : dot_S8x256x256_S8x256x256_S8x256x256_2_2_1_1_0_0.contr.Idx) : (dot_S8x256x256_S8x256x256_S8x256x256_2_2_1_1_0_0.rhsIdx i q 1).val = (i 2).val := by
  unfold DotDims.rhsIdx
  rw [dif_neg (show ¬(1 : Fin S8x256x256.rank) ∈ dot_S8x256x256_S8x256x256_S8x256x256_2_2_1_1_0_0.rhsBatch by decide),
    dif_pos (show (1 : Fin S8x256x256.rank) ∈ dot_S8x256x256_S8x256x256_S8x256x256_2_2_1_1_0_0.rhsNonContracting by decide)]
  rfl

theorem sd_r2 (i : S8x256x256.Idx) (q : dot_S8x256x256_S8x256x256_S8x256x256_2_2_1_1_0_0.contr.Idx) : (dot_S8x256x256_S8x256x256_S8x256x256_2_2_1_1_0_0.rhsIdx i q 2).val = (q ⟨0, by decide⟩).val :=
  dot_S8x256x256_S8x256x256_S8x256x256_2_2_1_1_0_0.rhsIdx_val_of_single rfl i q

/-- The batched product contracting the last axes of both operands, at (b, p, h): `∑ a, l (b, p, a) · r (b, h, a)`. -/
theorem scoresDot_apply (l r : FVec Ideal S8x256x256 .bf16) (bb : Fin 8) (p h : Fin 256) :
    matmul dot_S8x256x256_S8x256x256_S8x256x256_2_2_1_1_0_0 none l r (constant S8x256x256 .f32 0x00000000#32) (ix3 bb p h)
      = ∑ a : Fin 256, l (ix3 bb p a) * r (ix3 bb h a) := by
  refine (Ideal.matmul_constant_zero_apply dot_S8x256x256_S8x256x256_S8x256x256_2_2_1_1_0_0 none l r (ix3 bb p h)).trans ?_
  rw [← Equiv.sum_comp (contrEquiv1 dot_S8x256x256_S8x256x256_S8x256x256_2_2_1_1_0_0 256 rfl rfl).symm]
  refine Finset.sum_congr rfl fun k _ => ?_
  have hk := contrEquiv1_symm_val dot_S8x256x256_S8x256x256_S8x256x256_2_2_1_1_0_0 256 rfl rfl k
  have el : dot_S8x256x256_S8x256x256_S8x256x256_2_2_1_1_0_0.lhsIdx (ix3 bb p h) ((contrEquiv1 dot_S8x256x256_S8x256x256_S8x256x256_2_2_1_1_0_0 256 rfl rfl).symm k) = ix3 bb p k :=
    funext fun a => Fin.ext (by
      match a with
      | ⟨0, _⟩ => exact sd_l0 _ _
      | ⟨1, _⟩ => exact sd_l1 _ _
      | ⟨2, _⟩ => exact (sd_l2 _ _).trans hk)
  have er : dot_S8x256x256_S8x256x256_S8x256x256_2_2_1_1_0_0.rhsIdx (ix3 bb p h) ((contrEquiv1 dot_S8x256x256_S8x256x256_S8x256x256_2_2_1_1_0_0 256 rfl rfl).symm k) = ix3 bb h k :=
    funext fun a => Fin.ext (by
      match a with
      | ⟨0, _⟩ => exact sd_r0 _ _
      | ⟨1, _⟩ => exact sd_r1 _ _
      | ⟨2, _⟩ => exact (sd_r2 _ _).trans hk)
  rw [el, er]

theorem wd_l0 (i : S8x256x512.Idx) (q : dot_S8x256x256_S8x256x512_S8x256x512_2_1_1_2_0_0.contr.Idx) : (dot_S8x256x256_S8x256x512_S8x256x512_2_1_1_2_0_0.lhsIdx i q 0).val = (i 0).val := by
  unfold DotDims.lhsIdx
  rw [dif_pos (show (0 : Fin S8x256x256.rank) ∈ dot_S8x256x256_S8x256x512_S8x256x512_2_1_1_2_0_0.lhsBatch by decide)]
  rfl

theorem wd_l1 (i : S8x256x512.Idx) (q : dot_S8x256x256_S8x256x512_S8x256x512_2_1_1_2_0_0.contr.Idx) : (dot_S8x256x256_S8x256x512_S8x256x512_2_1_1_2_0_0.lhsIdx i q 1).val = (i 1).val := by
  unfold DotDims.lhsIdx
  rw [dif_neg (show ¬(1 : Fin S8x256x256.rank) ∈ dot_S8x256x256_S8x256x512_S8x256x512_2_1_1_2_0_0.lhsBatch by decide),
    dif_pos (show (1 : Fin S8x256x256.rank) ∈ dot_S8x256x256_S8x256x512_S8x256x512_2_1_1_2_0_0.lhsNonContracting by decide)]
  rfl

theorem wd_l2 (i : S8x256x512.Idx) (q : dot_S8x256x256_S8x256x512_S8x256x512_2_1_1_2_0_0.contr.Idx) : (dot_S8x256x256_S8x256x512_S8x256x512_2_1_1_2_0_0.lhsIdx i q 2).val = (q ⟨0, by decide⟩).val :=
  dot_S8x256x256_S8x256x512_S8x256x512_2_1_1_2_0_0.lhsIdx_val_of_single rfl i q

theorem wd_r0 (i : S8x256x512.Idx) (q : dot_S8x256x256_S8x256x512_S8x256x512_2_1_1_2_0_0.contr.Idx) : (dot_S8x256x256_S8x256x512_S8x256x512_2_1_1_2_0_0.rhsIdx i q 0).val = (i 0).val := by
  unfold DotDims.rhsIdx
  rw [dif_pos (show (0 : Fin S8x256x512.rank) ∈ dot_S8x256x256_S8x256x512_S8x256x512_2_1_1_2_0_0.rhsBatch by decide)]
  rfl

theorem wd_r1 (i : S8x256x512.Idx) (q : dot_S8x256x256_S8x256x512_S8x256x512_2_1_1_2_0_0.contr.Idx) : (dot_S8x256x256_S8x256x512_S8x256x512_2_1_1_2_0_0.rhsIdx i q 1).val = (q ⟨0, by decide⟩).val :=
  dot_S8x256x256_S8x256x512_S8x256x512_2_1_1_2_0_0.rhsIdx_val_of_single rfl i q

theorem wd_r2 (i : S8x256x512.Idx) (q : dot_S8x256x256_S8x256x512_S8x256x512_2_1_1_2_0_0.contr.Idx) : (dot_S8x256x256_S8x256x512_S8x256x512_2_1_1_2_0_0.rhsIdx i q 2).val = (i 2).val := by
  unfold DotDims.rhsIdx
  rw [dif_neg (show ¬(2 : Fin S8x256x512.rank) ∈ dot_S8x256x256_S8x256x512_S8x256x512_2_1_1_2_0_0.rhsBatch by decide),
    dif_pos (show (2 : Fin S8x256x512.rank) ∈ dot_S8x256x256_S8x256x512_S8x256x512_2_1_1_2_0_0.rhsNonContracting by decide)]
  rfl

/-- The batched product contracting the first operand's last axis with the second's middle axis, at (b, p, e):
    `∑ h, l (b, p, h) · r (b, h, e)`. -/
theorem weightedDot_apply (l : FVec Ideal S8x256x256 .bf16) (r : FVec Ideal S8x256x512 .bf16) (bb : Fin 8) (p : Fin 256) (e : Fin 512) :
    matmul dot_S8x256x256_S8x256x512_S8x256x512_2_1_1_2_0_0 none l r (constant S8x256x512 .f32 0x00000000#32) (ix3 bb p e)
      = ∑ h : Fin 256, l (ix3 bb p h) * r (ix3 bb h e) := by
  refine (Ideal.matmul_constant_zero_apply dot_S8x256x256_S8x256x512_S8x256x512_2_1_1_2_0_0 none l r (ix3 bb p e)).trans ?_
  rw [← Equiv.sum_comp (contrEquiv1 dot_S8x256x256_S8x256x512_S8x256x512_2_1_1_2_0_0 256 rfl rfl).symm]
  refine Finset.sum_congr rfl fun k _ => ?_
  have hk := contrEquiv1_symm_val dot_S8x256x256_S8x256x512_S8x256x512_2_1_1_2_0_0 256 rfl rfl k
  have el : dot_S8x256x256_S8x256x512_S8x256x512_2_1_1_2_0_0.lhsIdx (ix3 bb p e) ((contrEquiv1 dot_S8x256x256_S8x256x512_S8x256x512_2_1_1_2_0_0 256 rfl rfl).symm k) = ix3 bb p k :=
    funext fun a => Fin.ext (by
      match a with
      | ⟨0, _⟩ => exact wd_l0 _ _
      | ⟨1, _⟩ => exact wd_l1 _ _
      | ⟨2, _⟩ => exact (wd_l2 _ _).trans hk)
  have er : dot_S8x256x256_S8x256x512_S8x256x512_2_1_1_2_0_0.rhsIdx (ix3 bb p e) ((contrEquiv1 dot_S8x256x256_S8x256x512_S8x256x512_2_1_1_2_0_0 256 rfl rfl).symm k) = ix3 bb k e :=
    funext fun a => Fin.ext (by
      match a with
      | ⟨0, _⟩ => exact wd_r0 _ _
      | ⟨1, _⟩ => exact (wd_r1 _ _).trans hk
      | ⟨2, _⟩ => exact wd_r2 _ _)
  rw [el, er]

/-! ## The projected rows and the scores of one example -/

/-- A block's rows, recast to a matrix, projected, squashed and recast to a block: at (b, p, a) the projection of
    example `b`'s row `p`. -/
theorem projected_apply (x : Vec Ideal S8x256x512 .f32) (w : Vec Ideal S512x256 .bf16) (bb : Fin 8) (p a : Fin 256) :
    shapeCast S8x256x256
        (tanh (F := Ideal) (matmul (F := Ideal) dot_S2048x512_S512x256_S2048x256_1_0_0_1_n_n none
          (shapeCast S2048x512 (truncf (F := Ideal) .bf16 x bitsLt_bf16_f32) shapeCasts_S8x256x512_S2048x512)
          (shapeCast S512x256 w shapeCasts_S512x256_S512x256 : FVec Ideal S512x256 .bf16) (constant (F := Ideal) S2048x256 .f32 0x00000000#32)))
        shapeCasts_S2048x256_S8x256x256 (ix3 bb p a)
      = proj (rowsOf x bb) (mat w) p a := by
  have hρ : bb.val * 256 + p.val < 2048 := by have := bb.isLt; have := p.isLt; omega
  refine (Cert.LibRowsFlatten.shapeCast_nc_abc_apply _ shapeCasts_S2048x256_S8x256x256 bb p a
    ⟨bb.val * 256 + p.val, hρ⟩ rfl).trans ?_
  show Ideal.tanh _ = Ideal.tanh _
  refine congrArg Ideal.tanh ?_
  refine (projDot_apply _ _ _ a).trans ?_
  refine Finset.sum_congr rfl fun e _ => ?_
  rw [shapeCast_self]
  exact congrArg (· * w (ix2 e a))
    (Cert.LibRowsFlatten.shapeCast_abc_nc_apply _ shapeCasts_S8x256x512_S2048x512 bb p e _ rfl)

/-- The projected rows of a block, as the program spells them. -/
abbrev kProj (x : Vec Ideal S8x256x512 .f32) (w : Vec Ideal S512x256 .bf16) : FVec Ideal S8x256x256 .f32 :=
  shapeCast S8x256x256
    (tanh (F := Ideal) (matmul (F := Ideal) dot_S2048x512_S512x256_S2048x256_1_0_0_1_n_n none
      (shapeCast S2048x512 (truncf (F := Ideal) .bf16 x bitsLt_bf16_f32) shapeCasts_S8x256x512_S2048x512)
      (shapeCast S512x256 w shapeCasts_S512x256_S512x256 : FVec Ideal S512x256 .bf16) (constant (F := Ideal) S2048x256 .f32 0x00000000#32)))
    shapeCasts_S2048x256_S8x256x256

/-- The scores of a block, as the program spells them. -/
abbrev kScores (x0 x1 : Vec Ideal S8x256x512 .f32) (w : Vec Ideal S512x256 .bf16) : FVec Ideal S8x256x256 .f32 :=
  matmul (F := Ideal) dot_S8x256x256_S8x256x256_S8x256x256_2_2_1_1_0_0 none (truncf (F := Ideal) .bf16 (kProj x0 w) bitsLt_bf16_f32)
    (truncf (F := Ideal) .bf16 (kProj x1 w) bitsLt_bf16_f32) (constant (F := Ideal) S8x256x256 .f32 0x00000000#32)

theorem kProj_apply (x : Vec Ideal S8x256x512 .f32) (w : Vec Ideal S512x256 .bf16) (bb : Fin 8) (p a : Fin 256) :
    kProj x w (ix3 bb p a) = proj (rowsOf x bb) (mat w) p a := projected_apply x w bb p a

/-- The scores at (b, p, h): the inner product of the projections of premise row `p` and hypothesis row `h`. -/
theorem kScores_apply (x0 x1 : Vec Ideal S8x256x512 .f32) (w : Vec Ideal S512x256 .bf16) (bb : Fin 8) (p h : Fin 256) :
    kScores x0 x1 w (ix3 bb p h) = scores (proj (rowsOf x0 bb) (mat w)) (proj (rowsOf x1 bb) (mat w)) p h := by
  refine (scoresDot_apply _ _ bb p h).trans ?_
  refine Finset.sum_congr rfl fun a _ => ?_
  exact congrArg₂ (· * ·) (kProj_apply x0 w bb p a) (kProj_apply x1 w bb h a)

/-! ## The softmax of the scores, for any score block `s` -/

/-- The largest entry along the last axis, at (b, p): the fold of `max` from `-∞` over row (b, p, ·). -/
theorem lastMax_apply (s : FVec Ideal S8x256x256 .f32) (hφ : FKind.Formats .f32)
    (hacc : (0xFF800000#32 : BitVec (FTy.bits .f32)) = FKind.maximumf.neutral .f32 hφ) (bb : Fin 8) (p : Fin 256) :
    multiReduction (F := Ideal) .maximumf [2] S8x256 s 0xFF800000#32 reduces_S8x256x256_S8x256 hφ hacc (ix2 bb p)
      = (Finset.univ : Finset (Fin 256)).fold max (FloatOps.ofBits (F := Ideal) .f32 0xFF800000#32) (fun h => s (ix3 bb p h)) := by
  refine (Ideal.multiReduction_maximumf_single s 0xFF800000#32 reduces_S8x256x256_S8x256 hφ hacc (ix2 bb p)).trans ?_
  have hf : (s ∘ reduces_S8x256x256_S8x256.lift (ix2 bb p)) = fun h : Fin 256 => s (ix3 bb p h) :=
    funext fun k => congrArg s
      (funext fun d => Fin.ext (by match d with | ⟨0, _⟩ => rfl | ⟨1, _⟩ => rfl | ⟨2, _⟩ => rfl))
  exact congrArg (fun f => Finset.fold max (FloatOps.ofBits (F := Ideal) .f32 0xFF800000#32) f (Finset.univ : Finset (Fin 256))) hf

/-- The sum along the last axis, at (b, p): the plain sum of row (b, p, ·). -/
theorem lastSum_apply (s : FVec Ideal S8x256x256 .f32) (hφ : FKind.Formats .f32)
    (hacc : (0x00000000#32 : BitVec (FTy.bits .f32)) = FKind.add.neutral .f32 hφ) (bb : Fin 8) (p : Fin 256) :
    multiReduction (F := Ideal) .add [2] S8x256 s 0x00000000#32 reduces_S8x256x256_S8x256 hφ hacc (ix2 bb p)
      = ∑ k : Fin 256, s (ix3 bb p k) := by
  refine (Ideal.multiReduction_add_single s 0x00000000#32 reduces_S8x256x256_S8x256 hφ hacc (ix2 bb p)).trans ?_
  exact Finset.sum_congr rfl fun k _ => congrArg s
    (funext fun d => Fin.ext (by match d with | ⟨0, _⟩ => rfl | ⟨1, _⟩ => rfl | ⟨2, _⟩ => rfl))

/-- A per-row value given a unit last axis and spread along it, at (b, p, h): the value of row (b, p). -/
theorem spread_apply (v : FVec Ideal S8x256 .f32) (bb : Fin 8) (p h : Fin 256) :
    broadcastTo S8x256x256 (shapeCast S8x256x1 v shapeCasts_S8x256_S8x256x1) broadcasts_S8x256x1_S8x256x256 (ix3 bb p h)
      = v (ix2 bb p) := by
  refine (broadcastTo_apply _ broadcasts_S8x256x1_S8x256x256 (ix3 bb p h) (ix3 bb p (0 : Fin 1)) (fun a => by
    match a with
    | ⟨0, _⟩ => rfl
    | ⟨1, _⟩ => rfl
    | ⟨2, _⟩ => rfl)).trans ?_
  exact shapeCast_apply v shapeCasts_S8x256_S8x256x1 _ _ (by
    rw [Shape.rowMajor_val_three, Shape.rowMajor_val_two]
    show bb.val * 256 + p.val = (bb.val * 256 + p.val) * 1 + 0
    omega)

/-- The row maximum of the scores, as the program spells it. -/
abbrev kMax (s : FVec Ideal S8x256x256 .f32) : FVec Ideal S8x256 .f32 :=
  maximumf (F := Ideal) (broadcast S8x256 (Scalar.ofBits (F := Ideal) .f32 0xFF800000#32))
    (multiReduction (F := Ideal) .maximumf [2] S8x256 s 0xFF800000#32 reduces_S8x256x256_S8x256 (.inl rfl) rfl)

/-- The exponentials of the scores less their row maximum, as the program spells them. -/
abbrev kExp (s : FVec Ideal S8x256x256 .f32) : FVec Ideal S8x256x256 .f32 :=
  exp (F := Ideal) (subf (F := Ideal) s
    (broadcastTo S8x256x256 (shapeCast S8x256x1 (kMax s) shapeCasts_S8x256_S8x256x1) broadcasts_S8x256x1_S8x256x256))

/-- The softmax weights, as the program spells them. -/
abbrev kSoft (s : FVec Ideal S8x256x256 .f32) : FVec Ideal S8x256x256 .bf16 :=
  truncf (F := Ideal) .bf16 (divf (F := Ideal) (kExp s)
    (broadcastTo S8x256x256
      (shapeCast S8x256x1
        (multiReduction (F := Ideal) .add [2] S8x256 (kExp s) 0x00000000#32 reduces_S8x256x256_S8x256 (.inl rfl) rfl)
        shapeCasts_S8x256_S8x256x1)
      broadcasts_S8x256x1_S8x256x256)) bitsLt_bf16_f32

/-- `-∞` as the program's word denotes it. -/
theorem negInf_eq : negInf = FloatOps.ofBits (F := Ideal) .f32 0xFF800000#32 := (Ideal.ofBits_def _).symm

/-- The maximum with a constant row, entry by entry. -/
theorem maxInit_apply (c : Ideal .f32) (v : FVec Ideal S8x256 .f32) (j : S8x256.Idx) :
    maximumf (F := Ideal) (broadcast S8x256 c) v j = max c (v j) := rfl

variable (s : FVec Ideal S8x256x256 .f32) (e : Mat 256 256) (bb : Fin 8) (hs : ∀ p h, s (ix3 bb p h) = e p h)
include hs

theorem kMax_apply (p : Fin 256) : kMax s (ix2 bb p) = rowMax e p := by
  unfold rowMax
  rw [negInf_eq]
  refine (maxInit_apply _ _ _).trans ?_
  refine (congrArg (max _) (lastMax_apply s (.inl rfl) rfl bb p)).trans ?_
  refine (Cert.LibHostLastMax.max_init_fold _ _ _).trans ?_
  exact congrArg (fun f => Finset.fold max _ f (Finset.univ : Finset (Fin 256))) (funext fun h => hs p h)

theorem kExp_apply (p h : Fin 256) : kExp s (ix3 bb p h) = expo e p h :=
  congrArg Ideal.exp (congrArg₂ (· - ·) (hs p h) ((spread_apply (kMax s) bb p h).trans (kMax_apply s e bb hs p)))

theorem kSoft_apply (p h : Fin 256) : kSoft s (ix3 bb p h) = soft e p h :=
  congrArg₂ Ideal.div (kExp_apply s e bb hs p h)
    ((spread_apply _ bb p h).trans ((lastSum_apply (kExp s) (.inl rfl) rfl bb p).trans
      (Finset.sum_congr rfl fun k _ => kExp_apply s e bb hs p k)))

omit hs

set_option maxHeartbeats 50000 in
/-- The first payload is the softmax of the scores, operation for operation. -/
theorem k0_pay6_eq (x0 x1 : Vec Ideal S8x256x512 .f32) (x2 : Vec Ideal S512x256 .bf16) :
    Gen.k0_pay6 (F := Ideal) x0 x1 x2 = kSoft (kScores x0 x1 x2) := rfl

/-- The alignment weights of example `b` of the block. -/
theorem weights_apply (x0 x1 : Vec Ideal S8x256x512 .f32) (x2 : Vec Ideal S512x256 .bf16) (bb : Fin 8) (p h : Fin 256) :
    Gen.k0_pay6 (F := Ideal) x0 x1 x2 (ix3 bb p h) = weights (rowsOf x0 bb) (rowsOf x1 bb) (mat x2) p h :=
  (congrFun (k0_pay6_eq x0 x1 x2) (ix3 bb p h)).trans
    (kSoft_apply (kScores x0 x1 x2) _ bb (kScores_apply x0 x1 x2 bb) p h)

end Cert.KernelIdeal.AlignValue

end
-- ==== Proof.AlignJoin.lean ====
/-
  The align-and-compare kernel's joined rows, read entry by entry.

  For a block of 8 examples the kernel multiplies the block's weights (a batch of 256 × 256 matrices) with the
  hypothesis rows, and the transposed weights with the premise rows; each product, read at `(bb, p, e)`, is a plain sum
  over the contracted index, so the two products are the specification's `beta` and `alpha` of example `bb`.  Each
  block of rows is then joined with its aligned rows along the last axis and the 8 × 256 rows are laid out as 2048
  rows: row `bb · 256 + p` of the flattened matrix is row `p` of example `bb`, that is the specification's `join`.
-/
import proofs.«177522_j36386962932383_2_alg».proof.Proof.Gen.KernelIdeal.Skeleton
import proofs.«177522_j36386962932383_2_alg».proof.Proof.Rows
import proofs.«177522_j36386962932383_2_alg».proof.Proof.LibPointOps
import proofs.«177522_j36386962932383_2_alg».proof.Proof.LibRowsFlatten

noncomputable section

namespace Cert.KernelIdeal.AlignJoin

open Cert.KernelIdeal Cert.KernelIdeal.Gen Cert.Attn Idealize.ShloMosaic Idealize.ShloMosaic.ValueIdx

/-! The coordinates of the two operand indices of the batched product: axis 0 is the batch axis of both operands, the
    left operand's axis 1 and the right operand's axis 2 come from the result index, and the left operand's axis 2 and
    the right operand's axis 1 are the contracted index. -/

theorem lhs_0 (i : S8x256x512.Idx) (q : dot_S8x256x256_S8x256x512_S8x256x512_2_1_1_2_0_0.contr.Idx) : (dot_S8x256x256_S8x256x512_S8x256x512_2_1_1_2_0_0.lhsIdx i q 0).val = (i 0).val := by
  unfold DotDims.lhsIdx
  rw [dif_pos (show (0 : Fin S8x256x256.rank) ∈ dot_S8x256x256_S8x256x512_S8x256x512_2_1_1_2_0_0.lhsBatch by decide)]
  rfl

theorem lhs_1 (i : S8x256x512.Idx) (q : dot_S8x256x256_S8x256x512_S8x256x512_2_1_1_2_0_0.contr.Idx) : (dot_S8x256x256_S8x256x512_S8x256x512_2_1_1_2_0_0.lhsIdx i q 1).val = (i 1).val := by
  unfold DotDims.lhsIdx
  rw [dif_neg (show ¬(1 : Fin S8x256x256.rank) ∈ dot_S8x256x256_S8x256x512_S8x256x512_2_1_1_2_0_0.lhsBatch by decide),
    dif_pos (show (1 : Fin S8x256x256.rank) ∈ dot_S8x256x256_S8x256x512_S8x256x512_2_1_1_2_0_0.lhsNonContracting by decide)]
  rfl

theorem lhs_2 (i : S8x256x512.Idx) (q : dot_S8x256x256_S8x256x512_S8x256x512_2_1_1_2_0_0.contr.Idx) : (dot_S8x256x256_S8x256x512_S8x256x512_2_1_1_2_0_0.lhsIdx i q 2).val = (q ⟨0, by decide⟩).val :=
  dot_S8x256x256_S8x256x512_S8x256x512_2_1_1_2_0_0.lhsIdx_val_of_single rfl i q

theorem rhs_0 (i : S8x256x512.Idx) (q : dot_S8x256x256_S8x256x512_S8x256x512_2_1_1_2_0_0.contr.Idx) : (dot_S8x256x256_S8x256x512_S8x256x512_2_1_1_2_0_0.rhsIdx i q 0).val = (i 0).val := by
  unfold DotDims.rhsIdx
  rw [dif_pos (show (0 : Fin S8x256x512.rank) ∈ dot_S8x256x256_S8x256x512_S8x256x512_2_1_1_2_0_0.rhsBatch by decide)]
  rfl

theorem rhs_1 (i : S8x256x512.Idx) (q : dot_S8x256x256_S8x256x512_S8x256x512_2_1_1_2_0_0.contr.Idx) : (dot_S8x256x256_S8x256x512_S8x256x512_2_1_1_2_0_0.rhsIdx i q 1).val = (q ⟨0, by decide⟩).val :=
  dot_S8x256x256_S8x256x512_S8x256x512_2_1_1_2_0_0.rhsIdx_val_of_single rfl i q

theorem rhs_2 (i : S8x256x512.Idx) (q : dot_S8x256x256_S8x256x512_S8x256x512_2_1_1_2_0_0.contr.Idx) : (dot_S8x256x256_S8x256x512_S8x256x512_2_1_1_2_0_0.rhsIdx i q 2).val = (i 2).val := by
  unfold DotDims.rhsIdx
  rw [dif_neg (show ¬(2 : Fin S8x256x512.rank) ∈ dot_S8x256x256_S8x256x512_S8x256x512_2_1_1_2_0_0.rhsBatch by decide),
    dif_pos (show (2 : Fin S8x256x512.rank) ∈ dot_S8x256x256_S8x256x512_S8x256x512_2_1_1_2_0_0.rhsNonContracting by decide)]
  rfl

/-- The batched product of a stack of 256 × 256 matrices with a stack of 256 × 512 matrices, accumulated into zero,
    read at `(bb, p, e)`: the sum over `h` of `l (bb, p, h) · r (bb, h, e)`. -/
theorem bmm_apply (l : FVec Ideal S8x256x256 .bf16) (r : FVec Ideal S8x256x512 .bf16) (bb : Fin 8) (p : Fin 256)
    (e : Fin 512) :
    matmul (F := Ideal) dot_S8x256x256_S8x256x512_S8x256x512_2_1_1_2_0_0 none l r (constant S8x256x512 .f32 0x00000000#32) (ix3 bb p e)
      = ∑ h : Fin 256, l (ix3 bb p h) * r (ix3 bb h e) := by
  refine (Ideal.matmul_constant_zero_apply dot_S8x256x256_S8x256x512_S8x256x512_2_1_1_2_0_0 none l r (ix3 bb p e)).trans ?_
  rw [← Equiv.sum_comp (ValueIdx.contrEquiv1 dot_S8x256x256_S8x256x512_S8x256x512_2_1_1_2_0_0 256 rfl rfl).symm]
  refine Finset.sum_congr rfl fun k _ => ?_
  have hk := ValueIdx.contrEquiv1_symm_val dot_S8x256x256_S8x256x512_S8x256x512_2_1_1_2_0_0 256 rfl rfl k
  have el : dot_S8x256x256_S8x256x512_S8x256x512_2_1_1_2_0_0.lhsIdx (ix3 bb p e) ((ValueIdx.contrEquiv1 dot_S8x256x256_S8x256x512_S8x256x512_2_1_1_2_0_0 256 rfl rfl).symm k) = ix3 bb p k :=
    funext fun a => Fin.ext (by
      match a with
      | ⟨0, _⟩ => exact lhs_0 _ _
      | ⟨1, _⟩ => exact lhs_1 _ _
      | ⟨2, _⟩ => exact (lhs_2 _ _).trans hk)
  have er : dot_S8x256x256_S8x256x512_S8x256x512_2_1_1_2_0_0.rhsIdx (ix3 bb p e) ((ValueIdx.contrEquiv1 dot_S8x256x256_S8x256x512_S8x256x512_2_1_1_2_0_0 256 rfl rfl).symm k) = ix3 bb k e :=
    funext fun a => Fin.ext (by
      match a with
      | ⟨0, _⟩ => exact rhs_0 _ _
      | ⟨1, _⟩ => exact (rhs_1 _ _).trans hk
      | ⟨2, _⟩ => exact rhs_2 _ _)
  rw [el, er]

/-- The stack of matrices with each matrix transposed, read at `(bb, h, p)`: the stack at `(bb, p, h)`. -/
theorem transpose_apply3 (A : FVec Ideal S8x256x256 .bf16) (hT : S8x256x256.Transposes [0, 2, 1] S8x256x256) (bb : Fin 8)
    (h p : Fin 256) :
    transpose S8x256x256 [0, 2, 1] A hT (ix3 bb h p) = A (ix3 bb p h) :=
  transpose_apply [0, 2, 1] A hT (ix3 bb h p) (ix3 bb p h) (fun b => by
    match b with
    | ⟨0, _⟩ => rfl
    | ⟨1, _⟩ => rfl
    | ⟨2, _⟩ => rfl)

/-- Two blocks of rows joined along the last axis and laid out as 2048 rows: row `bb · 256 + p` is row `p` of
    example `bb` of the first block followed by the same row of the second. -/
theorem flatJoin_apply (X Y : FVec Ideal S8x256x512 .bf16)
    (hC : Shape.Concatenates [S8x256x512, S8x256x512] S8x256x1024 2) (hS : S8x256x1024.ShapeCasts S2048x1024)
    (bb : Fin 8) (p : Fin 256) (c : Fin 1024) (ρ : Fin 2048) (hρ : ρ.val = bb.val * 256 + p.val) :
    shapeCast S2048x1024 (concatenate S8x256x1024 2 [⟨S8x256x512, X⟩, ⟨S8x256x512, Y⟩] hC) hS (ix2 ρ c)
      = join (fun p e => X (ix3 bb p e)) (fun p e => Y (ix3 bb p e)) p c := by
  refine (Cert.LibRowsFlatten.shapeCast_abc_nc_apply _ hS bb p c ρ hρ).trans ?_
  unfold join
  by_cases hc : c.val < 512
  · rw [dif_pos hc]
    exact Cert.LibPointOps.concatLast_left X Y hC bb p c hc
  · rw [dif_neg hc]
    exact Cert.LibPointOps.concatLast_right X Y hC bb p c (by omega) (by omega)

/-- The alignment weights of example `bb` of the block, by their entries. -/
def wts (x0 x1 : Vec Ideal S8x256x512 .f32) (x2 : Vec Ideal S512x256 .bf16) (bb : Fin 8) : Mat 256 256 :=
  fun p h => Gen.k0_pay6 (F := Ideal) x0 x1 x2 (ix3 bb p h)

/-- The premise rows joined with their aligned rows. -/
theorem joined1_pre (x0 x1 : Vec Ideal S8x256x512 .f32) (x2 : Vec Ideal S512x256 .bf16) (bb : Fin 8) (p : Fin 256)
    (c : Fin 1024) (ρ : Fin 2048) (hρ : ρ.val = bb.val * 256 + p.val) :
    Gen.k0_pay8 (F := Ideal) x0 x1 x2 (ix2 ρ c)
      = join (rowsOf x0 bb) (beta (wts x0 x1 x2 bb) (rowsOf x1 bb)) p c := by
  unfold Gen.k0_pay8
  refine (flatJoin_apply _ _ _ _ bb p c ρ hρ).trans ?_
  have hY : (fun (p : Fin 256) (e : Fin 512) =>
      (truncf (F := Ideal) .bf16 (matmul (F := Ideal) dot_S8x256x256_S8x256x512_S8x256x512_2_1_1_2_0_0 none (Gen.k0_pay6 (F := Ideal) x0 x1 x2)
        (Gen.k0_pay5 (F := Ideal) x1) (constant S8x256x512 .f32 0x00000000#32)) bitsLt_bf16_f32) (ix3 bb p e))
      = beta (wts x0 x1 x2 bb) (rowsOf x1 bb) := funext fun p => funext fun e =>
    bmm_apply (Gen.k0_pay6 (F := Ideal) x0 x1 x2) (Gen.k0_pay5 (F := Ideal) x1) bb p e
  exact congrArg (fun Y => join (rowsOf x0 bb) Y p c) hY

/-- The hypothesis rows joined with their aligned rows. -/
theorem joined2_pre (x0 x1 : Vec Ideal S8x256x512 .f32) (x2 : Vec Ideal S512x256 .bf16) (bb : Fin 8) (p : Fin 256)
    (c : Fin 1024) (ρ : Fin 2048) (hρ : ρ.val = bb.val * 256 + p.val) :
    Gen.k0_pay18 (F := Ideal) (Gen.k0_pay5 x1) (Gen.k0_pay7 x0 x1 x2) (ix2 ρ c)
      = join (rowsOf x1 bb) (alpha (wts x0 x1 x2 bb) (rowsOf x0 bb)) p c := by
  unfold Gen.k0_pay18
  refine (flatJoin_apply _ _ _ _ bb p c ρ hρ).trans ?_
  have hY : (fun (h : Fin 256) (e : Fin 512) => Gen.k0_pay7 (F := Ideal) x0 x1 x2 (ix3 bb h e))
      = alpha (wts x0 x1 x2 bb) (rowsOf x0 bb) := funext fun h => funext fun e => by
    unfold Gen.k0_pay7
    refine (bmm_apply _ (Gen.k0_pay4 (F := Ideal) x0) bb h e).trans ?_
    exact Finset.sum_congr rfl fun k _ =>
      congrArg (· * (Gen.k0_pay4 (F := Ideal) x0) (ix3 bb k e)) (transpose_apply3 _ _ bb h k)
  exact congrArg (fun Y => join (rowsOf x1 bb) Y p c) hY

end Cert.KernelIdeal.AlignJoin

end
-- ==== Proof.AggSpec.lean ====
/-
  The first region's two output blocks as the specification's aggregates: entry `(bb, g)` of the premise side's block is
  `agg1` of example `bb`'s rows at `g`, and of the hypothesis side's block `agg2`.  The joined rows the body compares are
  the specification's joined rows (row `bb·256 + p` of the flattened matrix is row `p` of example `bb`), and the
  comparison itself is the same double sum.
-/
import proofs.«177522_j36386962932383_2_alg».proof.Proof.AggValue
import proofs.«177522_j36386962932383_2_alg».proof.Proof.AlignValue
import proofs.«177522_j36386962932383_2_alg».proof.Proof.AlignJoin
import proofs.«177522_j36386962932383_2_alg».proof.Proof.Rows

noncomputable section

namespace Cert.KernelIdeal.AggSpec

open Cert.KernelIdeal Cert.KernelIdeal.Gen Cert.KernelIdeal.AggValue Cert.Attn Idealize.ShloMosaic Idealize.ShloMosaic.ValueIdx

/-- The block's alignment weights are the specification's. -/
theorem wts_eq (x0 x1 : Vec Ideal S8x256x512 .f32) (x2 : Vec Ideal S512x256 .bf16) (bb : Fin 8) :
    Cert.KernelIdeal.AlignJoin.wts x0 x1 x2 bb = weights (rowsOf x0 bb) (rowsOf x1 bb) (mat x2) :=
  funext fun p => funext fun h => Cert.KernelIdeal.AlignValue.weights_apply x0 x1 x2 bb p h

/-- The premise side's output block at `(bb, g)`. -/
theorem out4_value (x0 x1 : Vec Ideal S8x256x512 .f32) (x2 : Vec Ideal S512x256 .bf16) (x3 : Vec Ideal S1024x2048 .bf16)
    (bb : Fin 8) (g : Fin 2048) :
    Gen.out0_4 (F := Ideal) x0 x1 x2 x3 (ix2 bb g) = agg1 (rowsOf x0 bb) (rowsOf x1 bb) (mat x2) (mat x3) g := by
  refine (out4_apply x0 x1 x2 x3 bb g).trans ?_
  unfold cmpAt agg1 Cert.Attn.compare
  refine Finset.sum_congr rfl fun p _ => congrArg Ideal.tanh (Finset.sum_congr rfl fun c _ => ?_)
  rw [Cert.KernelIdeal.AlignJoin.joined1_pre x0 x1 x2 bb p c ⟨bb.val * 256 + p.val, by omega⟩ rfl, wts_eq]
  rfl

/-- The hypothesis side's output block at `(bb, g)`. -/
theorem out5_value (x0 x1 : Vec Ideal S8x256x512 .f32) (x2 : Vec Ideal S512x256 .bf16) (x3 : Vec Ideal S1024x2048 .bf16)
    (bb : Fin 8) (g : Fin 2048) :
    Gen.out0_5 (F := Ideal) x0 x1 x2 x3 (ix2 bb g) = agg2 (rowsOf x0 bb) (rowsOf x1 bb) (mat x2) (mat x3) g := by
  refine (out5_apply x0 x1 x2 x3 bb g).trans ?_
  unfold cmpAt agg2 Cert.Attn.compare
  refine Finset.sum_congr rfl fun p _ => congrArg Ideal.tanh (Finset.sum_congr rfl fun c _ => ?_)
  rw [Cert.KernelIdeal.AlignJoin.joined2_pre x0 x1 x2 bb p c ⟨bb.val * 256 + p.val, by omega⟩ rfl, wts_eq]
  rfl

end Cert.KernelIdeal.AggSpec

end
-- ==== Proof.Blocks0b.lean ====
/-
  The first region's two output arrays after the region, each as one function of the region's arrays: row `b` of the
  premise side's array is `agg1` of example `b`, row `b` of the hypothesis side's array `agg2` of example `b`.  At grid
  point `t` the body sees examples `8t … 8t + 7` and writes rows `8t … 8t + 7`; what it writes for example `bb` of its
  block is the aggregate of that example, that is, of example `8t + bb` of the arrays; and the 16 row blocks tile the array.
-/
import proofs.«177522_j36386962932383_2_alg».proof.Proof.Blocks0a
import proofs.«177522_j36386962932383_2_alg».proof.Proof.AggSpec

set_option maxRecDepth 16384

noncomputable section

namespace Cert.KernelIdeal.Region0

open Cert.KernelIdeal Cert.KernelIdeal.Gen Cert.Attn Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The premise side's aggregates of the 128 examples, from the region's arrays. -/
def G4 (P H : S128x256x512.Idx → EReal) (wf : S512x256.Idx → EReal) (wg : S1024x2048.Idx → EReal) : S128x2048.Idx → EReal :=
  fun i => agg1 (rowsOf P (i 0)) (rowsOf H (i 0)) (mat wf) (mat wg) (i 1)

/-- The hypothesis side's aggregates of the 128 examples, from the region's arrays. -/
def G5 (P H : S128x256x512.Idx → EReal) (wf : S512x256.Idx → EReal) (wg : S1024x2048.Idx → EReal) : S128x2048.Idx → EReal :=
  fun i => agg2 (rowsOf P (i 0)) (rowsOf H (i 0)) (mat wf) (mat wg) (i 1)

theorem rows0 (c : Dev nD) (t : Fin cfg0.N) (bb : Fin 8) :
    rowsOf (iblk0 V c 0 t) bb = rowsOf (V c main_arg0) (⟨t.val * 8 + bb.val, by have := t_lt t; omega⟩ : Fin 128) :=
  funext fun p => funext fun e => blk0_apply V c t bb p e

theorem rows1 (c : Dev nD) (t : Fin cfg0.N) (bb : Fin 8) :
    rowsOf (iblk0 V c 1 t) bb = rowsOf (V c main_arg1) (⟨t.val * 8 + bb.val, by have := t_lt t; omega⟩ : Fin 128) :=
  funext fun p => funext fun e => blk1_apply V c t bb p e

theorem mat2 (c : Dev nD) (t : Fin cfg0.N) : mat (iblk0 V c 2 t) = mat (V c main_v0) :=
  funext fun i => funext fun j => blk2_apply V c t i j

theorem mat3 (c : Dev nD) (t : Fin cfg0.N) : mat (iblk0 V c 3 t) = mat (V c main_v1) :=
  funext fun i => funext fun j => blk3_apply V c t i j

/-- What point `t` writes back to the premise side's array is block `t` of `G4`. -/
theorem flushed4_eq (c : Dev nD) (t : Fin cfg0.N) :
    (dat0 V c).flushed 4 t
      = ((cfg0.win 4).blk t).view.read (Elt Ideal) (G4 (V c main_arg0) (V c main_arg1) (V c main_v0) (V c main_v1)) := by
  show (cfg0.win 4).cut (grid0.coords t) ((dat0 V c).after 4 t) = _
  rw [after0_4]
  funext j
  obtain ⟨bb, g, rfl⟩ : ∃ (bb : Fin 8) (g : Fin 2048), j = ix2 bb g := ⟨j 0, j 1, eq_ix2 j⟩
  show out0_4 (iblk0 V c 0 t) (iblk0 V c 1 t) (iblk0 V c 2 t) (iblk0 V c 3 t) (ix2 bb g)
    = G4 (V c main_arg0) (V c main_arg1) (V c main_v0) (V c main_v1) (((cfg0.win 4).blk t).view.emb (ix2 bb g))
  rw [emb4_apply]
  refine (Cert.KernelIdeal.AggSpec.out4_value _ _ _ _ bb g).trans ?_
  rw [rows0, rows1, mat2, mat3]
  rfl

/-- What point `t` writes back to the hypothesis side's array is block `t` of `G5`. -/
theorem flushed5_eq (c : Dev nD) (t : Fin cfg0.N) :
    (dat0 V c).flushed 5 t
      = ((cfg0.win 5).blk t).view.read (Elt Ideal) (G5 (V c main_arg0) (V c main_arg1) (V c main_v0) (V c main_v1)) := by
  show (cfg0.win 5).cut (grid0.coords t) ((dat0 V c).after 5 t) = _
  rw [after0_5]
  funext j
  obtain ⟨bb, g, rfl⟩ : ∃ (bb : Fin 8) (g : Fin 2048), j = ix2 bb g := ⟨j 0, j 1, eq_ix2 j⟩
  show out0_5 (iblk0 V c 0 t) (iblk0 V c 1 t) (iblk0 V c 2 t) (iblk0 V c 3 t) (ix2 bb g)
    = G5 (V c main_arg0) (V c main_arg1) (V c main_v0) (V c main_v1) (((cfg0.win 5).blk t).view.emb (ix2 bb g))
  rw [emb5_apply]
  refine (Cert.KernelIdeal.AggSpec.out5_value _ _ _ _ bb g).trans ?_
  rw [rows0, rows1, mat2, mat3]
  rfl

/-- The premise side's array after the region. -/
theorem final4 (c : Dev nD) :
    (dat0 V c).arrAt 4 cfg0.N = G4 (V c main_arg0) (V c main_arg1) (V c main_v0) (V c main_v1) :=
  (dat0 V c).arrAt_eq_of_cover 4 _ (fun t _ => flushed4_eq V c t) cover4

/-- The hypothesis side's array after the region. -/
theorem final5 (c : Dev nD) :
    (dat0 V c).arrAt 5 cfg0.N = G5 (V c main_arg0) (V c main_arg1) (V c main_v0) (V c main_v1) :=
  (dat0 V c).arrAt_eq_of_cover 5 _ (fun t _ => flushed5_eq V c t) cover5

end Cert.KernelIdeal.Region0

end
-- ==== Proof.Blocks1a.lean ====
/-
  The second region's windows on its arrays.  The grid has 2 points; at point `t` the feature window holds rows
  `64t … 64t + 63` of the `128 × 4096` features, the six parameter windows hold their whole arrays, and the output window
  writes back rows `64t … 64t + 63` of the `128 × 3` logits: the two row blocks tile it.
-/
import proofs.«177522_j36386962932383_2_alg».proof.Proof.Gen.KernelIdeal.Frame
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps, decided over the grid. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem t_lt (t : Fin cfg1.N) : t.val < 2 := by have := t.isLt; have h : cfg1.N = 2 := N_1; omega

/-- The feature window at point `t`: row `r` of the block is row `64t + r` of the array. -/
theorem blk0_apply (c : Dev nD) (t : Fin cfg1.N) (r : Fin 64) (k : Fin 4096) :
    iblk1 V c 0 t (ix2 r k) = V c main_v3 (ix2 (⟨t.val * 64 + r.val, by have := t_lt t; omega⟩ : Fin 128) k) := by
  obtain ⟨e0, e1, -⟩ := idx_facts t
  show V c main_v3 (((cfg1.win 0).blk t).view.emb (ix2 r k)) = _
  refine congrArg (V c main_v3) (funext fun a => Fin.ext ?_)
  match a with
  | ⟨0, _⟩ => show win1_0.index t (0 : Fin 2) * 64 + 1 * r.val = t.val * 64 + r.val; omega
  | ⟨1, _⟩ => show win1_0.index t (1 : Fin 2) * 4096 + 1 * k.val = k.val; omega

/-- Each parameter window holds its whole array at every point. -/
theorem blk1_apply (c : Dev nD) (t : Fin cfg1.N) (i : Fin 4096) (j : Fin 2048) :
    iblk1 V c 1 t (ix2 i j) = V c main_v4 (ix2 i j) := by
  obtain ⟨-, -, e0, e1, -⟩ := idx_facts t
  show V c main_v4 (((cfg1.win 1).blk t).view.emb (ix2 i j)) = _
  refine congrArg (V c main_v4) (funext fun a => Fin.ext ?_)
  match a with
  | ⟨0, _⟩ => show win1_1.index t (0 : Fin 2) * 4096 + 1 * i.val = i.val; omega
  | ⟨1, _⟩ => show win1_1.index t (1 : Fin 2) * 2048 + 1 * j.val = j.val; omega

theorem blk2_apply (c : Dev nD) (t : Fin cfg1.N) (i : Fin 1) (j : Fin 2048) :
    iblk1 V c 2 t (ix2 i j) = V c main_v7 (ix2 i j) := by
  obtain ⟨-, -, -, -, e0, e1, -⟩ := idx_facts t
  show V c main_v7 (((cfg1.win 2).blk t).view.emb (ix2 i j)) = _
  refine congrArg (V c main_v7) (funext fun a => Fin.ext ?_)
  match a with
  | ⟨0, _⟩ => show win1_2.index t (0 : Fin 2) * 1 + 1 * i.val = i.val; omega
  | ⟨1, _⟩ => show win1_2.index t (1 : Fin 2) * 2048 + 1 * j.val = j.val; omega

theorem blk3_apply (c : Dev nD) (t : Fin cfg1.N) (i : Fin 2048) (j : Fin 2048) :
    iblk1 V c 3 t (ix2 i j) = V c main_v5 (ix2 i j) := by
  obtain ⟨-, -, -, -, -, -, e0, e1, -⟩ := idx_facts t
  show V c main_v5 (((cfg1.win 3).blk t).view.emb (ix2 i j)) = _
  refine congrArg (V c main_v5) (funext fun a => Fin.ext ?_)
  match a with
  | ⟨0, _⟩ => show win1_3.index t (0 : Fin 2) * 2048 + 1 * i.val = i.val; omega
  | ⟨1, _⟩ => show win1_3.index t (1 : Fin 2) * 2048 + 1 * j.val = j.val; omega

theorem blk4_apply (c : Dev nD) (t : Fin cfg1.N) (i : Fin 1) (j : Fin 2048) :
    iblk1 V c 4 t (ix2 i j) = V c main_v8 (ix2 i j) := by
  obtain ⟨-, -, -, -, -, -, -, -, e0, e1, -⟩ := idx_facts t
  show V c main_v8 (((cfg1.win 4).blk t).view.emb (ix2 i j)) = _
  refine congrArg (V c main_v8) (funext fun a => Fin.ext ?_)
  match a with
  | ⟨0, _⟩ => show win1_4.index t (0 : Fin 2) * 1 + 1 * i.val = i.val; omega
  | ⟨1, _⟩ => show win1_4.index t (1 : Fin 2) * 2048 + 1 * j.val = j.val; omega

theorem blk5_apply (c : Dev nD) (t : Fin cfg1.N) (i : Fin 2048) (j : Fin 3) :
    iblk1 V c 5 t (ix2 i j) = V c main_v6 (ix2 i j) := by
  obtain ⟨-, -, -, -, -, -, -, -, -, -, e0, e1, -⟩ := idx_facts t
  show V c main_v6 (((cfg1.win 5).blk t).view.emb (ix2 i j)) = _
  refine congrArg (V c main_v6) (funext fun a => Fin.ext ?_)
  match a with
  | ⟨0, _⟩ => show win1_5.index t (0 : Fin 2) * 2048 + 1 * i.val = i.val; omega
  | ⟨1, _⟩ => show win1_5.index t (1 : Fin 2) * 3 + 1 * j.val = j.val; omega

theorem blk6_apply (c : Dev nD) (t : Fin cfg1.N) (i : Fin 1) (j : Fin 3) :
    iblk1 V c 6 t (ix2 i j) = V c main_v9 (ix2 i j) := by
  obtain ⟨-, -, -, -, -, -, -, -, -, -, -, -, e0, e1, -⟩ := idx_facts t
  show V c main_v9 (((cfg1.win 6).blk t).view.emb (ix2 i j)) = _
  refine congrArg (V c main_v9) (funext fun a => Fin.ext ?_)
  match a with
  | ⟨0, _⟩ => show win1_6.index t (0 : Fin 2) * 1 + 1 * i.val = i.val; omega
  | ⟨1, _⟩ => show win1_6.index t (1 : Fin 2) * 3 + 1 * j.val = j.val; omega

/-- Where entry `(r, o)` of output block `t` sits in the array. -/
theorem emb7_apply (t : Fin cfg1.N) (r : Fin 64) (o : Fin 3) :
    ((cfg1.win 7).blk t).view.emb (ix2 r o) = ix2 (⟨t.val * 64 + r.val, by have := t_lt t; omega⟩ : Fin 128) o := by
  obtain ⟨-, -, -, -, -, -, -, -, -, -, -, -, -, -, e0, e1⟩ := idx_facts t
  refine funext fun a => Fin.ext ?_
  match a with
  | ⟨0, _⟩ => show win1_7.index t (0 : Fin 2) * 64 + 1 * r.val = t.val * 64 + r.val; omega
  | ⟨1, _⟩ => show win1_7.index t (1 : Fin 2) * 3 + 1 * o.val = o.val; omega

/-- An index of the array is in point `t`'s block iff each coordinate is in the block's range on its axis. -/
theorem mem_blk7 (t : Fin cfg1.N) (i : S128x3.Idx) :
    i ∈ ((cfg1.win 7).blk t).view.set ↔ ∀ a : Fin 2, win1_7.index t a * S64x3.size a ≤ (i a).val ∧ (i a).val < win1_7.index t a * S64x3.size a + S64x3.size a := by
  show i ∈ ((View.whole main_v10).slice (win1_7.rect t)).set ↔ _
  rw [View.set_slice_whole, Rect.mem_set_unit]
  exact Iff.rfl

/-- Every row of the logits is in the block of the point `row / 64`. -/
theorem cover7 (i : S128x3.Idx) : ∃ t : Fin cfg1.N, (cfg1.win 7).flush t = true ∧ i ∈ ((cfg1.win 7).blk t).view.set := by
  have hi0 : (i 0).val < 128 := (i 0).isLt
  have hi1 : (i 1).val < 3 := (i 1).isLt
  have hN : cfg1.N = 2 := N_1
  refine ⟨⟨(i 0).val / 64, by omega⟩, flush1_7 _, ?_⟩
  rw [mem_blk7]
  obtain ⟨-, -, -, -, -, -, -, -, -, -, -, -, -, -, e0, e1⟩ := idx_facts ⟨(i 0).val / 64, by omega⟩
  intro a
  match a with
  | ⟨0, _⟩ => show win1_7.index _ (0 : Fin 2) * 64 ≤ (i 0).val ∧ (i 0).val < win1_7.index _ (0 : Fin 2) * 64 + 64; rw [e0]; show (i 0).val / 64 * 64 ≤ (i 0).val ∧ (i 0).val < (i 0).val / 64 * 64 + 64; omega
  | ⟨1, _⟩ => show win1_7.index _ (1 : Fin 2) * 3 ≤ (i 1).val ∧ (i 1).val < win1_7.index _ (1 : Fin 2) * 3 + 3; rw [e1]; omega

end Cert.KernelIdeal.Region1

end
-- ==== Proof.FcValue.lean ====
/-
  The classifier head's block, entry by entry.

  The second region's body reads a block of 64 feature rows, three weight matrices and three one-row biases, and
  stores, for each row, two squashed linear layers followed by a linear one. Each layer is a matrix product into a
  zero accumulator — on the extended reals the plain sum over the contracted coordinate — plus the bias row spread
  over the 64 rows; the format changes between the layers are the identity. So entry (r, o) of the stored block is
  the specification's head applied to row r of the features, read at o.
-/
import proofs.«177522_j36386962932383_2_alg».proof.Proof.Gen.KernelIdeal.Frame
import proofs.«177522_j36386962932383_2_alg».proof.Proof.Spec
import proofs.«177522_j36386962932383_2_alg».proof.Proof.LibPlainDot
import Idealize.ShloMosaic.Lib.ValueLayout
import Idealize.ShloMosaic.Lib.Pipeline.Value

noncomputable section

open scoped BigOperators

namespace Cert.KernelIdeal.FcValue

open Cert.KernelIdeal Cert.KernelIdeal.Gen Cert.Attn Idealize.ShloMosaic Idealize.ShloMosaic.ValueIdx

/-- One linear layer at entry (r, f): a product into the zero accumulator plus a one-row bias spread over the rows
    is the specification's dense layer of row r. The four coordinate facts say the product is the plain one. -/
theorem layer_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (a : FVec Ideal (⟨2, ![n, K]⟩ : Shape) φ₁) (w : FVec Ideal (⟨2, ![K, M]⟩ : Shape) φ₂)
    (b : FVec Ideal (⟨2, ![1, M]⟩ : Shape) .f32) (hb : (⟨2, ![1, M]⟩ : Shape).Broadcasts ⟨2, ![n, M]⟩)
    (r : Fin n) (f : Fin M) :
    addf (matmul D none a w (constant (⟨2, ![n, M]⟩ : Shape) .f32 0x00000000#32)) (broadcastTo ⟨2, ![n, M]⟩ b hb) (ix2 r f)
      = dense (fun k : Fin K => (a (ix2 r k) : EReal)) (fun (k : Fin K) (j : Fin M) => (w (ix2 k j) : EReal))
          (fun j : Fin M => (b (ix2 (0 : Fin 1) j) : EReal)) f := by
  rw [addf_apply, broadcastTo_1b_ab_apply b hb r f]
  exact congrArg (· + _) (Cert.PlainDot.matmul_zero_apply D hr hs l0 l1 r0 r1 none a w r f)

/-! ## The three products are plain ones

Each dimension record contracts the first operand's columns against the second's rows; the four coordinate facts are
read off its literal lists. -/

theorem d1_l0 (i : S64x2048.Idx) (q : dot_S64x4096_S4096x2048_S64x2048_1_0_0_1_n_n.contr.Idx) :
    (dot_S64x4096_S4096x2048_S64x2048_1_0_0_1_n_n.lhsIdx i q 0).val = (i 0).val := by
  unfold DotDims.lhsIdx
  rw [dif_neg (show ¬(0 : Fin S64x4096.rank) ∈ dot_S64x4096_S4096x2048_S64x2048_1_0_0_1_n_n.lhsBatch by decide),
    dif_pos (show (0 : Fin S64x4096.rank) ∈ dot_S64x4096_S4096x2048_S64x2048_1_0_0_1_n_n.lhsNonContracting by decide)]
  rfl
theorem d1_l1 (i : S64x2048.Idx) (q : dot_S64x4096_S4096x2048_S64x2048_1_0_0_1_n_n.contr.Idx) :
    (dot_S64x4096_S4096x2048_S64x2048_1_0_0_1_n_n.lhsIdx i q 1).val = (q ⟨0, by decide⟩).val :=
  dot_S64x4096_S4096x2048_S64x2048_1_0_0_1_n_n.lhsIdx_val_of_single rfl i q
theorem d1_r0 (i : S64x2048.Idx) (q : dot_S64x4096_S4096x2048_S64x2048_1_0_0_1_n_n.contr.Idx) :
    (dot_S64x4096_S4096x2048_S64x2048_1_0_0_1_n_n.rhsIdx i q 0).val = (q ⟨0, by decide⟩).val :=
  dot_S64x4096_S4096x2048_S64x2048_1_0_0_1_n_n.rhsIdx_val_of_single rfl i q
theorem d1_r1 (i : S64x2048.Idx) (q : dot_S64x4096_S4096x2048_S64x2048_1_0_0_1_n_n.contr.Idx) :
    (dot_S64x4096_S4096x2048_S64x2048_1_0_0_1_n_n.rhsIdx i q 1).val = (i 1).val := by
  unfold DotDims.rhsIdx
  rw [dif_neg (show ¬(1 : Fin S4096x2048.rank) ∈ dot_S64x4096_S4096x2048_S64x2048_1_0_0_1_n_n.rhsBatch by decide),
    dif_pos (show (1 : Fin S4096x2048.rank) ∈ dot_S64x4096_S4096x2048_S64x2048_1_0_0_1_n_n.rhsNonContracting by decide)]
  rfl

theorem d2_l0 (i : S64x2048.Idx) (q : dot_S64x2048_S2048x2048_S64x2048_1_0_0_1_n_n.contr.Idx) :
    (dot_S64x2048_S2048x2048_S64x2048_1_0_0_1_n_n.lhsIdx i q 0).val = (i 0).val := by
  unfold DotDims.lhsIdx
  rw [dif_neg (show ¬(0 : Fin S64x2048.rank) ∈ dot_S64x2048_S2048x2048_S64x2048_1_0_0_1_n_n.lhsBatch by decide),
    dif_pos (show (0 : Fin S64x2048.rank) ∈ dot_S64x2048_S2048x2048_S64x2048_1_0_0_1_n_n.lhsNonContracting by decide)]
  rfl
theorem d2_l1 (i : S64x2048.Idx) (q : dot_S64x2048_S2048x2048_S64x2048_1_0_0_1_n_n.contr.Idx) :
    (dot_S64x2048_S2048x2048_S64x2048_1_0_0_1_n_n.lhsIdx i q 1).val = (q ⟨0, by decide⟩).val :=
  dot_S64x2048_S2048x2048_S64x2048_1_0_0_1_n_n.lhsIdx_val_of_single rfl i q
theorem d2_r0 (i : S64x2048.Idx) (q : dot_S64x2048_S2048x2048_S64x2048_1_0_0_1_n_n.contr.Idx) :
    (dot_S64x2048_S2048x2048_S64x2048_1_0_0_1_n_n.rhsIdx i q 0).val = (q ⟨0, by decide⟩).val :=
  dot_S64x2048_S2048x2048_S64x2048_1_0_0_1_n_n.rhsIdx_val_of_single rfl i q
theorem d2_r1 (i : S64x2048.Idx) (q : dot_S64x2048_S2048x2048_S64x2048_1_0_0_1_n_n.contr.Idx) :
    (dot_S64x2048_S2048x2048_S64x2048_1_0_0_1_n_n.rhsIdx i q 1).val = (i 1).val := by
  unfold DotDims.rhsIdx
  rw [dif_neg (show ¬(1 : Fin S2048x2048.rank) ∈ dot_S64x2048_S2048x2048_S64x2048_1_0_0_1_n_n.rhsBatch by decide),
    dif_pos (show (1 : Fin S2048x2048.rank) ∈ dot_S64x2048_S2048x2048_S64x2048_1_0_0_1_n_n.rhsNonContracting by decide)]
  rfl

theorem d3_l0 (i : S64x3.Idx) (q : dot_S64x2048_S2048x3_S64x3_1_0_0_1_n_n.contr.Idx) :
    (dot_S64x2048_S2048x3_S64x3_1_0_0_1_n_n.lhsIdx i q 0).val = (i 0).val := by
  unfold DotDims.lhsIdx
  rw [dif_neg (show ¬(0 : Fin S64x2048.rank) ∈ dot_S64x2048_S2048x3_S64x3_1_0_0_1_n_n.lhsBatch by decide),
    dif_pos (show (0 : Fin S64x2048.rank) ∈ dot_S64x2048_S2048x3_S64x3_1_0_0_1_n_n.lhsNonContracting by decide)]
  rfl
theorem d3_l1 (i : S64x3.Idx) (q : dot_S64x2048_S2048x3_S64x3_1_0_0_1_n_n.contr.Idx) :
    (dot_S64x2048_S2048x3_S64x3_1_0_0_1_n_n.lhsIdx i q 1).val = (q ⟨0, by decide⟩).val :=
  dot_S64x2048_S2048x3_S64x3_1_0_0_1_n_n.lhsIdx_val_of_single rfl i q
theorem d3_r0 (i : S64x3.Idx) (q : dot_S64x2048_S2048x3_S64x3_1_0_0_1_n_n.contr.Idx) :
    (dot_S64x2048_S2048x3_S64x3_1_0_0_1_n_n.rhsIdx i q 0).val = (q ⟨0, by decide⟩).val :=
  dot_S64x2048_S2048x3_S64x3_1_0_0_1_n_n.rhsIdx_val_of_single rfl i q
theorem d3_r1 (i : S64x3.Idx) (q : dot_S64x2048_S2048x3_S64x3_1_0_0_1_n_n.contr.Idx) :
    (dot_S64x2048_S2048x3_S64x3_1_0_0_1_n_n.rhsIdx i q 1).val = (i 1).val := by
  unfold DotDims.rhsIdx
  rw [dif_neg (show ¬(1 : Fin S2048x3.rank) ∈ dot_S64x2048_S2048x3_S64x3_1_0_0_1_n_n.rhsBatch by decide),
    dif_pos (show (1 : Fin S2048x3.rank) ∈ dot_S64x2048_S2048x3_S64x3_1_0_0_1_n_n.rhsNonContracting by decide)]
  rfl

/-! ## The three layers -/

/-- The first layer at (r, f). -/
theorem layer1_apply (a : FVec Ideal S64x4096 .bf16) (w : FVec Ideal S4096x2048 .bf16) (b : FVec Ideal S1x2048 .f32)
    (r : Fin 64) (f : Fin 2048) :
    addf (matmul dot_S64x4096_S4096x2048_S64x2048_1_0_0_1_n_n none a w (constant S64x2048 .f32 0x00000000#32))
        (broadcastTo S64x2048 b broadcasts_S1x2048_S64x2048) (ix2 r f)
      = dense (fun k : Fin 4096 => (a (ix2 r k) : EReal)) (fun (k : Fin 4096) (j : Fin 2048) => (w (ix2 k j) : EReal))
          (fun j : Fin 2048 => (b (ix2 (0 : Fin 1) j) : EReal)) f :=
  layer_apply dot_S64x4096_S4096x2048_S64x2048_1_0_0_1_n_n rfl rfl d1_l0 d1_l1 d1_r0 d1_r1 a w b broadcasts_S1x2048_S64x2048 r f

/-- The second layer at (r, f). -/
theorem layer2_apply (a : FVec Ideal S64x2048 .bf16) (w : FVec Ideal S2048x2048 .bf16) (b : FVec Ideal S1x2048 .f32)
    (r : Fin 64) (f : Fin 2048) :
    addf (matmul dot_S64x2048_S2048x2048_S64x2048_1_0_0_1_n_n none a w (constant S64x2048 .f32 0x00000000#32))
        (broadcastTo S64x2048 b broadcasts_S1x2048_S64x2048) (ix2 r f)
      = dense (fun k : Fin 2048 => (a (ix2 r k) : EReal)) (fun (k : Fin 2048) (j : Fin 2048) => (w (ix2 k j) : EReal))
          (fun j : Fin 2048 => (b (ix2 (0 : Fin 1) j) : EReal)) f :=
  layer_apply dot_S64x2048_S2048x2048_S64x2048_1_0_0_1_n_n rfl rfl d2_l0 d2_l1 d2_r0 d2_r1 a w b broadcasts_S1x2048_S64x2048 r f

/-- The third layer at (r, f). -/
theorem layer3_apply (a : FVec Ideal S64x2048 .bf16) (w : FVec Ideal S2048x3 .bf16) (b : FVec Ideal S1x3 .f32)
    (r : Fin 64) (f : Fin 3) :
    addf (matmul dot_S64x2048_S2048x3_S64x3_1_0_0_1_n_n none a w (constant S64x3 .f32 0x00000000#32))
        (broadcastTo S64x3 b broadcasts_S1x3_S64x3) (ix2 r f)
      = dense (fun k : Fin 2048 => (a (ix2 r k) : EReal)) (fun (k : Fin 2048) (j : Fin 3) => (w (ix2 k j) : EReal))
          (fun j : Fin 3 => (b (ix2 (0 : Fin 1) j) : EReal)) f :=
  layer_apply dot_S64x2048_S2048x3_S64x3_1_0_0_1_n_n rfl rfl d3_l0 d3_l1 d3_r0 d3_r1 a w b broadcasts_S1x3_S64x3 r f

/-! ## The payload and the stored block -/

/-- The body's value at (r, o): the head of row r. -/
theorem pay_apply (v0 : Vec Ideal S64x4096 .f32) (v3 : Vec Ideal S4096x2048 .bf16) (v5 : Vec Ideal S1x2048 .f32)
    (v12 : Vec Ideal S2048x2048 .bf16) (v14 : Vec Ideal S1x2048 .f32) (v21 : Vec Ideal S2048x3 .bf16)
    (v23 : Vec Ideal S1x3 .f32) (r : Fin 64) (o : Fin 3) :
    k1_pay1 (F := Ideal) v0 v3 v5 v12 v14 v21 v23 (ix2 r o)
      = head (fun c : Fin 4096 => v0 (ix2 r c)) (fun (i : Fin 4096) (j : Fin 2048) => v3 (ix2 i j))
          (fun f : Fin 2048 => v5 (ix2 (0 : Fin 1) f)) (fun (i : Fin 2048) (j : Fin 2048) => v12 (ix2 i j))
          (fun f : Fin 2048 => v14 (ix2 (0 : Fin 1) f)) (fun (i : Fin 2048) (j : Fin 3) => v21 (ix2 i j))
          (fun f : Fin 3 => v23 (ix2 (0 : Fin 1) f)) o := by
  unfold k1_pay1 head
  simp only [shapeCast_self]
  refine (layer3_apply _ _ _ r o).trans ?_
  refine congrArg (fun v => dense v _ _ o) (funext fun k => ?_)
  show Ideal.tanh _ = Ideal.tanh _
  refine congrArg Ideal.tanh ?_
  refine (layer2_apply _ _ _ r k).trans ?_
  refine congrArg (fun v => dense v _ _ k) (funext fun j => ?_)
  show Ideal.tanh _ = Ideal.tanh _
  refine congrArg Ideal.tanh ?_
  exact layer1_apply _ _ _ r j

/-- The offsets of every rectangle of the body are zero. -/
theorem hz : (![0, 0] : Fin 2 → Nat) = fun _ => 0 := funext fun a => by fin_cases a <;> rfl

/-- Entry (r, o) of the block the body leaves: the head of row r of the loaded features, read at o. -/
theorem out_apply (x0 : Vec Ideal S64x4096 .f32) (x1 : Vec Ideal S4096x2048 .bf16) (x2 : Vec Ideal S1x2048 .f32)
    (x3 : Vec Ideal S2048x2048 .bf16) (x4 : Vec Ideal S1x2048 .f32) (x5 : Vec Ideal S2048x3 .bf16)
    (x6 : Vec Ideal S1x3 .f32) (r : Fin 64) (o : Fin 3) :
    Gen.out1_7 (F := Ideal) x0 x1 x2 x3 x4 x5 x6 (ix2 r o)
      = head (fun c : Fin 4096 => x0 (ix2 r c)) (fun (i : Fin 4096) (j : Fin 2048) => x1 (ix2 i j))
          (fun f : Fin 2048 => x2 (ix2 (0 : Fin 1) f)) (fun (i : Fin 2048) (j : Fin 2048) => x3 (ix2 i j))
          (fun f : Fin 2048 => x4 (ix2 (0 : Fin 1) f)) (fun (i : Fin 2048) (j : Fin 3) => x5 (ix2 i j))
          (fun f : Fin 3 => x6 (ix2 (0 : Fin 1) f)) o := by
  unfold out1_7
  rw [View.canon_unit_zero hz]
  rw [View.ld_unit_zero (S := S64x4096) hz, View.ld_unit_zero (S := S4096x2048) hz, View.ld_unit_zero (S := S1x2048) hz,
    View.ld_unit_zero (S := S2048x2048) hz, View.ld_unit_zero (S := S1x2048) hz, View.ld_unit_zero (S := S2048x3) hz,
    View.ld_unit_zero (S := S1x3) hz]
  exact pay_apply x0 x1 x2 x3 x4 x5 x6 r o

end Cert.KernelIdeal.FcValue

end
-- ==== Proof.Blocks1b.lean ====
/-
  The second region's output array as one function of the region's arrays.

  At grid point `t` the body leaves, at entry `(r, o)` of its block, the head of row `r` of the loaded feature block,
  read at `o`.  The feature block's row `r` is row `64t + r` of the features, the parameter blocks are the whole
  parameter arrays, and entry `(r, o)` of the block is written back to entry `(64t + r, o)` of the logits.  So what
  point `t` writes back is block `t` of one function of the arrays — row `i` of the features through the head — and, the
  two row blocks tiling the logits, the array ends holding that function.
-/
import proofs.«177522_j36386962932383_2_alg».proof.Proof.Blocks1a
import proofs.«177522_j36386962932383_2_alg».proof.Proof.FcValue

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Cert.Attn

variable (V : (c : Dev nD) → (b : Ref sig .tc) → Buf (Elt Ideal) ((c : Thread nD τ).loc b))

/-- The logits as a function of the region's arrays: row `i 0` of the features through the head. -/
def G7 (X : S128x4096.Idx → EReal) (w1 : S4096x2048.Idx → EReal) (b1 : S1x2048.Idx → EReal) (w2 : S2048x2048.Idx → EReal) (b2 : S1x2048.Idx → EReal) (w3 : S2048x3.Idx → EReal) (b3 : S1x3.Idx → EReal) : S128x3.Idx → EReal :=
  fun i => head (fun k : Fin 4096 => X (ix2 (i 0) k)) (fun (a : Fin 4096) (b : Fin 2048) => w1 (ix2 a b)) (fun f : Fin 2048 => b1 (ix2 (0 : Fin 1) f)) (fun (a : Fin 2048) (b : Fin 2048) => w2 (ix2 a b)) (fun f : Fin 2048 => b2 (ix2 (0 : Fin 1) f)) (fun (a : Fin 2048) (b : Fin 3) => w3 (ix2 a b)) (fun f : Fin 3 => b3 (ix2 (0 : Fin 1) f)) (i 1)

/-- What point `t` writes back is block `t` of `G7` of the region's arrays. -/
theorem flushed7_eq (c : Dev nD) (t : Fin cfg1.N) :
    (dat1 V c).flushed 7 t = ((cfg1.win 7).blk t).view.read (Elt Ideal) (G7 (V c main_v3) (V c main_v4) (V c main_v7) (V c main_v5) (V c main_v8) (V c main_v6) (V c main_v9)) := by
  show (cfg1.win 7).cut (grid1.coords t) ((dat1 V c).after 7 t) = _
  rw [after1_7]
  funext j
  obtain ⟨r, o, rfl⟩ : ∃ (r : Fin 64) (o : Fin 3), j = ix2 r o := ⟨j 0, j 1, eq_ix2 j⟩
  show out1_7 (iblk1 V c 0 t) (iblk1 V c 1 t) (iblk1 V c 2 t) (iblk1 V c 3 t) (iblk1 V c 4 t) (iblk1 V c 5 t) (iblk1 V c 6 t) (ix2 r o)
    = G7 (V c main_v3) (V c main_v4) (V c main_v7) (V c main_v5) (V c main_v8) (V c main_v6) (V c main_v9) (((cfg1.win 7).blk t).view.emb (ix2 r o))
  rw [emb7_apply]
  refine (Cert.KernelIdeal.FcValue.out_apply _ _ _ _ _ _ _ r o).trans ?_
  simp only [blk0_apply V c t, blk1_apply V c t, blk2_apply V c t, blk3_apply V c t, blk4_apply V c t, blk5_apply V c t, blk6_apply V c t]
  rfl

/-- The logits after the region: `G7` of the region's arrays. -/
theorem final7 (c : Dev nD) : (dat1 V c).arrAt 7 cfg1.N = G7 (V c main_v3) (V c main_v4) (V c main_v7) (V c main_v5) (V c main_v8) (V c main_v6) (V c main_v9) :=
  (dat1 V c).arrAt_eq_of_cover 7 _ (fun t _ => flushed7_eq V c t) cover7

end Cert.KernelIdeal.Region1

end
-- ==== Proof.HostGlue.lean ====
/-
  The host operations between the regions, read back to the launch memory.

  Before the first region the host changes the format of two weight matrices; between the regions it joins the two
  aggregate arrays side by side, changes the format of three more weight matrices and gives the three bias vectors a
  leading unit axis. On the extended reals a format change is the identity, so every array the regions read is, entry
  by entry, an array of the launch memory (or, for the joined one, of what the first region left).
-/
import proofs.«177522_j36386962932383_2_alg».proof.Proof.Gen.KernelIdeal.Frame
import proofs.«177522_j36386962932383_2_alg».proof.Proof.LibConcatCols
import Idealize.ShloMosaic.Lib.StableHlo.Run
import Idealize.ShloMosaic.Lib.ValueLayout
import Idealize.ShloMosaic.Lib.Pipeline.Value

set_option maxRecDepth 16384

noncomputable section

namespace Cert.KernelIdeal.Glue

open Cert.KernelIdeal Cert.KernelIdeal.Gen Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- A reference that no operation of a stretch writes holds after it what it held before. -/
macro "stretch_keeps" : tactic =>
  `(tactic| (refine StableHlo.after_of_forall_not_mem _ _ (List.forall_iff_forall_mem.mp ?_)
             simp only [hostOps0, hostOps1, List.Forall, StableHlo.unary_writes, StableHlo.binary_writes,
               StableHlo.reshape_writes, Finset.mem_singleton]
             repeat' apply And.intro
             all_goals exact StableHlo.devRef_ne_of_ne (by decide)))

/-! ## Before the first region -/

theorem V1_arg0 (c : Dev nD) : V1 m ρ c main_arg0 = m ((c : Thread nD τ).loc main_arg0) := by
  show StableHlo.after hostOps0 (W0 m ρ c) (Proc.devRef .tc main_arg0) = W0 m ρ c (Proc.devRef .tc main_arg0)
  stretch_keeps

theorem V1_arg1 (c : Dev nD) : V1 m ρ c main_arg1 = m ((c : Thread nD τ).loc main_arg1) := by
  show StableHlo.after hostOps0 (W0 m ρ c) (Proc.devRef .tc main_arg1) = W0 m ρ c (Proc.devRef .tc main_arg1)
  stretch_keeps

theorem V1_v0 (c : Dev nD) (i : S512x256.Idx) : V1 m ρ c main_v0 i = m ((c : Thread nD τ).loc main_arg2) i := by
  have e : (V1 m ρ c main_v0 : S512x256.Idx → EReal) = (W0 m ρ c (Proc.devRef .tc main_arg2) : S512x256.Idx → EReal) := by
    show StableHlo.after hostOps0 (W0 m ρ c) (Proc.devRef .tc main_v0) = _
    after_results
    rfl
  exact congrFun e i

theorem V1_v1 (c : Dev nD) (i : S1024x2048.Idx) : V1 m ρ c main_v1 i = m ((c : Thread nD τ).loc main_arg3) i := by
  have e : (V1 m ρ c main_v1 : S1024x2048.Idx → EReal) = (W0 m ρ c (Proc.devRef .tc main_arg3) : S1024x2048.Idx → EReal) := by
    show StableHlo.after hostOps0 (W0 m ρ c) (Proc.devRef .tc main_v1) = _
    after_results
    rfl
  exact congrFun e i

/-! ## The arguments the second stretch reads are still as launched -/

theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = W0 m ρ c (Proc.devRef .tc main_arg4)
    stretch_keeps)

theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = W0 m ρ c (Proc.devRef .tc main_arg5)
    stretch_keeps)

theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = W0 m ρ c (Proc.devRef .tc main_arg6)
    stretch_keeps)

theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = W0 m ρ c (Proc.devRef .tc main_arg7)
    stretch_keeps)

theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = W0 m ρ c (Proc.devRef .tc main_arg8)
    stretch_keeps)

theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = W0 m ρ c (Proc.devRef .tc main_arg9)
    stretch_keeps)

/-! ## Between the regions -/

theorem V3_v3 (c : Dev nD) (b : Fin 128) (k : Fin 4096) :
    V3 m ρ c main_v3 (ix2 b k)
      = if h : k.val < 2048 then V2 m ρ c main_v2_0 (ix2 b ⟨k.val, h⟩)
        else V2 m ρ c main_v2_1 (ix2 b ⟨k.val - 2048, by omega⟩) := by
  have e : (V3 m ρ c main_v3 : S128x4096.Idx → EReal)
      = concatenate S128x4096 1 [⟨S128x2048, (W2 m ρ c (Proc.devRef .tc main_v2_0) : S128x2048.Idx → EReal)⟩,
          ⟨S128x2048, (W2 m ρ c (Proc.devRef .tc main_v2_1) : S128x2048.Idx → EReal)⟩]
          concatenates_S128x2048_S128x2048_S128x4096_d1 := by
    show StableHlo.after hostOps1 (W2 m ρ c) (Proc.devRef .tc main_v3) = _
    after_results
  refine (congrFun e _).trans ?_
  by_cases h : k.val < 2048
  · rw [dif_pos h]
    exact concatenate_cols_left _ _ _ b k ⟨k.val, h⟩ rfl
  · rw [dif_neg h]
    exact concatenate_cols_right _ _ _ b k ⟨k.val - 2048, by omega⟩ (by show k.val - 2048 + 2048 = k.val; omega)

theorem V3_v4 (c : Dev nD) (i : S4096x2048.Idx) : V3 m ρ c main_v4 i = m ((c : Thread nD τ).loc main_arg4) i := by
  have e : (V3 m ρ c main_v4 : S4096x2048.Idx → EReal) = (W2 m ρ c (Proc.devRef .tc main_arg4) : S4096x2048.Idx → EReal) := by
    show StableHlo.after hostOps1 (W2 m ρ c) (Proc.devRef .tc main_v4) = _
    after_results
    rfl
  exact (congrFun e i).trans (congrFun (W2_arg4 m ρ c) i)

theorem V3_v5 (c : Dev nD) (i : S2048x2048.Idx) : V3 m ρ c main_v5 i = m ((c : Thread nD τ).loc main_arg6) i := by
  have e : (V3 m ρ c main_v5 : S2048x2048.Idx → EReal) = (W2 m ρ c (Proc.devRef .tc main_arg6) : S2048x2048.Idx → EReal) := by
    show StableHlo.after hostOps1 (W2 m ρ c) (Proc.devRef .tc main_v5) = _
    after_results
    rfl
  exact (congrFun e i).trans (congrFun (W2_arg6 m ρ c) i)

theorem V3_v6 (c : Dev nD) (i : S2048x3.Idx) : V3 m ρ c main_v6 i = m ((c : Thread nD τ).loc main_arg8) i := by
  have e : (V3 m ρ c main_v6 : S2048x3.Idx → EReal) = (W2 m ρ c (Proc.devRef .tc main_arg8) : S2048x3.Idx → EReal) := by
    show StableHlo.after hostOps1 (W2 m ρ c) (Proc.devRef .tc main_v6) = _
    after_results
    rfl
  exact (congrFun e i).trans (congrFun (W2_arg8 m ρ c) i)

theorem V3_v7 (c : Dev nD) (f : Fin 2048) :
    V3 m ρ c main_v7 (ix2 (0 : Fin 1) f) = m ((c : Thread nD τ).loc main_arg5) (ix1 f) := by
  have e : (V3 m ρ c main_v7 : S1x2048.Idx → EReal)
      = shapeCast S1x2048 (W2 m ρ c (Proc.devRef .tc main_arg5) : S2048.Idx → EReal) shapeCasts_S2048_S1x2048 := by
    show StableHlo.after hostOps1 (W2 m ρ c) (Proc.devRef .tc main_v7) = _
    after_results
    rfl
  refine (congrFun e _).trans ?_
  refine (shapeCast_a_1a_apply _ _ (0 : Fin 1) f).trans ?_
  exact congrFun (W2_arg5 m ρ c) (ix1 f)

theorem V3_v8 (c : Dev nD) (f : Fin 2048) :
    V3 m ρ c main_v8 (ix2 (0 : Fin 1) f) = m ((c : Thread nD τ).loc main_arg7) (ix1 f) := by
  have e : (V3 m ρ c main_v8 : S1x2048.Idx → EReal)
      = shapeCast S1x2048 (W2 m ρ c (Proc.devRef .tc main_arg7) : S2048.Idx → EReal) shapeCasts_S2048_S1x2048 := by
    show StableHlo.after hostOps1 (W2 m ρ c) (Proc.devRef .tc main_v8) = _
    after_results
    rfl
  refine (congrFun e _).trans ?_
  refine (shapeCast_a_1a_apply _ _ (0 : Fin 1) f).trans ?_
  exact congrFun (W2_arg7 m ρ c) (ix1 f)

theorem V3_v9 (c : Dev nD) (f : Fin 3) :
    V3 m ρ c main_v9 (ix2 (0 : Fin 1) f) = m ((c : Thread nD τ).loc main_arg9) (ix1 f) := by
  have e : (V3 m ρ c main_v9 : S1x3.Idx → EReal)
      = shapeCast S1x3 (W2 m ρ c (Proc.devRef .tc main_arg9) : S3.Idx → EReal) shapeCasts_S3_S1x3 := by
    show StableHlo.after hostOps1 (W2 m ρ c) (Proc.devRef .tc main_v9) = _
    after_results
    rfl
  refine (congrFun e _).trans ?_
  refine (shapeCast_a_1a_apply _ _ (0 : Fin 1) f).trans ?_
  exact congrFun (W2_arg9 m ρ c) (ix1 f)

end Cert.KernelIdeal.Glue

end
-- ==== Proof.KernelValue.lean ====
/-
  The kernel program's result is the specification's.  Walking @main backwards: the result array is what the second
  region leaves, the head applied to each row of the features it finds; those features are the two aggregate arrays the
  first region leaves, joined side by side by the host; each aggregate row is the aggregate of one example of the
  premises and hypotheses, which reach the first region as launched; and every parameter reaches its region as launched
  (a change of format, or of shape from a vector to a one-row matrix, changes no entry).
-/
import proofs.«177522_j36386962932383_2_alg».proof.Proof.Blocks0b
import proofs.«177522_j36386962932383_2_alg».proof.Proof.Blocks1b
import proofs.«177522_j36386962932383_2_alg».proof.Proof.HostGlue
import proofs.«177522_j36386962932383_2_alg».proof.Proof.Rows

set_option maxRecDepth 16384

noncomputable section

namespace Cert.KernelIdeal.KernelValue

open Cert.KernelIdeal Cert.KernelIdeal.Gen Cert.Attn Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- Row `b` of the premise side's aggregates after the first region. -/
theorem v2_0_apply (c : Dev nD) (b : Fin 128) (g : Fin 2048) :
    V2 m ρ c main_v2_0 (ix2 b g)
      = agg1 (rowsOf (m ((c : Thread nD τ).loc main_arg0)) b) (rowsOf (m ((c : Thread nD τ).loc main_arg1)) b)
          (mat (m ((c : Thread nD τ).loc main_arg2))) (mat (m ((c : Thread nD τ).loc main_arg3))) g := by
  have h : V2 m ρ c main_v2_0 = Region0.G4 (V1 m ρ c main_arg0) (V1 m ρ c main_arg1) (V1 m ρ c main_v0) (V1 m ρ c main_v1) :=
    (W2_arr m ρ c 4).trans (Region0.final4 (V1 m ρ) c)
  rw [h, Cert.KernelIdeal.Glue.V1_arg0, Cert.KernelIdeal.Glue.V1_arg1]
  show agg1 _ _ (mat (V1 m ρ c main_v0)) (mat (V1 m ρ c main_v1)) g = _
  rw [show mat (V1 m ρ c main_v0) = mat (m ((c : Thread nD τ).loc main_arg2)) from
        funext fun i => funext fun j => Cert.KernelIdeal.Glue.V1_v0 m ρ c (ix2 i j),
      show mat (V1 m ρ c main_v1) = mat (m ((c : Thread nD τ).loc main_arg3)) from
        funext fun i => funext fun j => Cert.KernelIdeal.Glue.V1_v1 m ρ c (ix2 i j)]

/-- Row `b` of the hypothesis side's aggregates after the first region. -/
theorem v2_1_apply (c : Dev nD) (b : Fin 128) (g : Fin 2048) :
    V2 m ρ c main_v2_1 (ix2 b g)
      = agg2 (rowsOf (m ((c : Thread nD τ).loc main_arg0)) b) (rowsOf (m ((c : Thread nD τ).loc main_arg1)) b)
          (mat (m ((c : Thread nD τ).loc main_arg2))) (mat (m ((c : Thread nD τ).loc main_arg3))) g := by
  have h : V2 m ρ c main_v2_1 = Region0.G5 (V1 m ρ c main_arg0) (V1 m ρ c main_arg1) (V1 m ρ c main_v0) (V1 m ρ c main_v1) :=
    (W2_arr m ρ c 5).trans (Region0.final5 (V1 m ρ) c)
  rw [h, Cert.KernelIdeal.Glue.V1_arg0, Cert.KernelIdeal.Glue.V1_arg1]
  show agg2 _ _ (mat (V1 m ρ c main_v0)) (mat (V1 m ρ c main_v1)) g = _
  rw [show mat (V1 m ρ c main_v0) = mat (m ((c : Thread nD τ).loc main_arg2)) from
        funext fun i => funext fun j => Cert.KernelIdeal.Glue.V1_v0 m ρ c (ix2 i j),
      show mat (V1 m ρ c main_v1) = mat (m ((c : Thread nD τ).loc main_arg3)) from
        funext fun i => funext fun j => Cert.KernelIdeal.Glue.V1_v1 m ρ c (ix2 i j)]

/-- Row `b` of the features the second region finds. -/
theorem features_apply (c : Dev nD) (b : Fin 128) :
    (fun k : Fin 4096 => V3 m ρ c main_v3 (ix2 b k))
      = feat (rowsOf (m ((c : Thread nD τ).loc main_arg0)) b) (rowsOf (m ((c : Thread nD τ).loc main_arg1)) b)
          (mat (m ((c : Thread nD τ).loc main_arg2))) (mat (m ((c : Thread nD τ).loc main_arg3))) := by
  funext k
  rw [Cert.KernelIdeal.Glue.V3_v3]
  unfold feat vjoin
  by_cases h : k.val < 2048
  · rw [dif_pos h, dif_pos h, v2_0_apply]
  · rw [dif_neg h, dif_neg h, v2_1_apply]

/-- The result array at the last boundary of @main is the specification's result of the launched arguments. -/
theorem result_eq (c : Dev nD) :
    W4 m ρ c (Proc.devRef .tc main_v10)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  refine ((W4_arr m ρ c 7).trans (Region1.final7 (V3 m ρ) c)).trans ?_
  funext i
  obtain ⟨b, o, rfl⟩ : ∃ (b : Fin 128) (o : Fin 3), i = ix2 b o := ⟨i 0, i 1, eq_ix2 i⟩
  rw [result_apply]
  unfold Region1.G7 logits
  show head (fun k : Fin 4096 => V3 m ρ c main_v3 (ix2 b k)) _ _ _ _ _ _ o = _
  rw [features_apply]
  have e1 : (fun (a : Fin 4096) (b : Fin 2048) => V3 m ρ c main_v4 (ix2 a b)) = mat (m ((c : Thread nD τ).loc main_arg4)) :=
    funext fun a => funext fun b => Cert.KernelIdeal.Glue.V3_v4 m ρ c (ix2 a b)
  have e2 : (fun f : Fin 2048 => V3 m ρ c main_v7 (ix2 (0 : Fin 1) f)) = vec (m ((c : Thread nD τ).loc main_arg5)) :=
    funext fun f => Cert.KernelIdeal.Glue.V3_v7 m ρ c f
  have e3 : (fun (a : Fin 2048) (b : Fin 2048) => V3 m ρ c main_v5 (ix2 a b)) = mat (m ((c : Thread nD τ).loc main_arg6)) :=
    funext fun a => funext fun b => Cert.KernelIdeal.Glue.V3_v5 m ρ c (ix2 a b)
  have e4 : (fun f : Fin 2048 => V3 m ρ c main_v8 (ix2 (0 : Fin 1) f)) = vec (m ((c : Thread nD τ).loc main_arg7)) :=
    funext fun f => Cert.KernelIdeal.Glue.V3_v8 m ρ c f
  have e5 : (fun (a : Fin 2048) (b : Fin 3) => V3 m ρ c main_v6 (ix2 a b)) = mat (m ((c : Thread nD τ).loc main_arg8)) :=
    funext fun a => funext fun b => Cert.KernelIdeal.Glue.V3_v6 m ρ c (ix2 a b)
  have e6 : (fun f : Fin 3 => V3 m ρ c main_v9 (ix2 (0 : Fin 1) f)) = vec (m ((c : Thread nD τ).loc main_arg9)) :=
    funext fun f => Cert.KernelIdeal.Glue.V3_v9 m ρ c f
  rw [e1, e2, e3, e4, e5, e6]

end Cert.KernelIdeal.KernelValue

end
-- ==== Proof.lean ====
/-
  A decomposable-attention classifier — alignment weights by a softmax of projected inner products, aligned rows,
  a squashed comparison summed over the rows, and a three-layer head — computed by a program of two pipelined regions
  with host operations between them, against the same classifier written as whole-array operations.

  On the extended reals both programs compute ONE function of the ten argument arrays, `Cert.Attn.result`
  (Proof/Spec.lean, Proof/Rows.lean): every operation of one program is an operation of the other, a change of float
  format is the identity, and the sums that the two programs accumulate differently (a matrix unit's product into a zero
  accumulator against a host contraction; a reduction along an axis against a host reduction from zero; a comparison
  taken 256 columns at a time, 8 examples at a time, against one contraction over the whole batch) are the same finite
  sums.  No entry needs to be finite for that, so the precondition is never opened.

  The reference's run ends with its result at the composition of its operations (Proof/RefRun.lean), which entry by
  entry is the specification (Proof/RefValue*.lean).  The kernel program's run ends with its result at what the second
  region leaves (Proof/KernelRun.lean); walking back through the regions' blocks and the host operations
  (Proof/Blocks*.lean, Proof/HostGlue.lean, Proof/KernelValue.lean) with what each region's body computes on a block
  (Proof/AlignValue.lean, Proof/AlignJoin.lean, Proof/CompareValue.lean, Proof/AggValue.lean, Proof/AggSpec.lean,
  Proof/FcValue.lean), that too is the specification.  The three frames are the generated ones (the reference's is its
  run with the result dropped), and the idealization rewrote nothing.
-/
import proofs.«177522_j36386962932383_2_alg».proof.Defs
import proofs.«177522_j36386962932383_2_alg».proof.Proof.Gen.Kernel
import proofs.«177522_j36386962932383_2_alg».proof.Proof.Gen.Kernel.Skeleton
import proofs.«177522_j36386962932383_2_alg».proof.Proof.Gen.Kernel.Launch
import proofs.«177522_j36386962932383_2_alg».proof.Proof.Gen.Kernel.Points
import proofs.«177522_j36386962932383_2_alg».proof.Proof.Gen.Kernel.Frame
import proofs.«177522_j36386962932383_2_alg».proof.Proof.Gen.KernelIdeal
import proofs.«177522_j36386962932383_2_alg».proof.Proof.Gen.KernelIdeal.Skeleton
import proofs.«177522_j36386962932383_2_alg».proof.Proof.Gen.KernelIdeal.Launch
import proofs.«177522_j36386962932383_2_alg».proof.Proof.Gen.KernelIdeal.Points
import proofs.«177522_j36386962932383_2_alg».proof.Proof.Gen.KernelIdeal.Frame
import proofs.«177522_j36386962932383_2_alg».proof.Proof.Gen.ReferenceIdeal
import proofs.«177522_j36386962932383_2_alg».proof.Proof.Gen.Pre_finite_inputs
import proofs.«177522_j36386962932383_2_alg».proof.Proof.RefRun
import proofs.«177522_j36386962932383_2_alg».proof.Proof.RefValue
import proofs.«177522_j36386962932383_2_alg».proof.Proof.KernelRun
import proofs.«177522_j36386962932383_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both runs end with the result at the specification's value of the arguments, which agree. -/
theorem algebraic : Cert.algebraic_KernelIdeal_ReferenceIdeal := by
  intro m ρ m' ρ' _ hagree
  refine ⟨fun c => Cert.Attn.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.KernelValue.result_eq m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.RefRun.run (F := Ideal) m' ρ')
    obtain ⟨h0, h1, h2, h3, h4, h5, h6, h7, h8, h9⟩ := hagree c
    rw [Cert.ReferenceIdeal.RefValue.value, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
